-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S384x128 : Shape := ⟨2, ![384, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S384x128 : S_.BroadcastsInDim S384x128 (![] : Fin 0 → Fin S384x128.rank)
  reducesTo_S384x128_S_d0_1 : S384x128.ReducesTo [0, 1] S_

variable [Facts]

def fn_part1 {F : FTy → Type} [FloatOps F] (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S10000x10000 .f32) (main_arg3 : FVec F S384x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S384x128 : Shape := ⟨2, ![384, 128]⟩
abbrev S3x128x128 : Shape := ⟨3, ![3, 128, 128]⟩
abbrev S128x3x128 : Shape := ⟨3, ![128, 3, 128]⟩
abbrev S128x384 : Shape := ⟨2, ![128, 384]⟩
abbrev S10000x384 : Shape := ⟨2, ![10000, 384]⟩
abbrev S200x128 : Shape := ⟨2, ![200, 128]⟩
abbrev S200x10000 : Shape := ⟨2, ![200, 10000]⟩

abbrev nBuf : Space → Nat
  | .hbm => 12
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S384x128, .f32⟩
  | .hbm, ⟨4, _⟩ => ⟨S3x128x128, .f32⟩
  | .hbm, ⟨5, _⟩ => ⟨S128x3x128, .f32⟩
  | .hbm, ⟨6, _⟩ => ⟨S128x384, .f32⟩
  | .hbm, ⟨7, _⟩ => ⟨S10000x384, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .local _ .vmem, ⟨0, _⟩ => ⟨S10000x128, .f32⟩
  | .local _ .vmem, ⟨1, _⟩ => ⟨S128x384, .f32⟩
  | .local _ .vmem, ⟨2, _⟩ => ⟨S10000x384, .f32⟩
  | .local _ .vmem, ⟨3, _⟩ => ⟨S200x128, .f32⟩
  | .local _ .vmem, ⟨4, _⟩ => ⟨S200x128, .f32⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S10000x128, .f32⟩
  | .local _ .vmem, ⟨10, _⟩ => ⟨S10000x128, .f32⟩
  | .local _ .vmem, ⟨11, _⟩ => ⟨S200x128, .f32⟩
  | .local _ .vmem, ⟨12, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10000x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S384x128_S3x128x128 : S384x128.ShapeCasts S3x128x128
  transposes_S3x128x128_S128x3x128_1_0_2 : S3x128x128.Transposes [1, 0, 2] S128x3x128
  shapeCasts_S128x3x128_S128x384 : S128x3x128.ShapeCasts S128x384
  inb_S10000x128_S10000x128_0_0 : ∀ a, (![0, 0] : Fin 2 → Nat) a + S10000x128.size a ≤ S10000x128.size a
  h_S10000x128 : 0 < S10000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S10000x384_S10000x384_0_0 : ∀ a, (![0, 0] : Fin 2 → Nat) a + S10000x384.size a ≤ S10000x384.size a
  h_S10000x384 : 0 < S10000x384.numel
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S200x10000_S200x10000_0_0 : ∀ a, (![0, 0] : Fin 2 → Nat) a + S200x10000.size a ≤ S200x10000.size a
  h_S200x10000 : 0 < S200x10000.numel
  shapeCasts_S10000x128_S10000x128 : S10000x128.ShapeCasts S10000x128
  dot_S10000x128_S128x384_S10000x384_1_0_0_1_n_n_wf : DotDims.WF S10000x128 S128x384 S10000x384 [1] [0] [0] [1] [] []
  dot_S200x10000_S10000x128_S200x128_1_0_0_1_n_n_wf : DotDims.WF S200x10000 S10000x128 S200x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x128.size a ≤ S10000x128.size a
  hwx1_0 : ∀ i : grid1.Coords, EltTy.bits .f32 = 32 ∨ (Rect.block (s := S10000x128) S200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x10000.size a ≤ S10000x10000.size a
  hwx1_2 : ∀ i : grid1.Coords, EltTy.bits .f32 = 32 ∨ (Rect.block (s := S10000x10000) S200x10000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S10000x128.size a
  hwx1_3 : ∀ i : grid1.Coords, EltTy.bits .f32 = 32 ∨ (Rect.block (s := S10000x128) S10000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S10000x128.size a
  hwx1_4 : ∀ i : grid1.Coords, EltTy.bits .f32 = 32 ∨ (Rect.block (s := S10000x128) S10000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S10000x128.size a
  hwx1_5 : ∀ i : grid1.Coords, EltTy.bits .f32 = 32 ∨ (Rect.block (s := S10000x128) S200x128.size (cc1_transform_5 i) (hinb1_5 i)).WholeWords (EltTy.packing .f32)

variable [Facts₀]

def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v2) false false (stage0_1 0) (sem0_1 0) (Memref.isWhole_whole _) (hstage0_1 0)

abbrev win0_2 : Pipeline.Window sig grid0 :=
  Pipeline.Window.whole (Memref.whole main_v3) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S200x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S10000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S10000x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S200x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S384x128 : Shape := ⟨2, ![384, 128]⟩
abbrev S10000x384 : Shape := ⟨2, ![10000, 384]⟩
abbrev S100x384 : Shape := ⟨2, ![100, 384]⟩
abbrev S100x128 : Shape := ⟨2, ![100, 128]⟩
abbrev S1600x128 : Shape := ⟨2, ![1600, 128]⟩
abbrev S400x128 : Shape := ⟨2, ![400, 128]⟩
abbrev S_ : Shape := ⟨0, ![]⟩

abbrev nBuf : Space → Nat
  | .hbm => 223
  | .vmem => 0
  | .smem => 0
  | _ => 0

abbrev hbmTy0_0 (i : Nat) : BufTy := match i % 128 with
  | 0 => ⟨S10000x128, .f32⟩
  | 1 => ⟨S10000x10000, .f32⟩
  | 2 => ⟨S10000x10000, .f32⟩
  | 3 => ⟨S384x128, .f32⟩
  | 4 => ⟨S10000x128, .f32⟩
  | 5 => ⟨S10000x128, .f32⟩
  | 6 => ⟨S10000x384, .f32⟩
  | 7 => ⟨S100x384, .f32⟩
  | 8 => ⟨S100x384, .f32⟩
  | 9 => ⟨S100x384, .f32⟩
  | 10 => ⟨S100x384, .f32⟩
  | 11 => ⟨S100x384, .f32⟩
  | 12 => ⟨S100x384, .f32⟩
  | 13 => ⟨S100x384, .f32⟩
  | 14 => ⟨S100x384, .f32⟩
  | 15 => ⟨S100x384, .f32⟩
  | 16 => ⟨S100x384, .f32⟩
  | 17 => ⟨S100x384, .f32⟩
  | 18 => ⟨S100x384, .f32⟩
  | 19 => ⟨S100x384, .f32⟩
  | 20 => ⟨S100x384, .f32⟩
  | 21 => ⟨S100x384, .f32⟩
  | 22 => ⟨S100x384, .f32⟩
  | 23 => ⟨S100x384, .f32⟩
  | 24 => ⟨S100x384, .f32⟩
  | 25 => ⟨S100x384, .f32⟩
  | 26 => ⟨S100x384, .f32⟩
  | 27 => ⟨S100x384, .f32⟩
  | 28 => ⟨S100x384, .f32⟩
  | 29 => ⟨S100x384, .f32⟩
  | 30 => ⟨S100x384, .f32⟩
  | 31 => ⟨S100x384, .f32⟩
  | 32 => ⟨S100x384, .f32⟩
  | 33 => ⟨S100x384, .f32⟩
  | 34 => ⟨S100x384, .f32⟩
  | 35 => ⟨S100x384, .f32⟩
  | 36 => ⟨S100x384, .f32⟩
  | 37 => ⟨S100x384, .f32⟩
  | 38 => ⟨S100x384, .f32⟩
  | 39 => ⟨S100x384, .f32⟩
  | 40 => ⟨S100x384, .f32⟩
  | 41 => ⟨S100x384, .f32⟩
  | 42 => ⟨S100x384, .f32⟩
  | 43 => ⟨S100x384, .f32⟩
  | 44 => ⟨S100x384, .f32⟩
  | 45 => ⟨S100x384, .f32⟩
  | 46 => ⟨S100x384, .f32⟩
  | 47 => ⟨S100x384, .f32⟩
  | 48 => ⟨S100x384, .f32⟩
  | 49 => ⟨S100x384, .f32⟩
  | 50 => ⟨S100x384, .f32⟩
  | 51 => ⟨S100x384, .f32⟩
  | 52 => ⟨S100x384, .f32⟩
  | 53 => ⟨S100x384, .f32⟩
  | 54 => ⟨S100x384, .f32⟩
  | 55 => ⟨S100x384, .f32⟩
  | 56 => ⟨S100x384, .f32⟩
  | 57 => ⟨S100x384, .f32⟩
  | 58 => ⟨S100x384, .f32⟩
  | 59 => ⟨S100x384, .f32⟩
  | 60 => ⟨S100x384, .f32⟩
  | 61 => ⟨S100x384, .f32⟩
  | 62 => ⟨S100x384, .f32⟩
  | 63 => ⟨S100x384, .f32⟩
  | 64 => ⟨S100x384, .f32⟩
  | 65 => ⟨S100x384, .f32⟩
  | 66 => ⟨S100x384, .f32⟩
  | 67 => ⟨S100x384, .f32⟩
  | 68 => ⟨S100x384, .f32⟩
  | 69 => ⟨S100x384, .f32⟩
  | 70 => ⟨S100x384, .f32⟩
  | 71 => ⟨S100x384, .f32⟩
  | 72 => ⟨S100x384, .f32⟩
  | 73 => ⟨S100x384, .f32⟩
  | 74 => ⟨S100x384, .f32⟩
  | 75 => ⟨S100x384, .f32⟩
  | 76 => ⟨S100x384, .f32⟩
  | 77 => ⟨S100x384, .f32⟩
  | 78 => ⟨S100x384, .f32⟩
  | 79 => ⟨S100x384, .f32⟩
  | 80 => ⟨S100x384, .f32⟩
  | 81 => ⟨S100x384, .f32⟩
  | 82 => ⟨S100x384, .f32⟩
  | 83 => ⟨S100x384, .f32⟩
  | 84 => ⟨S100x384, .f32⟩
  | 85 => ⟨S100x384, .f32⟩
  | 86 => ⟨S100x384, .f32⟩
  | 87 => ⟨S100x384, .f32⟩
  | 88 => ⟨S100x384, .f32⟩
  | 89 => ⟨S100x384, .f32⟩
  | 90 => ⟨S100x384, .f32⟩
  | 91 => ⟨S100x384, .f32⟩
  | 92 => ⟨S100x384, .f32⟩
  | 93 => ⟨S100x384, .f32⟩
  | 94 => ⟨S100x384, .f32⟩
  | 95 => ⟨S100x384, .f32⟩
  | 96 => ⟨S100x384, .f32⟩
  | 97 => ⟨S100x384, .f32⟩
  | 98 => ⟨S100x384, .f32⟩
  | 99 => ⟨S100x384, .f32⟩
  | 100 => ⟨S100x384, .f32⟩
  | 101 => ⟨S100x384, .f32⟩
  | 102 => ⟨S100x384, .f32⟩
  | 103 => ⟨S100x384, .f32⟩
  | 104 => ⟨S100x384, .f32⟩
  | 105 => ⟨S100x384, .f32⟩
  | 106 => ⟨S100x384, .f32⟩
  | 107 => ⟨S100x128, .f32⟩
  | 108 => ⟨S100x128, .f32⟩
  | 109 => ⟨S100x128, .f32⟩
  | 110 => ⟨S100x128, .f32⟩
  | 111 => ⟨S100x128, .f32⟩
  | 112 => ⟨S100x128, .f32⟩
  | 113 => ⟨S100x128, .f32⟩
  | 114 => ⟨S100x128, .f32⟩
  | 115 => ⟨S100x128, .f32⟩
  | 116 => ⟨S100x128, .f32⟩
  | 117 => ⟨S100x128, .f32⟩
  | 118 => ⟨S100x128, .f32⟩
  | 119 => ⟨S100x128, .f32⟩
  | 120 => ⟨S100x128, .f32⟩
  | 121 => ⟨S100x128, .f32⟩
  | 122 => ⟨S100x128, .f32⟩
  | 123 => ⟨S100x128, .f32⟩
  | 124 => ⟨S100x128, .f32⟩
  | 125 => ⟨S100x128, .f32⟩
  | 126 => ⟨S100x128, .f32⟩
  | 127 => ⟨S100x128, .f32⟩
  | _ => ⟨S10000x128, .f32⟩

abbrev hbmTy0_1 (i : Nat) : BufTy := match i % 128 with
  | 0 => ⟨S100x128, .f32⟩
  | 1 => ⟨S100x128, .f32⟩
  | 2 => ⟨S100x128, .f32⟩
  | 3 => ⟨S100x128, .f32⟩
  | 4 => ⟨S100x128, .f32⟩
  | 5 => ⟨S100x128, .f32⟩
  | 6 => ⟨S100x128, .f32⟩
  | 7 => ⟨S100x128, .f32⟩
  | 8 => ⟨S100x128, .f32⟩
  | 9 => ⟨S100x128, .f32⟩
  | 10 => ⟨S100x128, .f32⟩
  | 11 => ⟨S100x128, .f32⟩
  | 12 => ⟨S100x128, .f32⟩
  | 13 => ⟨S100x128, .f32⟩
  | 14 => ⟨S100x128, .f32⟩
  | 15 => ⟨S100x128, .f32⟩
  | 16 => ⟨S100x128, .f32⟩
  | 17 => ⟨S100x128, .f32⟩
  | 18 => ⟨S100x128, .f32⟩
  | 19 => ⟨S100x128, .f32⟩
  | 20 => ⟨S100x128, .f32⟩
  | 21 => ⟨S100x128, .f32⟩
  | 22 => ⟨S100x128, .f32⟩
  | 23 => ⟨S100x128, .f32⟩
  | 24 => ⟨S100x128, .f32⟩
  | 25 => ⟨S100x128, .f32⟩
  | 26 => ⟨S100x128, .f32⟩
  | 27 => ⟨S100x128, .f32⟩
  | 28 => ⟨S100x128, .f32⟩
  | 29 => ⟨S100x128, .f32⟩
  | 30 => ⟨S100x128, .f32⟩
  | 31 => ⟨S100x128, .f32⟩
  | 32 => ⟨S100x128, .f32⟩
  | 33 => ⟨S100x128, .f32⟩
  | 34 => ⟨S100x128, .f32⟩
  | 35 => ⟨S100x128, .f32⟩
  | 36 => ⟨S100x128, .f32⟩
  | 37 => ⟨S100x128, .f32⟩
  | 38 => ⟨S100x128, .f32⟩
  | 39 => ⟨S100x128, .f32⟩
  | 40 => ⟨S100x128, .f32⟩
  | 41 => ⟨S100x128, .f32⟩
  | 42 => ⟨S100x128, .f32⟩
  | 43 => ⟨S100x128, .f32⟩
  | 44 => ⟨S100x128, .f32⟩
  | 45 => ⟨S100x128, .f32⟩
  | 46 => ⟨S100x128, .f32⟩
  | 47 => ⟨S100x128, .f32⟩
  | 48 => ⟨S100x128, .f32⟩
  | 49 => ⟨S100x128, .f32⟩
  | 50 => ⟨S100x128, .f32⟩
  | 51 => ⟨S100x128, .f32⟩
  | 52 => ⟨S100x128, .f32⟩
  | 53 => ⟨S100x128, .f32⟩
  | 54 => ⟨S100x128, .f32⟩
  | 55 => ⟨S100x128, .f32⟩
  | 56 => ⟨S100x128, .f32⟩
  | 57 => ⟨S100x128, .f32⟩
  | 58 => ⟨S100x128, .f32⟩
  | 59 => ⟨S100x128, .f32⟩
  | 60 => ⟨S100x128, .f32⟩
  | 61 => ⟨S100x128, .f32⟩
  | 62 => ⟨S100x128, .f32⟩
  | 63 => ⟨S100x128, .f32⟩
  | 64 => ⟨S100x128, .f32⟩
  | 65 => ⟨S100x128, .f32⟩
  | 66 => ⟨S100x128, .f32⟩
  | 67 => ⟨S100x128, .f32⟩
  | 68 => ⟨S100x128, .f32⟩
  | 69 => ⟨S100x128, .f32⟩
  | 70 => ⟨S100x128, .f32⟩
  | 71 => ⟨S100x128, .f32⟩
  | 72 => ⟨S100x128, .f32⟩
  | 73 => ⟨S100x128, .f32⟩
  | 74 => ⟨S100x128, .f32⟩
  | 75 => ⟨S100x128, .f32⟩
  | 76 => ⟨S100x128, .f32⟩
  | 77 => ⟨S100x128, .f32⟩
  | 78 => ⟨S100x128, .f32⟩
  | 79 => ⟨S1600x128, .f32⟩
  | 80 => ⟨S1600x128, .f32⟩
  | 81 => ⟨S1600x128, .f32⟩
  | 82 => ⟨S1600x128, .f32⟩
  | 83 => ⟨S1600x128, .f32⟩
  | 84 => ⟨S1600x128, .f32⟩
  | 85 => ⟨S400x128, .f32⟩
  | 86 => ⟨S10000x128, .f32⟩
  | 87 => ⟨S_, .f32⟩
  | 88 => ⟨S_, .f32⟩
  | 89 => ⟨S10000x128, .f32⟩
  | 90 => ⟨S10000x128, .i1⟩
  | 91 => ⟨S_, .f32⟩
  | 92 => ⟨S10000x128, .f32⟩
  | 93 => ⟨S10000x128, .f32⟩
  | 94 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_cst : Ref sig .tc := ⟨.hbm, 215, rfl⟩
abbrev main_call0_cst : Ref sig .tc := ⟨.hbm, 216, rfl⟩
abbrev main_call0_v0 : Ref sig .tc := ⟨.hbm, 217, rfl⟩
abbrev main_call0_v1 : Ref sig .tc := ⟨.hbm, 218, rfl⟩
abbrev main_call0_v2 : Ref sig .tc := ⟨.hbm, 219, rfl⟩
abbrev main_call0_v3 : Ref sig .tc := ⟨.hbm, 220, rfl⟩
abbrev main_call0_v4 : Ref sig .tc := ⟨.hbm, 221, rfl⟩
abbrev main_v211 : Ref sig .tc := ⟨.hbm, 222, rfl⟩

abbrev nD : Nat := 1
abbrev τ : Topo := Topo.v7x

variable {F : FTy → Type} [FloatOps F]

class Facts₀ : Prop where
  concatenates_S10000x128_S10000x128_S10000x128_S10000x384_d1 : Shape.Concatenates [S10000x128, S10000x128, S10000x128] S10000x384 1
  slices_S10000x384_S100x384_0_0 : S10000x384.Slices ![0, 0] S100x384
  slices_S10000x384_S100x384_100_0 : S10000x384.Slices ![100, 0] S100x384
  slices_S10000x384_S100x384_200_0 : S10000x384.Slices ![200, 0] S100x384
  slices_S10000x384_S100x384_300_0 : S10000x384.Slices ![300, 0] S100x384
  slices_S10000x384_S100x384_400_0 : S10000x384.Slices ![400, 0] S100x384
  slices_S10000x384_S100x384_500_0 : S10000x384.Slices ![500, 0] S100x384
  slices_S10000x384_S100x384_600_0 : S10000x384.Slices ![600, 0] S100x384
  slices_S10000x384_S100x384_700_0 : S10000x384.Slices ![700, 0] S100x384
  slices_S10000x384_S100x384_800_0 : S10000x384.Slices ![800, 0] S100x384
  slices_S10000x384_S100x384_900_0 : S10000x384.Slices ![900, 0] S100x384
  slices_S10000x384_S100x384_1000_0 : S10000x384.Slices ![1000, 0] S100x384
  slices_S10000x384_S100x384_1100_0 : S10000x384.Slices ![1100, 0] S100x384
  slices_S10000x384_S100x384_1200_0 : S10000x384.Slices ![1200, 0] S100x384
  slices_S10000x384_S100x384_1300_0 : S10000x384.Slices ![1300, 0] S100x384
  slices_S10000x384_S100x384_1400_0 : S10000x384.Slices ![1400, 0] S100x384
  slices_S10000x384_S100x384_1500_0 : S10000x384.Slices ![1500, 0] S100x384
  slices_S10000x384_S100x384_1600_0 : S10000x384.Slices ![1600, 0] S100x384
  slices_S10000x384_S100x384_1700_0 : S10000x384.Slices ![1700, 0] S100x384
  slices_S10000x384_S100x384_1800_0 : S10000x384.Slices ![1800, 0] S100x384
  slices_S10000x384_S100x384_1900_0 : S10000x384.Slices ![1900, 0] S100x384
  slices_S10000x384_S100x384_2000_0 : S10000x384.Slices ![2000, 0] S100x384
  slices_S10000x384_S100x384_2100_0 : S10000x384.Slices ![2100, 0] S100x384
  slices_S10000x384_S100x384_2200_0 : S10000x384.Slices ![2200, 0] S100x384
  slices_S10000x384_S100x384_2300_0 : S10000x384.Slices ![2300, 0] S100x384
  slices_S10000x384_S100x384_2400_0 : S10000x384.Slices ![2400, 0] S100x384
  slices_S10000x384_S100x384_2500_0 : S10000x384.Slices ![2500, 0] S100x384
  slices_S10000x384_S100x384_2600_0 : S10000x384.Slices ![2600, 0] S100x384
  slices_S10000x384_S100x384_2700_0 : S10000x384.Slices ![2700, 0] S100x384
  slices_S10000x384_S100x384_2800_0 : S10000x384.Slices ![2800, 0] S100x384
  slices_S10000x384_S100x384_2900_0 : S10000x384.Slices ![2900, 0] S100x384
  slices_S10000x384_S100x384_3000_0 : S10000x384.Slices ![3000, 0] S100x384
  slices_S10000x384_S100x384_3100_0 : S10000x384.Slices ![3100, 0] S100x384
  slices_S10000x384_S100x384_3200_0 : S10000x384.Slices ![3200, 0] S100x384
  slices_S10000x384_S100x384_3300_0 : S10000x384.Slices ![3300, 0] S100x384
  slices_S10000x384_S100x384_3400_0 : S10000x384.Slices ![3400, 0] S100x384
  slices_S10000x384_S100x384_3500_0 : S10000x384.Slices ![3500, 0] S100x384
  slices_S10000x384_S100x384_3600_0 : S10000x384.Slices ![3600, 0] S100x384
  slices_S10000x384_S100x384_3700_0 : S10000x384.Slices ![3700, 0] S100x384
  slices_S10000x384_S100x384_3800_0 : S10000x384.Slices ![3800, 0] S100x384
  slices_S10000x384_S100x384_3900_0 : S10000x384.Slices ![3900, 0] S100x384
  slices_S10000x384_S100x384_4000_0 : S10000x384.Slices ![4000, 0] S100x384
  slices_S10000x384_S100x384_4100_0 : S10000x384.Slices ![4100, 0] S100x384
  slices_S10000x384_S100x384_4200_0 : S10000x384.Slices ![4200, 0] S100x384
  slices_S10000x384_S100x384_4300_0 : S10000x384.Slices ![4300, 0] S100x384
  slices_S10000x384_S100x384_4400_0 : S10000x384.Slices ![4400, 0] S100x384
  slices_S10000x384_S100x384_4500_0 : S10000x384.Slices ![4500, 0] S100x384
  slices_S10000x384_S100x384_4600_0 : S10000x384.Slices ![4600, 0] S100x384
  slices_S10000x384_S100x384_4700_0 : S10000x384.Slices ![4700, 0] S100x384
  slices_S10000x384_S100x384_4800_0 : S10000x384.Slices ![4800, 0] S100x384
  slices_S10000x384_S100x384_4900_0 : S10000x384.Slices ![4900, 0] S100x384
  slices_S10000x384_S100x384_5000_0 : S10000x384.Slices ![5000, 0] S100x384
  slices_S10000x384_S100x384_5100_0 : S10000x384.Slices ![5100, 0] S100x384
  slices_S10000x384_S100x384_5200_0 : S10000x384.Slices ![5200, 0] S100x384
  slices_S10000x384_S100x384_5300_0 : S10000x384.Slices ![5300, 0] S100x384
  slices_S10000x384_S100x384_5400_0 : S10000x384.Slices ![5400, 0] S100x384
  slices_S10000x384_S100x384_5500_0 : S10000x384.Slices ![5500, 0] S100x384
  slices_S10000x384_S100x384_5600_0 : S10000x384.Slices ![5600, 0] S100x384
  slices_S10000x384_S100x384_5700_0 : S10000x384.Slices ![5700, 0] S100x384
  slices_S10000x384_S100x384_5800_0 : S10000x384.Slices ![5800, 0] S100x384
  slices_S10000x384_S100x384_5900_0 : S10000x384.Slices ![5900, 0] S100x384
  slices_S10000x384_S100x384_6000_0 : S10000x384.Slices ![6000, 0] S100x384
  slices_S10000x384_S100x384_6100_0 : S10000x384.Slices ![6100, 0] S100x384
  slices_S10000x384_S100x384_6200_0 : S10000x384.Slices ![6200, 0] S100x384
  slices_S10000x384_S100x384_6300_0 : S10000x384.Slices ![6300, 0] S100x384
  slices_S10000x384_S100x384_6400_0 : S10000x384.Slices ![6400, 0] S100x384
  slices_S10000x384_S100x384_6500_0 : S10000x384.Slices ![6500, 0] S100x384
  slices_S10000x384_S100x384_6600_0 : S10000x384.Slices ![6600, 0] S100x384
  slices_S10000x384_S100x384_6700_0 : S10000x384.Slices ![6700, 0] S100x384
  slices_S10000x384_S100x384_6800_0 : S10000x384.Slices ![6800, 0] S100x384
  slices_S10000x384_S100x384_6900_0 : S10000x384.Slices ![6900, 0] S100x384
  slices_S10000x384_S100x384_7000_0 : S10000x384.Slices ![7000, 0] S100x384
  slices_S10000x384_S100x384_7100_0 : S10000x384.Slices ![7100, 0] S100x384
  slices_S10000x384_S100x384_7200_0 : S10000x384.Slices ![7200, 0] S100x384
  slices_S10000x384_S100x384_7300_0 : S10000x384.Slices ![7300, 0] S100x384
  slices_S10000x384_S100x384_7400_0 : S10000x384.Slices ![7400, 0] S100x384
  slices_S10000x384_S100x384_7500_0 : S10000x384.Slices ![7500, 0] S100x384
  slices_S10000x384_S100x384_7600_0 : S10000x384.Slices ![7600, 0] S100x384
  slices_S10000x384_S100x384_7700_0 : S10000x384.Slices ![7700, 0] S100x384
  slices_S10000x384_S100x384_7800_0 : S10000x384.Slices ![7800, 0] S100x384
  slices_S10000x384_S100x384_7900_0 : S10000x384.Slices ![7900, 0] S100x384
  slices_S10000x384_S100x384_8000_0 : S10000x384.Slices ![8000, 0] S100x384
  slices_S10000x384_S100x384_8100_0 : S10000x384.Slices ![8100, 0] S100x384
  slices_S10000x384_S100x384_8200_0 : S10000x384.Slices ![8200, 0] S100x384
  slices_S10000x384_S100x384_8300_0 : S10000x384.Slices ![8300, 0] S100x384
  slices_S10000x384_S100x384_8400_0 : S10000x384.Slices ![8400, 0] S100x384
  slices_S10000x384_S100x384_8500_0 : S10000x384.Slices ![8500, 0] S100x384
  slices_S10000x384_S100x384_8600_0 : S10000x384.Slices ![8600, 0] S100x384
  slices_S10000x384_S100x384_8700_0 : S10000x384.Slices ![8700, 0] S100x384
  slices_S10000x384_S100x384_8800_0 : S10000x384.Slices ![8800, 0] S100x384
  slices_S10000x384_S100x384_8900_0 : S10000x384.Slices ![8900, 0] S100x384
  slices_S10000x384_S100x384_9000_0 : S10000x384.Slices ![9000, 0] S100x384
  slices_S10000x384_S100x384_9100_0 : S10000x384.Slices ![9100, 0] S100x384
  slices_S10000x384_S100x384_9200_0 : S10000x384.Slices ![9200, 0] S100x384
  slices_S10000x384_S100x384_9300_0 : S10000x384.Slices ![9300, 0] S100x384
  slices_S10000x384_S100x384_9400_0 : S10000x384.Slices ![9400, 0] S100x384
  slices_S10000x384_S100x384_9500_0 : S10000x384.Slices ![9500, 0] S100x384
  slices_S10000x384_S100x384_9600_0 : S10000x384.Slices ![9600, 0] S100x384
  slices_S10000x384_S100x384_9700_0 : S10000x384.Slices ![9700, 0] S100x384
  slices_S10000x384_S100x384_9800_0 : S10000x384.Slices ![9800, 0] S100x384
  slices_S10000x384_S100x384_9900_0 : S10000x384.Slices ![9900, 0] S100x384
  concatenates_S100x128_S100x128_S100x128_S100x128_S100x128_S100x128_S100x128_S100x128_S100x128_S100x128_S100x128_S100x128_S100x128_S100x128_S100x128_S100x128_S1600x128_d0 : Shape.Concatenates [S100x128, S100x128, S100x128, S100x128, S100x128, S100x128, S100x128, S100x128, S100x128, S100x128, S100x128, S100x128, S100x128, S100x128, S100x128, S100x128] S1600x128 0
  concatenates_S100x128_S100x128_S100x128_S100x128_S400x128_d0 : Shape.Concatenates [S100x128, S100x128, S100x128, S100x128] S400x128 0
  concatenates_S1600x128_S1600x128_S1600x128_S1600x128_S1600x128_S1600x128_S400x128_S10000x128_d0 : Shape.Concatenates [S1600x128, S1600x128, S1600x128, S1600x128, S1600x128, S1600x128, S400x128] S10000x128 0
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S100x384_S384x128_S100x128_1_0_0_1_n_n_wf : DotDims.WF S100x384 S384x128 S100x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S100x384_S384x128_S100x128_1_0_0_1_n_n : DotDims S100x384 S384x128 S100x128 where
  lhsContracting := [1]
  rhsContracting := [0]
  lhsNonContracting := [0]
  rhsNonContracting := [1]
  lhsBatch := []
  rhsBatch := []
  wf := dot_S100x384_S384x128_S100x128_1_0_0_1_n_n_wf

class Facts : Prop extends Facts₀ where

variable [Facts]
-- ==== Proof.KRun.lean ====
/-
  The two-launch program run from any memory: every weakly fair execution ends, without a fault, with EVERY
  buffer that outlives the launches at the contents the fold through the program gives it — the projection
  `ego · [W₀ | W₁ | W₂]` written by the first launch, its three column bands cut out on the host, and the
  aggregated, rectified rows written block by block by the second launch. The frame statement reads only the four
  argument buffers off that final state; here the result buffer is read off it as well.
-/
import proofs.«146782_g82085414961676_cont_9to1_m_158_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and in the final state each buffer that is not a
    launch's private staging storage holds what the fold `W4` assigns it: the launch memory pushed through the host
    operations before the first launch, that launch's write-back, the host slices, and the second launch's
    write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer and the four argument buffers read off the final state. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
    (run_all m ρ)

end Cert.KernelIdeal.KValue

end
-- ==== Proof.Spec.lean ====
/-
  The common value of the two programs, index by index, on the extended reals.

  Row `i` of the concatenated feature matrix `[ego | A_in · ego | A_out · ego]` has 384 columns: the first 128 are
  `ego`'s row, the next 128 the row of `A_in · ego`, the last 128 the row of `A_out · ego`. The result at `(i, o)`
  is the leaky rectifier of that row's product with column `o` of the weight matrix `W` (384 × 128).
-/
import Idealize.ShloMosaic.PureOps.Ideal
import Idealize.ShloMosaic.Lib.ValueIdx

noncomputable section

open scoped BigOperators

namespace Cert.Spec

open Idealize.ShloMosaic Idealize.ShloMosaic.ValueIdx

/-- The shape of `ego` and of the result: 10000 nodes, 128 features. -/
abbrev SE : Shape := ⟨2, ![10000, 128]⟩
/-- The shape of each adjacency matrix. -/
abbrev SA : Shape := ⟨2, ![10000, 10000]⟩
/-- The shape of the weight matrix. -/
abbrev SW : Shape := ⟨2, ![384, 128]⟩

/-- The leaky rectifier at one extended real: `z` when `0 ≤ z`, otherwise `z` scaled by the f32 nearest 0.01. -/
def leaky (z : EReal) : EReal :=
  Scalar.select (Ideal.cmp .oge z (Ideal.ofBits .f32 0x00000000#32)) z (Ideal.ofBits .f32 0x3C23D70A#32 * z)

/-- Entry `(i, c)` of `[ego | A_in · ego | A_out · ego]`. -/
def cat (ego : SE.Idx → EReal) (ain aout : SA.Idx → EReal) (i : Fin 10000) (c : Fin 384) : EReal :=
  if h : c.val < 128 then ego (ix2 i ⟨c.val, h⟩)
  else if h' : c.val < 256 then ∑ k : Fin 10000, ain (ix2 i k) * ego (ix2 k ⟨c.val - 128, by omega⟩)
  else ∑ k : Fin 10000, aout (ix2 i k) * ego (ix2 k ⟨c.val - 256, by omega⟩)

/-- Entry `(i, o)` of the concatenated features times `W`. -/
def lin (ego : SE.Idx → EReal) (ain aout : SA.Idx → EReal) (w : SW.Idx → EReal) (i : Fin 10000) (o : Fin 128) : EReal :=
  ∑ c : Fin 384, cat ego ain aout i c * w (ix2 c o)

/-- The result array: the leaky rectifier of `lin`, entry by entry. -/
def G (ego : SE.Idx → EReal) (ain aout : SA.Idx → EReal) (w : SW.Idx → EReal) : SE.Idx → EReal :=
  fun j => leaky (lin ego ain aout w (j 0) (j 1))

end Cert.Spec

end
-- ==== Proof.KPay.lean ====
/-
  The second launch's arithmetic at one entry. At grid point `t` the body holds a 200-row block of the first column
  band `Y₀` of the projection, the matching 200 rows of the two adjacency matrices, and the whole second and third
  bands `Y₁`, `Y₂`; it stores, entry by entry, the leaky rectifier of
  `Y₀ + A_in-rows · Y₁ + A_out-rows · Y₂`. Each matrix product into a zero accumulator is, at an entry of the
  extended reals, the plain sum over the 10000 contracted positions.
-/
import proofs.«146782_g82085414961676_cont_9to1_m_158_1_alg».proof.Proof.Gen.KernelIdeal.Skeleton
import proofs.«146782_g82085414961676_cont_9to1_m_158_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.KValue

open Cert.KernelIdeal Cert.KernelIdeal.Gen Idealize.ShloMosaic Idealize.ShloMosaic.ValueIdx

/-- What the second launch computes as ONE function of five whole arrays: at `(i, o)` the leaky rectifier of
    `y0(i,o) + Σₖ ain(i,k) · y1(k,o) + Σₖ aout(i,k) · y2(k,o)`. -/
def agg (y0 : Cert.Spec.SE.Idx → EReal) (ain aout : Cert.Spec.SA.Idx → EReal) (y1 y2 : Cert.Spec.SE.Idx → EReal) :
    Cert.Spec.SE.Idx → EReal :=
  fun j => Cert.Spec.leaky (y0 j + ∑ k : Fin 10000, ain (ix2 (j 0) k) * y1 (ix2 k (j 1))
    + ∑ k : Fin 10000, aout (ix2 (j 0) k) * y2 (ix2 k (j 1)))

local notation "D1" => dot_S200x10000_S10000x128_S200x128_1_0_0_1_n_n

/-- A 200 × 10000 block times a 10000 × 128 array into the zero accumulator, at entry `(r, o)`: the sum over the
    contracted position `k` of `a(r,k) · y(k,o)`. The contraction has one axis of extent 10000, so its index set is
    `Fin 10000`; the left operand is read at `(r, k)`, the right at `(k, o)`. -/
theorem mm_apply (a : FVec Ideal S200x10000 .f32) (y : FVec Ideal S10000x128 .f32) (r : Fin 200) (o : Fin 128) :
    matmul (F := Ideal) dot_S200x10000_S10000x128_S200x128_1_0_0_1_n_n none a y (constant S200x128 .f32 0x00000000#32) (ix2 r o)
      = ∑ k : Fin 10000, a (ix2 r k) * y (ix2 k o) := by
  refine (Ideal.matmul_constant_zero_apply dot_S200x10000_S10000x128_S200x128_1_0_0_1_n_n none a y (ix2 r o)).trans ?_
  rw [← Equiv.sum_comp (contrEquiv1 dot_S200x10000_S10000x128_S200x128_1_0_0_1_n_n 10000 rfl rfl).symm]
  refine Finset.sum_congr rfl fun k _ => ?_
  have hl : DotDims.lhsIdx D1 (ix2 r o) ((contrEquiv1 D1 10000 rfl rfl).symm k) = ix2 r k := by
    funext a; apply Fin.ext
    match a with
    | ⟨0, _⟩ => rfl
    | ⟨1, _⟩ => exact (DotDims.lhsIdx_val_of_single D1 (cl := 1) rfl _ _).trans (contrEquiv1_symm_val D1 10000 rfl rfl k)
  have hr : DotDims.rhsIdx D1 (ix2 r o) ((contrEquiv1 D1 10000 rfl rfl).symm k) = ix2 k o := by
    funext a; apply Fin.ext
    match a with
    | ⟨0, _⟩ => exact (DotDims.rhsIdx_val_of_single D1 (cr := 0) rfl _ _).trans (contrEquiv1_symm_val D1 10000 rfl rfl k)
    | ⟨1, _⟩ => rfl
  rw [hl, hr]

/-- The stored value at entry `(r, o)` of a block: the casts to the same shape are the identity, the two products are
    sums over `k`, and compare / scale / select at one entry are the leaky rectifier there. -/
theorem pay_apply (x0 : Vec Ideal S200x128 .f32) (x1 x2 : Vec Ideal S200x10000 .f32) (x3 x4 : Vec Ideal S10000x128 .f32)
    (r : Fin 200) (o : Fin 128) :
    k1_pay1 x0 x1 x3 x2 x4 (ix2 r o)
      = Cert.Spec.leaky (x0 (ix2 r o) + ∑ k : Fin 10000, x1 (ix2 r k) * x3 (ix2 k o) + ∑ k : Fin 10000, x2 (ix2 r k) * x4 (ix2 k o)) := by
  unfold k1_pay1
  simp only [shapeCast_self, select_apply, cmpf_apply, mulf_apply, addf_apply, broadcast_apply, mm_apply]
  rfl

end Cert.KernelIdeal.KValue

end
-- ==== Proof.KAgg.lean ====
/-
  The second launch, read as one whole-array function. Its grid has 50 points; point `t` handles rows
  `200 t … 200 t + 199`: it reads that row block of the first column band `Y₀` and of the two adjacency matrices,
  and the whole second and third bands `Y₁`, `Y₂`, and writes that row block of the result. So (a) each input block
  read at an entry is the region-entry array at the shifted row, (b) what point `t` writes back is block `t` of the
  single function `agg Y₀ A_in A_out Y₁ Y₂`, (c) the 50 blocks cover all 10000 rows (row `i` lies in block
  `i / 200`), hence the result array ends holding that function. Everything is stated at an arbitrary valuation `V`
  of the buffers at the launch's entry.
-/
import proofs.«146782_g82085414961676_cont_9to1_m_158_1_alg».proof.Proof.KPay
import proofs.«146782_g82085414961676_cont_9to1_m_158_1_alg».proof.Proof.Gen.KernelIdeal.Frame
import Idealize.ShloMosaic.Lib.Pipeline.Value

set_option maxRecDepth 16384

noncomputable section

open scoped BigOperators

namespace Cert.KernelIdeal.KAgg

open Cert.KernelIdeal Cert.KernelIdeal.Gen Cert.KernelIdeal.KValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a whole-buffer access, as a constant function. -/
theorem hz : (![0, 0] : Fin 2 → Nat) = fun _ => 0 := funext fun a => by fin_cases a <;> rfl

/-- The block index of every window at every one of the 50 grid points: the three row-blocked inputs and the output
    sit at block row `t`, block column 0; the two resident inputs at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A grid point is one of 50. -/
theorem tlt (t : Fin cfg1.N) : t.val < 50 := lt_of_lt_of_eq t.isLt N_1

/-- Entry `(r, o)` of the `Y₀` block at point `t` is entry `(200 t + r, o)` of the array. -/
theorem iblk0_apply (c : Dev nD) (t : Fin cfg1.N) (r : Fin 200) (o : Fin 128) :
    (iblk1 V c 0 t : Vec Ideal S200x128 .f32) (ix2 r o)
      = (V c main_v4 : S10000x128.Idx → EReal) (ix2 ⟨200 * t.val + r.val, by have := tlt t; omega⟩ o) := by
  obtain ⟨e0, e1, -⟩ := idx_facts t
  unfold iblk1
  rw [View.read_apply]
  show V c main_v4 _ = V c main_v4 _
  congr 1
  funext a
  apply Fin.ext
  match a with
  | ⟨0, _⟩ => show win1_0.index t 0 * 200 + 1 * r.val = 200 * t.val + r.val; rw [e0]; omega
  | ⟨1, _⟩ => show win1_0.index t 1 * 128 + 1 * o.val = o.val; rw [e1]; omega

/-- Entry `(r, k)` of the `A_in` row block at point `t` is entry `(200 t + r, k)` of the matrix. -/
theorem iblk1_apply (c : Dev nD) (t : Fin cfg1.N) (r : Fin 200) (k : Fin 10000) :
    (iblk1 V c 1 t : Vec Ideal S200x10000 .f32) (ix2 r k)
      = (V c main_arg1 : S10000x10000.Idx → EReal) (ix2 ⟨200 * t.val + r.val, by have := tlt t; omega⟩ k) := by
  obtain ⟨-, -, e0, e1, -⟩ := idx_facts t
  unfold iblk1
  rw [View.read_apply]
  show V c main_arg1 _ = V c main_arg1 _
  congr 1
  funext a
  apply Fin.ext
  match a with
  | ⟨0, _⟩ => show win1_1.index t 0 * 200 + 1 * r.val = 200 * t.val + r.val; rw [e0]; omega
  | ⟨1, _⟩ => show win1_1.index t 1 * 10000 + 1 * k.val = k.val; rw [e1]; omega

/-- Entry `(r, k)` of the `A_out` row block at point `t` is entry `(200 t + r, k)` of the matrix. -/
theorem iblk2_apply (c : Dev nD) (t : Fin cfg1.N) (r : Fin 200) (k : Fin 10000) :
    (iblk1 V c 2 t : Vec Ideal S200x10000 .f32) (ix2 r k)
      = (V c main_arg2 : S10000x10000.Idx → EReal) (ix2 ⟨200 * t.val + r.val, by have := tlt t; omega⟩ k) := by
  obtain ⟨-, -, -, -, e0, e1, -⟩ := idx_facts t
  unfold iblk1
  rw [View.read_apply]
  show V c main_arg2 _ = V c main_arg2 _
  congr 1
  funext a
  apply Fin.ext
  match a with
  | ⟨0, _⟩ => show win1_2.index t 0 * 200 + 1 * r.val = 200 * t.val + r.val; rw [e0]; omega
  | ⟨1, _⟩ => show win1_2.index t 1 * 10000 + 1 * k.val = k.val; rw [e1]; omega

/-- The resident `Y₁` block is the whole array at every point. -/
theorem iblk3_apply (c : Dev nD) (t : Fin cfg1.N) (k : Fin 10000) (o : Fin 128) :
    (iblk1 V c 3 t : Vec Ideal S10000x128 .f32) (ix2 k o) = (V c main_v5 : S10000x128.Idx → EReal) (ix2 k o) := by
  obtain ⟨-, -, -, -, -, -, e0, e1, -⟩ := idx_facts t
  unfold iblk1
  rw [View.read_apply]
  show V c main_v5 _ = V c main_v5 _
  congr 1
  funext a
  apply Fin.ext
  match a with
  | ⟨0, _⟩ => show win1_3.index t 0 * 10000 + 1 * k.val = k.val; rw [e0]; omega
  | ⟨1, _⟩ => show win1_3.index t 1 * 128 + 1 * o.val = o.val; rw [e1]; omega

/-- The resident `Y₂` block is the whole array at every point. -/
theorem iblk4_apply (c : Dev nD) (t : Fin cfg1.N) (k : Fin 10000) (o : Fin 128) :
    (iblk1 V c 4 t : Vec Ideal S10000x128 .f32) (ix2 k o) = (V c main_v6 : S10000x128.Idx → EReal) (ix2 k o) := by
  obtain ⟨-, -, -, -, -, -, -, -, e0, e1, -⟩ := idx_facts t
  unfold iblk1
  rw [View.read_apply]
  show V c main_v6 _ = V c main_v6 _
  congr 1
  funext a
  apply Fin.ext
  match a with
  | ⟨0, _⟩ => show win1_4.index t 0 * 10000 + 1 * k.val = k.val; rw [e0]; omega
  | ⟨1, _⟩ => show win1_4.index t 1 * 128 + 1 * o.val = o.val; rw [e1]; omega

/-- What point `t` writes back is block `t` of `agg Y₀ A_in A_out Y₁ Y₂`: the one store fills the staging buffer with the
    payload, whose entry `(r, o)` is the rectified sum over the loaded blocks, and each loaded entry is the array's entry
    at row `200 t + r` (or the whole resident array's). -/
theorem flushed_eq (c : Dev nD) (t : Fin cfg1.N) :
    (dat1 V c).flushed 5 t = ((cfg1.win 5).blk t).view.read (Elt Ideal)
      (agg (V c main_v4) (V c main_arg1) (V c main_arg2) (V c main_v5) (V c main_v6)) := by
  show (cfg1.win 5).cut (grid1.coords t) ((dat1 V c).after 5 t) = _
  rw [after1_5]
  unfold out1_5
  rw [View.canon_unit_zero hz]
  simp only [View.ld_unit_zero (S := S200x128) hz, View.ld_unit_zero (S := S200x10000) hz, View.ld_unit_zero (S := S10000x128) hz]
  funext y
  obtain ⟨r, o, rfl⟩ : ∃ (r : Fin 200) (o : Fin 128), y = ix2 r o := ⟨y 0, y 1, eq_ix2 y⟩
  rw [View.read_apply]
  have hj : ((View.whole main_v7).slice ((win1 5).rect t)).emb (ix2 r o)
      = (ix2 ⟨200 * t.val + r.val, by have := tlt t; omega⟩ o : S10000x128.Idx) := by
    obtain ⟨-, -, -, -, -, -, -, -, -, -, e0, e1⟩ := idx_facts t
    funext a
    apply Fin.ext
    match a with
    | ⟨0, _⟩ => show win1_5.index t 0 * 200 + 1 * r.val = 200 * t.val + r.val; rw [e0]; omega
    | ⟨1, _⟩ => show win1_5.index t 1 * 128 + 1 * o.val = o.val; rw [e1]; omega
  rw [hj]
  refine (pay_apply _ _ _ _ _ r o).trans ?_
  show _ = agg (V c main_v4) (V c main_arg1) (V c main_arg2) (V c main_v5) (V c main_v6) (ix2 ⟨200 * t.val + r.val, by have := tlt t; omega⟩ o)
  rw [iblk0_apply V c t r o]
  simp only [iblk1_apply V c t r, iblk2_apply V c t r, iblk3_apply V c t, iblk4_apply V c t]
  rfl

/-- An index of the result array lies in point `t`'s block iff each coordinate is within the block's range on its axis. -/
theorem mem_blk (t : Fin cfg1.N) (i : S10000x128.Idx) :
    i ∈ ((cfg1.win 5).blk t).view.set ↔ ∀ a : Fin 2, win1_5.index t a * S200x128.size a ≤ (i a).val ∧ (i a).val < win1_5.index t a * S200x128.size a + S200x128.size a := by
  show i ∈ ((View.whole main_v7).slice (win1_5.rect t)).set ↔ _
  rw [View.set_slice_whole, Rect.mem_set_unit]
  exact Iff.rfl

/-- The result array after the last point is `agg Y₀ A_in A_out Y₁ Y₂`: row `i` lies in the block of point `i / 200`,
    so the written blocks cover the array. -/
theorem final (c : Dev nD) :
    (dat1 V c).arrAt 5 cfg1.N = agg (V c main_v4) (V c main_arg1) (V c main_arg2) (V c main_v5) (V c main_v6) :=
  (dat1 V c).arrAt_eq_of_cover 5 _ (fun t _ => flushed_eq V c t) fun i => by
    have hi0 : (i 0).val < 10000 := (i 0).isLt
    have hi1 : (i 1).val < 128 := (i 1).isLt
    refine ⟨⟨(i 0).val / 200, by rw [show cfg1.N = 50 from N_1]; omega⟩, flush1_5 _, ?_⟩
    rw [mem_blk]
    obtain ⟨-, -, -, -, -, -, -, -, -, -, e0, e1⟩ := idx_facts ⟨(i 0).val / 200, by rw [show cfg1.N = 50 from N_1]; omega⟩
    intro a
    match a with
    | ⟨0, _⟩ => show win1_5.index _ 0 * 200 ≤ (i 0).val ∧ (i 0).val < win1_5.index _ 0 * 200 + 200; rw [e0]; show (i 0).val / 200 * 200 ≤ _ ∧ _ < (i 0).val / 200 * 200 + 200; omega
    | ⟨1, _⟩ => show win1_5.index _ 1 * 128 ≤ (i 1).val ∧ (i 1).val < win1_5.index _ 1 * 128 + 128; rw [e1]; omega

end Cert.KernelIdeal.KAgg
end
-- ==== Proof.KProj.lean ====
/-
  The first launch, read at an entry. It has no grid: its one point stages the whole of `ego` (10000 × 128) and the
  whole of the re-laid weights `Wh = [W₀ | W₁ | W₂]` (128 × 384, where `W_b` is rows `128·b … 128·b + 127` of the
  384 × 128 weight matrix `W`), stores their product into the result's staging buffer, and writes that buffer back
  over the whole 10000 × 384 result. `Wh` itself is made on the host from `W` by a reshape to 3 × 128 × 128, a swap of
  the first two axes, and a reshape to 128 × 384, so `Wh(d, 128·b + o) = W(128·b + d, o)`. Hence entry `(i, q)` of
  the result is `∑ d, ego(i, d) · W(128·(q / 128) + d, q % 128)`.
-/
import proofs.«146782_g82085414961676_cont_9to1_m_158_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KValue

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- The zero offsets of a whole-buffer access. -/
theorem hz2 : (![0, 0] : Fin 2 → Nat) = fun _ => 0 := funext fun a => by fin_cases a <;> rfl

/-! ## The product's operand indices -/

theorem lhs_DP_0 (j : S10000x384.Idx) (k : dot_S10000x128_S128x384_S10000x384_1_0_0_1_n_n.contr.Idx) : (dot_S10000x128_S128x384_S10000x384_1_0_0_1_n_n.lhsIdx j k 0).val = (j 0).val := by
  unfold DotDims.lhsIdx
  rw [dif_neg (show ¬(0 : Fin S10000x128.rank) ∈ dot_S10000x128_S128x384_S10000x384_1_0_0_1_n_n.lhsBatch by decide),
    dif_pos (show (0 : Fin S10000x128.rank) ∈ dot_S10000x128_S128x384_S10000x384_1_0_0_1_n_n.lhsNonContracting by decide)]
  rfl
theorem lhs_DP_1 (j : S10000x384.Idx) (k : dot_S10000x128_S128x384_S10000x384_1_0_0_1_n_n.contr.Idx) : (dot_S10000x128_S128x384_S10000x384_1_0_0_1_n_n.lhsIdx j k 1).val = (k ⟨0, by decide⟩).val :=
  dot_S10000x128_S128x384_S10000x384_1_0_0_1_n_n.lhsIdx_val_of_single rfl j k
theorem rhs_DP_0 (j : S10000x384.Idx) (k : dot_S10000x128_S128x384_S10000x384_1_0_0_1_n_n.contr.Idx) : (dot_S10000x128_S128x384_S10000x384_1_0_0_1_n_n.rhsIdx j k 0).val = (k ⟨0, by decide⟩).val :=
  dot_S10000x128_S128x384_S10000x384_1_0_0_1_n_n.rhsIdx_val_of_single rfl j k
theorem rhs_DP_1 (j : S10000x384.Idx) (k : dot_S10000x128_S128x384_S10000x384_1_0_0_1_n_n.contr.Idx) : (dot_S10000x128_S128x384_S10000x384_1_0_0_1_n_n.rhsIdx j k 1).val = (j 1).val := by
  unfold DotDims.rhsIdx
  rw [dif_neg (show ¬(1 : Fin S128x384.rank) ∈ dot_S10000x128_S128x384_S10000x384_1_0_0_1_n_n.rhsBatch by decide),
    dif_pos (show (1 : Fin S128x384.rank) ∈ dot_S10000x128_S128x384_S10000x384_1_0_0_1_n_n.rhsNonContracting by decide)]
  rfl

/-- The first launch's one store, read at an entry: row `i` of the left block times column `q` of the right one. -/
theorem proj_pay_apply (x0 : Vec Ideal S10000x128 .f32) (x1 : Vec Ideal S128x384 .f32) (i : Fin 10000) (q : Fin 384) :
    k0_pay1 x0 x1 (ix2 i q) = ∑ d : Fin 128, (x0 : S10000x128.Idx → EReal) (ix2 i d) * (x1 : S128x384.Idx → EReal) (ix2 d q) := by
  unfold k0_pay1
  rw [shapeCast_self]
  simp only [matmul]
  rw [Ideal.matmul_constant_zero_apply, ← Equiv.sum_comp (ValueIdx.contrEquiv1 dot_S10000x128_S128x384_S10000x384_1_0_0_1_n_n 128 rfl rfl).symm]
  refine Finset.sum_congr rfl fun d _ => ?_
  have hk := ValueIdx.contrEquiv1_symm_val dot_S10000x128_S128x384_S10000x384_1_0_0_1_n_n 128 rfl rfl d
  have el : dot_S10000x128_S128x384_S10000x384_1_0_0_1_n_n.lhsIdx (ix2 i q) ((ValueIdx.contrEquiv1 dot_S10000x128_S128x384_S10000x384_1_0_0_1_n_n 128 rfl rfl).symm d) = ix2 i d :=
    funext fun a => Fin.ext (by
      match a with
      | ⟨0, _⟩ => exact lhs_DP_0 _ _
      | ⟨1, _⟩ => exact (lhs_DP_1 _ _).trans hk)
  have er : dot_S10000x128_S128x384_S10000x384_1_0_0_1_n_n.rhsIdx (ix2 i q) ((ValueIdx.contrEquiv1 dot_S10000x128_S128x384_S10000x384_1_0_0_1_n_n 128 rfl rfl).symm d) = ix2 d q :=
    funext fun a => Fin.ext (by
      match a with
      | ⟨0, _⟩ => exact (rhs_DP_0 _ _).trans hk
      | ⟨1, _⟩ => exact rhs_DP_1 _ _)
  rw [el, er]

/-- The re-laid weights `[W₀ | W₁ | W₂]` read at an entry: row `d`, column `q` is row `128·(q / 128) + d`, column
    `q % 128` of `W`. -/
theorem relaid_apply (w : S384x128.Idx → EReal) (d : Fin 128) (q : Fin 384) :
    shapeCast S128x384 (transpose S128x3x128 [1, 0, 2] (shapeCast S3x128x128 w shapeCasts_S384x128_S3x128x128) transposes_S3x128x128_S128x3x128_1_0_2) shapeCasts_S128x3x128_S128x384 (ix2 d q)
      = w (ix2 ⟨q.val / 128 * 128 + d.val, by omega⟩ ⟨q.val % 128, by omega⟩) := by
  refine (shapeCast_apply _ _ (ix2 d q) (ix3 d ⟨q.val / 128, by omega⟩ ⟨q.val % 128, by omega⟩) (by
    rw [Shape.rowMajor_val_three, Shape.rowMajor_val_two]
    show (d.val * 3 + q.val / 128) * 128 + q.val % 128 = d.val * 384 + q.val
    omega)).trans ?_
  refine (transpose_apply _ _ _ (ix3 d ⟨q.val / 128, by omega⟩ ⟨q.val % 128, by omega⟩) (ix3 ⟨q.val / 128, by omega⟩ d ⟨q.val % 128, by omega⟩) (fun b =>
    match b with | ⟨0, _⟩ => rfl | ⟨1, _⟩ => rfl | ⟨2, _⟩ => rfl)).trans ?_
  exact shapeCast_apply _ _ _ _ (by
    rw [Shape.rowMajor_val_two, Shape.rowMajor_val_three]
    show (q.val / 128 * 128 + d.val) * 128 + q.val % 128 = (q.val / 128 * 128 + d.val) * 128 + q.val % 128
    rfl)

/-! ## The first launch's write-back is the whole array

The launch has no grid: one point, and every window's block is its whole array. So what the body leaves in the
result's staging buffer is written back over the whole result array. -/

section AnyEntry
variable (V : (c : Dev nD) → (b : Ref sig .tc) → Buf (Elt Ideal) ((c : Thread nD τ).loc b))

/-- The body's one store covers its buffer: the buffer ends at the stored product of the two loaded blocks. -/
theorem out0_2_eq (x0 : Vec Ideal S10000x128 .f32) (x1 : Vec Ideal S128x384 .f32) : out0_2 x0 x1 = k0_pay1 x0 x1 := by
  unfold out0_2
  rw [View.canon_unit_zero hz2]
  simp only [View.ld_unit_zero (S := S10000x128) hz2, View.ld_unit_zero (S := S128x384) hz2]

/-- The left window's block is the whole of its array. -/
theorem iblk0_0_eq (t : Fin cfg0.N) : iblk0 V c 0 t = V c main_arg0 := by
  unfold iblk0
  exact Memref.read_access_unit_zero (Elt Ideal) main_arg0 (funext fun a => Nat.zero_mul _) (fun a => by simp) (V c main_arg0)

/-- The right window's block is the whole of its array. -/
theorem iblk0_1_eq (t : Fin cfg0.N) : iblk0 V c 1 t = V c main_v2 := by
  unfold iblk0
  exact Memref.read_access_unit_zero (Elt Ideal) main_v2 (funext fun a => Nat.zero_mul _) (fun a => by simp) (V c main_v2)

/-- What the one point writes back is the product of the two arrays as the launch finds them, read through the
    (whole-array) block. -/
theorem flushed0_2_eq (t : Fin cfg0.N) :
    (dat0 V c).flushed 2 t = ((cfg0.win 2).blk t).view.read (Elt Ideal) (k0_pay1 (V c main_arg0) (V c main_v2)) := by
  show (cfg0.win 2).cut (grid0.coords t) ((dat0 V c).after 2 t) = _
  rw [after0_2, iblk0_0_eq, iblk0_1_eq, out0_2_eq]
  exact (Memref.read_access_unit_zero (Elt Ideal) main_v3 (funext fun a => Nat.zero_mul _) (fun a => by simp) _).symm

/-- So the result array ends holding that product. -/
theorem arr0_2_eq : (dat0 V c).arrAt 2 cfg0.N = k0_pay1 (V c main_arg0) (V c main_v2) :=
  (dat0 V c).arrAt_eq_of_cover 2 _ (fun t _ => flushed0_2_eq c V t) fun i =>
    ⟨t0_0, flush0_2 t0_0, by
      show i ∈ ((View.whole main_v3).slice (win0_2.rect t0_0)).set
      rw [View.set_slice_whole, Rect.mem_set_unit]
      intro a
      refine ⟨?_, ?_⟩
      · show 0 * _ ≤ _
        rw [Nat.zero_mul]; exact Nat.zero_le _
      · show _ < 0 * _ + _
        rw [Nat.zero_mul, Nat.zero_add]; exact (i a).isLt⟩

end AnyEntry

/-! ## The projection, entry by entry -/

/-- Nothing before the first launch writes `ego`. -/
theorem V1_arg0 : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The right operand of the first launch is the weight matrix re-laid by the three host operations. -/
theorem V1_v2 : (V1 m ρ c main_v2 : S128x384.Idx → EReal)
    = shapeCast S128x384 (transpose S128x3x128 [1, 0, 2] (shapeCast S3x128x128 (m ((c : Thread nD τ).loc main_arg3) : S384x128.Idx → EReal) shapeCasts_S384x128_S3x128x128) transposes_S3x128x128_S128x3x128_1_0_2) shapeCasts_S128x3x128_S128x384 := by
  dsimp only [V1, W1, hostOps0]
  after_results <;> rfl

/-- Entry `(i, q)` of the projection `ego · [W₀ | W₁ | W₂]`: with `b = q / 128` the band and `o = q % 128` the
    column inside it, `∑ d, ego(i, d) · W(128·b + d, o)`. -/
theorem proj_apply (i : Fin 10000) (q : Fin 384) :
    @Eq EReal (W2 m ρ c (Proc.devRef .tc main_v3) (ix2 i q))
      (∑ d : Fin 128, @HMul.hMul EReal EReal EReal _ (m ((c : Thread nD τ).loc main_arg0) (ix2 i d))
        (m ((c : Thread nD τ).loc main_arg3) (ix2 ⟨q.val / 128 * 128 + d.val, by omega⟩ ⟨q.val % 128, by omega⟩))) := by
  have e : W2 m ρ c (Proc.devRef .tc main_v3) = k0_pay1 (V1 m ρ c main_arg0) (V1 m ρ c main_v2) :=
    (W2_arr m ρ c 2).trans (arr0_2_eq c (V1 m ρ))
  rw [e]
  refine (proj_pay_apply (V1 m ρ c main_arg0) (V1 m ρ c main_v2) i q).trans ?_
  refine Finset.sum_congr rfl fun d _ => ?_
  rw [V1_arg0, V1_v2, relaid_apply]

end Cert.KernelIdeal.KValue

end
-- ==== Proof.KProjHost.lean ====
/-
  The host operations between the two launches, read at an index: the three column bands of the projection
  `ego · [W₀ | W₁ | W₂]` (10000 × 384) are cut out as three 10000 × 128 arrays, band `b` holding columns
  `128·b … 128·b + 127`; and the two adjacency arguments, which nothing before the second launch writes, still
  hold their launch contents when it starts.
-/
import proofs.«146782_g82085414961676_cont_9to1_m_158_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- Columns `0 … 127` of the projection, cut out on the host: the first band, `ego · W₀`. -/
theorem slice0_apply (i : Fin 10000) (o : Fin 128) :
    (V3 m ρ c main_v4 : S10000x128.Idx → EReal) (ix2 i o)
      = (W2 m ρ c (Proc.devRef .tc main_v3) : S10000x384.Idx → EReal) (ix2 i ⟨o.val, by omega⟩) := by
  have e : (V3 m ρ c main_v4 : S10000x128.Idx → EReal)
      = extractStridedSlice S10000x128 ![0, 0] (W2 m ρ c (Proc.devRef .tc main_v3) : S10000x384.Idx → EReal) slices_S10000x384_S10000x128_0_0 := by
    dsimp only [V3, W3, hostOps1]; after_results
  rw [e]
  refine extractStridedSlice_apply _ _ _ _ _ fun a => ?_
  match a with
  | ⟨0, _⟩ => show i.val = 0 + i.val; omega
  | ⟨1, _⟩ => show o.val = 0 + o.val; omega

/-- Columns `128 … 255` of the projection: the second band, `ego · W₁`. -/
theorem slice1_apply (i : Fin 10000) (o : Fin 128) :
    (V3 m ρ c main_v5 : S10000x128.Idx → EReal) (ix2 i o)
      = (W2 m ρ c (Proc.devRef .tc main_v3) : S10000x384.Idx → EReal) (ix2 i ⟨128 + o.val, by omega⟩) := by
  have e : (V3 m ρ c main_v5 : S10000x128.Idx → EReal)
      = extractStridedSlice S10000x128 ![0, 128] (W2 m ρ c (Proc.devRef .tc main_v3) : S10000x384.Idx → EReal) slices_S10000x384_S10000x128_0_128 := by
    dsimp only [V3, W3, hostOps1]; after_results
  rw [e]
  refine extractStridedSlice_apply _ _ _ _ _ fun a => ?_
  match a with
  | ⟨0, _⟩ => show i.val = 0 + i.val; omega
  | ⟨1, _⟩ => show 128 + o.val = 128 + o.val; omega

/-- Columns `256 … 383` of the projection: the third band, `ego · W₂`. -/
theorem slice2_apply (i : Fin 10000) (o : Fin 128) :
    (V3 m ρ c main_v6 : S10000x128.Idx → EReal) (ix2 i o)
      = (W2 m ρ c (Proc.devRef .tc main_v3) : S10000x384.Idx → EReal) (ix2 i ⟨256 + o.val, by omega⟩) := by
  have e : (V3 m ρ c main_v6 : S10000x128.Idx → EReal)
      = extractStridedSlice S10000x128 ![0, 256] (W2 m ρ c (Proc.devRef .tc main_v3) : S10000x384.Idx → EReal) slices_S10000x384_S10000x128_0_256 := by
    dsimp only [V3, W3, hostOps1]; after_results
  rw [e]
  refine extractStridedSlice_apply _ _ _ _ _ fun a => ?_
  match a with
  | ⟨0, _⟩ => show i.val = 0 + i.val; omega
  | ⟨1, _⟩ => show 256 + o.val = 256 + o.val; omega

/-- No host operation and no launch before the second one writes argument 1: at the second launch's entry it holds
    what it was launched with. -/
theorem V3_arg1 : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation and no launch before the second one writes argument 2: at the second launch's entry it holds
    what it was launched with. -/
theorem V3_arg2 : V3 m ρ c main_arg2 = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

end Cert.KernelIdeal.KValue

end
-- ==== Proof.KProjBands.lean ====
/-
  The three column bands of the projection as the second launch finds them, entry by entry: band `b` (columns
  `128·b … 128·b + 127` of `ego · [W₀ | W₁ | W₂]`, cut out on the host) is `ego · W_b`, where `W_b` is rows
  `128·b … 128·b + 127` of the weight matrix: its entry `(i, o)` is `∑ d, ego(i, d) · W(128·b + d, o)`, since
  `(128·b + o) / 128 = b` and `(128·b + o) % 128 = o` for `o < 128`.
-/
import proofs.«146782_g82085414961676_cont_9to1_m_158_1_alg».proof.Proof.Gen.KernelIdeal.Frame
import proofs.«146782_g82085414961676_cont_9to1_m_158_1_alg».proof.Proof.KProj
import proofs.«146782_g82085414961676_cont_9to1_m_158_1_alg».proof.Proof.KProjHost
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KValue

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- The first band: `ego · W₀`. -/
theorem band0_apply (i : Fin 10000) (o : Fin 128) :
    @Eq EReal (V3 m ρ c main_v4 (ix2 i o))
      (∑ d : Fin 128, @HMul.hMul EReal EReal EReal _ (m ((c : Thread nD τ).loc main_arg0) (ix2 i d))
        (m ((c : Thread nD τ).loc main_arg3) (ix2 ⟨d.val, by omega⟩ o))) := by
  refine (slice0_apply m ρ c i o).trans ((proj_apply m ρ c i ⟨o.val, by omega⟩).trans ?_)
  refine Finset.sum_congr rfl fun d _ => ?_
  refine congrArg (fun k : S384x128.Idx => @HMul.hMul EReal EReal EReal _ (m ((c : Thread nD τ).loc main_arg0) (ix2 i d))
    (m ((c : Thread nD τ).loc main_arg3) k)) (funext fun a => Fin.ext ?_)
  match a with
  | ⟨0, _⟩ => show (o.val) / 128 * 128 + d.val = d.val; omega
  | ⟨1, _⟩ => show (o.val) % 128 = o.val; omega

/-- The second band: `ego · W₁`. -/
theorem band1_apply (i : Fin 10000) (o : Fin 128) :
    @Eq EReal (V3 m ρ c main_v5 (ix2 i o))
      (∑ d : Fin 128, @HMul.hMul EReal EReal EReal _ (m ((c : Thread nD τ).loc main_arg0) (ix2 i d))
        (m ((c : Thread nD τ).loc main_arg3) (ix2 ⟨128 + d.val, by omega⟩ o))) := by
  refine (slice1_apply m ρ c i o).trans ((proj_apply m ρ c i ⟨128 + o.val, by omega⟩).trans ?_)
  refine Finset.sum_congr rfl fun d _ => ?_
  refine congrArg (fun k : S384x128.Idx => @HMul.hMul EReal EReal EReal _ (m ((c : Thread nD τ).loc main_arg0) (ix2 i d))
    (m ((c : Thread nD τ).loc main_arg3) k)) (funext fun a => Fin.ext ?_)
  match a with
  | ⟨0, _⟩ => show (128 + o.val) / 128 * 128 + d.val = 128 + d.val; omega
  | ⟨1, _⟩ => show (128 + o.val) % 128 = o.val; omega

/-- The third band: `ego · W₂`. -/
theorem band2_apply (i : Fin 10000) (o : Fin 128) :
    @Eq EReal (V3 m ρ c main_v6 (ix2 i o))
      (∑ d : Fin 128, @HMul.hMul EReal EReal EReal _ (m ((c : Thread nD τ).loc main_arg0) (ix2 i d))
        (m ((c : Thread nD τ).loc main_arg3) (ix2 ⟨256 + d.val, by omega⟩ o))) := by
  refine (slice2_apply m ρ c i o).trans ((proj_apply m ρ c i ⟨256 + o.val, by omega⟩).trans ?_)
  refine Finset.sum_congr rfl fun d _ => ?_
  refine congrArg (fun k : S384x128.Idx => @HMul.hMul EReal EReal EReal _ (m ((c : Thread nD τ).loc main_arg0) (ix2 i d))
    (m ((c : Thread nD τ).loc main_arg3) k)) (funext fun a => Fin.ext ?_)
  match a with
  | ⟨0, _⟩ => show (256 + o.val) / 128 * 128 + d.val = 256 + d.val; omega
  | ⟨1, _⟩ => show (256 + o.val) % 128 = o.val; omega

end Cert.KernelIdeal.KValue

end
-- ==== Proof.KAlg.lean ====
/-
  The algebra that joins the two programs. The reference multiplies the concatenated features
  `[ego | A_in · ego | A_out · ego]` by `W`; the kernel first projects, `Y_b = ego · W_b` for the three 128-row
  bands `W₀, W₁, W₂` of `W`, and then aggregates, `Y₀ + A_in · Y₁ + A_out · Y₂`. Splitting the sum over the 384
  concatenated columns into its three bands of 128, the first bands agree term by term, and the other two agree by
  `Σ_k a(i,k) · Σ_d e(k,d) · w(d) = Σ_d (Σ_k a(i,k) · e(k,d)) · w(d)`: distributivity and an exchange of two finite
  sums. On the extended reals distributivity needs the entries to be real numbers, which is where the finiteness of
  the inputs is used: every factor is then the image of a real, the products and sums are images of the real ones,
  and the identity is the one in `ℝ`.
-/
import proofs.«146782_g82085414961676_cont_9to1_m_158_1_alg».proof.Proof.KPay

noncomputable section
open scoped BigOperators
namespace Cert.KernelIdeal.KAlg

open Idealize.ShloMosaic Idealize.ShloMosaic.ValueIdx Cert.Spec Cert.KernelIdeal.KValue

/-- The image of a finite real sum is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 384 columns is the sum of its three bands of 128 columns. -/
theorem sum_split {M : Type*} [AddCommMonoid M] (f : Fin 384 → M) :
    ∑ c, f c = ∑ d : Fin 128, f ⟨d.val, by omega⟩ + ∑ d : Fin 128, f ⟨128 + d.val, by omega⟩
      + ∑ d : Fin 128, f ⟨256 + d.val, by omega⟩ := by
  have h1 := Fin.sum_univ_add (a := 128) (b := 256) (f := f)
  have h2 := Fin.sum_univ_add (a := 128) (b := 128) (f := fun d : Fin 256 => f ⟨128 + d.val, by omega⟩)
  refine h1.trans ?_
  rw [add_assoc]
  congr 1

/-- For real entries, `Σ_k a_k · (Σ_d e_kd · v_d) = Σ_d (Σ_k a_k · e_kd) · v_d` on the extended reals: both sides are the
    image of the same real double sum. -/
theorem assoc_sums {K D : Type*} [Fintype K] [Fintype D] (a : K → ℝ) (e : K → D → ℝ) (v : D → ℝ) :
    ∑ k, (a k : EReal) * ∑ d, (e k d : EReal) * (v d : EReal)
      = ∑ d, (∑ k, (a k : EReal) * (e k d : EReal)) * (v d : EReal) := by
  simp only [← EReal.coe_mul, ← coe_sum]
  congr 1
  simp only [Finset.mul_sum, Finset.sum_mul, mul_assoc]
  exact Finset.sum_comm

/-- The first 128 concatenated columns are `ego`'s. -/
theorem cat_lo (ego : SE.Idx → EReal) (ain aout : SA.Idx → EReal) (i : Fin 10000) (d : Fin 128) :
    cat ego ain aout i ⟨d.val, by omega⟩ = ego (ix2 i d) := by
  unfold cat
  rw [dif_pos d.isLt]

/-- Columns 128 … 255 are those of `A_in · ego`. -/
theorem cat_mid (ego : SE.Idx → EReal) (ain aout : SA.Idx → EReal) (i : Fin 10000) (d : Fin 128) :
    cat ego ain aout i ⟨128 + d.val, by omega⟩ = ∑ k : Fin 10000, ain (ix2 i k) * ego (ix2 k d) := by
  unfold cat
  rw [dif_neg (show ¬ (128 + d.val < 128) by omega), dif_pos (show 128 + d.val < 256 by have := d.isLt; omega)]
  refine Finset.sum_congr rfl fun k _ => ?_
  congr 2
  exact congrArg (ix2 k) (Fin.ext (by simp))

/-- Columns 256 … 383 are those of `A_out · ego`. -/
theorem cat_hi (ego : SE.Idx → EReal) (ain aout : SA.Idx → EReal) (i : Fin 10000) (d : Fin 128) :
    cat ego ain aout i ⟨256 + d.val, by omega⟩ = ∑ k : Fin 10000, aout (ix2 i k) * ego (ix2 k d) := by
  unfold cat
  rw [dif_neg (show ¬ (256 + d.val < 128) by omega), dif_neg (show ¬ (256 + d.val < 256) by omega)]
  refine Finset.sum_congr rfl fun k _ => ?_
  congr 2
  exact congrArg (ix2 k) (Fin.ext (by simp))

/-- With real entries, aggregating the three projected bands `y_b = ego · W_b` is the reference's value `G`. -/
theorem agg_eq_G (ego : SE.Idx → EReal) (ain aout : SA.Idx → EReal) (w : SW.Idx → EReal)
    (hego : ∀ j, ∃ r : ℝ, ego j = r) (hain : ∀ j, ∃ r : ℝ, ain j = r) (haout : ∀ j, ∃ r : ℝ, aout j = r)
    (hw : ∀ j, ∃ r : ℝ, w j = r) (y0 y1 y2 : SE.Idx → EReal)
    (h0 : ∀ (i : Fin 10000) (o : Fin 128), y0 (ix2 i o) = ∑ d : Fin 128, ego (ix2 i d) * w (ix2 ⟨d.val, by omega⟩ o))
    (h1 : ∀ (i : Fin 10000) (o : Fin 128), y1 (ix2 i o) = ∑ d : Fin 128, ego (ix2 i d) * w (ix2 ⟨128 + d.val, by omega⟩ o))
    (h2 : ∀ (i : Fin 10000) (o : Fin 128), y2 (ix2 i o) = ∑ d : Fin 128, ego (ix2 i d) * w (ix2 ⟨256 + d.val, by omega⟩ o)) :
    agg y0 ain aout y1 y2 = G ego ain aout w := by
  funext j
  obtain ⟨i, o, rfl⟩ : ∃ (i : Fin 10000) (o : Fin 128), j = ix2 i o := ⟨j 0, j 1, eq_ix2 j⟩
  have keyA : ∑ k : Fin 10000, ain (ix2 i k) * y1 (ix2 k o)
      = ∑ d : Fin 128, cat ego ain aout i ⟨128 + d.val, by omega⟩ * w (ix2 ⟨128 + d.val, by omega⟩ o) := by
    choose e he using hego
    choose a ha using hain
    choose v hv using hw
    simp only [cat_mid, h1, he, ha, hv]
    exact assoc_sums (fun k => a (ix2 i k)) (fun k d => e (ix2 k d)) (fun d => v (ix2 ⟨128 + d.val, by omega⟩ o))
  have keyB : ∑ k : Fin 10000, aout (ix2 i k) * y2 (ix2 k o)
      = ∑ d : Fin 128, cat ego ain aout i ⟨256 + d.val, by omega⟩ * w (ix2 ⟨256 + d.val, by omega⟩ o) := by
    choose e he using hego
    choose b hb using haout
    choose v hv using hw
    simp only [cat_hi, h2, he, hb, hv]
    exact assoc_sums (fun k => b (ix2 i k)) (fun k d => e (ix2 k d)) (fun d => v (ix2 ⟨256 + d.val, by omega⟩ o))
  have key0 : y0 (ix2 i o) = ∑ d : Fin 128, cat ego ain aout i ⟨d.val, by omega⟩ * w (ix2 ⟨d.val, by omega⟩ o) := by
    simp only [cat_lo, h0]
  unfold agg G lin
  refine congrArg leaky ?_
  refine Eq.trans ?_ (sum_split (fun c : Fin 384 => cat ego ain aout i c * w (ix2 c o))).symm
  refine Eq.trans ?_ (congrArg₂ (· + ·) (congrArg₂ (· + ·) key0 keyA) keyB)
  rfl

end Cert.KernelIdeal.KAlg
end
-- ==== Proof.KTop.lean ====
/-
  The kernel program's result as a function of its arguments. The result buffer is the second launch's output
  array, which ends holding `agg Y₀ A_in A_out Y₁ Y₂` of the buffers at that launch's entry; there the adjacency
  matrices are still the arguments, and `Y₀, Y₁, Y₂` are the three 128-column bands of the first launch's projection
  `ego · [W₀ | W₁ | W₂]`, band `b` at `(i, o)` being `Σ_d ego(i,d) · W(128 b + d, o)`. When every entry of the
  arguments is a real number, the algebra of the aggregation turns this into the reference's value `G`.
-/
import proofs.«146782_g82085414961676_cont_9to1_m_158_1_alg».proof.Proof.KRun
import proofs.«146782_g82085414961676_cont_9to1_m_158_1_alg».proof.Proof.KAgg
import proofs.«146782_g82085414961676_cont_9to1_m_158_1_alg».proof.Proof.KProjBands
import proofs.«146782_g82085414961676_cont_9to1_m_158_1_alg».proof.Proof.KAlg

set_option maxRecDepth 16384

noncomputable section

open scoped BigOperators

namespace Cert.KernelIdeal.KTop

open Cert.KernelIdeal Cert.KernelIdeal.Gen Cert.KernelIdeal.KValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The four argument arrays on core `c`, as functions into the extended reals. -/
abbrev ego (c : Dev nD) : Cert.Spec.SE.Idx → EReal := m ((c : Thread nD τ).loc main_arg0)
abbrev ain (c : Dev nD) : Cert.Spec.SA.Idx → EReal := m ((c : Thread nD τ).loc main_arg1)
abbrev aout (c : Dev nD) : Cert.Spec.SA.Idx → EReal := m ((c : Thread nD τ).loc main_arg2)
abbrev wgt (c : Dev nD) : Cert.Spec.SW.Idx → EReal := m ((c : Thread nD τ).loc main_arg3)

/-- With real argument entries, the result buffer ends holding `G` of the four argument arrays. -/
theorem value (c : Dev nD)
    (f0 : ∀ j, ∃ r : ℝ, ego m c j = r) (f1 : ∀ j, ∃ r : ℝ, ain m c j = r)
    (f2 : ∀ j, ∃ r : ℝ, aout m c j = r) (f3 : ∀ j, ∃ r : ℝ, wgt m c j = r) :
    W4 m ρ c (Proc.devRef .tc main_v7) = Cert.Spec.G (ego m c) (ain m c) (aout m c) (wgt m c) := by
  refine (W4_arr m ρ c 5).trans ?_
  refine (Cert.KernelIdeal.KAgg.final (V3 m ρ) c).trans ?_
  rw [V3_arg1 m ρ c, V3_arg2 m ρ c]
  exact Cert.KernelIdeal.KAlg.agg_eq_G _ _ _ _ f0 f1 f2 f3 _ _ _ (band0_apply m ρ c) (band1_apply m ρ c) (band2_apply m ρ c)

end Cert.KernelIdeal.KTop
end
-- ==== Proof.KFin.lean ====
/-
  Finiteness of the inputs, read out of the precondition. The precondition is the conjunction of four tests
  "every entry `x` of the array has `|x| < +∞`", each a reduction by `and` over all entries of an elementwise
  comparison against the f32 word of `+∞`. If the conjunction holds, every entry of every argument array is a real
  number: `|x| = max x (-x)` is below the top element only when `x` is neither infinity.
-/
import proofs.«146782_g82085414961676_cont_9to1_m_158_1_alg».proof.Pre_finite_inputs
import proofs.«146782_g82085414961676_cont_9to1_m_158_1_alg».proof.Proof.Gen.Pre_finite_inputs
import Idealize.ShloMosaic.Lib.ReduceAll
import Idealize.ShloMosaic.Lib.ValueIdx
import Idealize.ShloMosaic.PureOps.Ideal.Laws

noncomputable section
namespace Cert.Finite
open Idealize.ShloMosaic Idealize.ShloMosaic.ValueIdx

/-- The rank-0 shape has exactly one index. -/
instance : Subsingleton (Cert.Pre_finite_inputs.S_.Idx) := ⟨fun a b => funext fun d => d.elim0⟩

/-- The f32 word with all exponent bits set and no fraction bit denotes `+∞`. -/
theorem inf_word : Ideal.ofBits .f32 0x7F800000#32 = ⊤ := by simp [Ideal.ofBits, Ideal.ieee]

/-- An extended real whose absolute value is below `+∞` is a real number. -/
theorem real_of_lt_inf (x : EReal) (h : Ideal.cmp .olt (max x (-x)) (Ideal.ofBits .f32 0x7F800000#32) = 1#1) :
    ∃ r : ℝ, x = r := by
  rw [inf_word] at h
  induction x using EReal.rec with
  | bot => simp [Ideal.cmp] at h
  | coe r => exact ⟨r, rfl⟩
  | top => simp [Ideal.cmp] at h

variable [Cert.Pre_finite_inputs.Facts]

/-- If the four `all(|x| < +∞)` tests hold, every entry of the four arrays is a real number. -/
theorem finite_of_pre (a0 : FVec Ideal Cert.Pre_finite_inputs.S10000x128 .f32) (a1 a2 : FVec Ideal Cert.Pre_finite_inputs.S10000x10000 .f32)
    (a3 : FVec Ideal Cert.Pre_finite_inputs.S384x128 .f32)
    (h : Cert.Pre_finite_inputs.fn (F := Ideal) a0 a1 a2 a3 = fun _ => 1#1) :
    (∀ j, ∃ r : ℝ, a0 j = r) ∧ (∀ j, ∃ r : ℝ, a1 j = r) ∧ (∀ j, ∃ r : ℝ, a2 j = r) ∧ (∀ j, ∃ r : ℝ, a3 j = r) := by
  have h' := congrFun h ix0
  dsimp only [Cert.Pre_finite_inputs.fn, Cert.Pre_finite_inputs.fn_part1] at h'
  obtain ⟨h012, h3⟩ := IntOp.andi_eq_one.1 (show IntOp.andi _ _ = 1#1 from h')
  obtain ⟨h01, h2⟩ := IntOp.andi_eq_one.1 (show IntOp.andi _ _ = 1#1 from h012)
  obtain ⟨h0, h1⟩ := IntOp.andi_eq_one.1 (show IntOp.andi _ _ = 1#1 from h01)
  refine ⟨fun j => ?_, fun j => ?_, fun j => ?_, fun j => ?_⟩
  · exact real_of_lt_inf _ (Host.reduce_andi_all _ _ _ _ ix0 h0 j)
  · exact real_of_lt_inf _ (Host.reduce_andi_all _ _ _ _ ix0 h1 j)
  · exact real_of_lt_inf _ (Host.reduce_andi_all _ _ _ _ ix0 h2 j)
  · exact real_of_lt_inf _ (Host.reduce_andi_all _ _ _ _ ix0 h3 j)

end Cert.Finite
end
-- ==== Proof.RefOps.lean ====
/-
  The reference program's operations as a list, and its run.

  The reference computes `[ego | A_in · ego | A_out · ego]` (10000 × 384), cuts it into 100 chunks of 100 rows,
  multiplies each chunk by the weight matrix (384 × 128), stacks the 100 products back along the rows and applies the
  leaky rectifier `z ↦ if 0 ≤ z then z else 0.01 · z` entry by entry. Its program is a straight line of 219 host
  operations (the rectifier and the select it calls written out where they are called), listed here in nine
  stretches, in program order: the run of the program is the fold of these operations over the launch memory.
-/
import proofs.«146782_g82085414961676_cont_9to1_m_158_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The two products `A_in · ego`, `A_out · ego` and their concatenation with `ego` along the columns. -/
abbrev wA : List (HloOp τ sig (Elt F)) :=
  [ StableHlo.binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.binary main_arg2 main_arg0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nary ![main_arg0, main_v0, main_v1] main_v2 (fun u => concatenate S10000x384 1 [⟨S10000x128, u 0⟩, ⟨S10000x128, u 1⟩, ⟨S10000x128, u 2⟩] concatenates_S10000x128_S10000x128_S10000x128_S10000x384_d1) ]

/-- The row chunks 0 … 56 of the concatenated features (chunk `k` is rows `100 k … 100 k + 99`). -/
abbrev wB0 : List (HloOp τ sig (Elt F)) :=
  [ StableHlo.unary main_v2 main_v3 ((extractStridedSlice S100x384 ![0, 0] · slices_S10000x384_S100x384_0_0) : (⟨S10000x384, .f32⟩ : BufTy).Contents (Elt F) → (⟨S100x384, .f32⟩ : BufTy).Contents (Elt F)),
    StableHlo.unary main_v2 main_v4 ((extractStridedSlice S100x384 ![100, 0] · slices_S10000x384_S100x384_100_0) : (⟨S10000x384, .f32⟩ : BufTy).Contents (Elt F) → (⟨S100x384, .f32⟩ : BufTy).Contents (Elt F)),
    StableHlo.unary main_v2 main_v5 ((extractStridedSlice S100x384 ![200, 0] · slices_S10000x384_S100x384_200_0) : (⟨S10000x384, .f32⟩ : BufTy).Contents (Elt F) → (⟨S100x384, .f32⟩ : BufTy).Contents (Elt F)),
    StableHlo.unary main_v2 main_v6 ((extractStridedSlice S100x384 ![300, 0] · slices_S10000x384_S100x384_300_0) : (⟨S10000x384, .f32⟩ : BufTy).Contents (Elt F) → (⟨S100x384, .f32⟩ : BufTy).Contents (Elt F)),
    StableHlo.unary main_v2 main_v7 ((extractStridedSlice S100x384 ![400, 0] · slices_S10000x384_S100x384_400_0) : (⟨S10000x384, .f32⟩ : BufTy).Contents (Elt F) → (⟨S100x384, .f32⟩ : BufTy).Contents (Elt F)),
    StableHlo.unary main_v2 main_v8 ((extractStridedSlice S100x384 ![500, 0] · slices_S10000x384_S100x384_500_0) : (⟨S10000x384, .f32⟩ : BufTy).Contents (Elt F) → (⟨S100x384, .f32⟩ : BufTy).Contents (Elt F)),
    StableHlo.unary main_v2 main_v9 ((extractStridedSlice S100x384 ![600, 0] · slices_S10000x384_S100x384_600_0) : (⟨S10000x384, .f32⟩ : BufTy).Contents (Elt F) → (⟨S100x384, .f32⟩ : BufTy).Contents (Elt F)),
    StableHlo.unary main_v2 main_v10 ((extractStridedSlice S100x384 ![700, 0] · slices_S10000x384_S100x384_700_0) : (⟨S10000x384, .f32⟩ : BufTy).Contents (Elt F) → (⟨S100x384, .f32⟩ : BufTy).Contents (Elt F)),
    StableHlo.unary main_v2 main_v11 ((extractStridedSlice S100x384 ![800, 0] · slices_S10000x384_S100x384_800_0) : (⟨S10000x384, .f32⟩ : BufTy).Contents (Elt F) → (⟨S100x384, .f32⟩ : BufTy).Contents (Elt F)),
    StableHlo.unary main_v2 main_v12 ((extractStridedSlice S100x384 ![900, 0] · slices_S10000x384_S100x384_900_0) : (⟨S10000x384, .f32⟩ : BufTy).Contents (Elt F) → (⟨S100x384, .f32⟩ : BufTy).Contents (Elt F)),
    StableHlo.unary main_v2 main_v13 ((extractStridedSlice S100x384 ![1000, 0] · slices_S10000x384_S100x384_1000_0) : (⟨S10000x384, .f32⟩ : BufTy).Contents (Elt F) → (⟨S100x384, .f32⟩ : BufTy).Contents (Elt F)),
    StableHlo.unary main_v2 main_v14 ((extractStridedSlice S100x384 ![1100, 0] · slices_S10000x384_S100x384_1100_0) : (⟨S10000x384, .f32⟩ : BufTy).Contents (Elt F) → (⟨S100x384, .f32⟩ : BufTy).Contents (Elt F)),
    StableHlo.unary main_v2 main_v15 ((extractStridedSlice S100x384 ![1200, 0] · slices_S10000x384_S100x384_1200_0) : (⟨S10000x384, .f32⟩ : BufTy).Contents (Elt F) → (⟨S100x384, .f32⟩ : BufTy).Contents (Elt F)),
    StableHlo.unary main_v2 main_v16 ((extractStridedSlice S100x384 ![1300, 0] · slices_S10000x384_S100x384_1300_0) : (⟨S10000x384, .f32⟩ : BufTy).Contents (Elt F) → (⟨S100x384, .f32⟩ : BufTy).Contents (Elt F)),
    StableHlo.unary main_v2 main_v17 ((extractStridedSlice S100x384 ![1400, 0] · slices_S10000x384_S100x384_1400_0) : (⟨S10000x384, .f32⟩ : BufTy).Contents (Elt F) → (⟨S100x384, .f32⟩ : BufTy).Contents (Elt F)),
    StableHlo.unary main_v2 main_v18 ((extractStridedSlice S100x384 ![1500, 0] · slices_S10000x384_S100x384_1500_0) : (⟨S10000x384, .f32⟩ : BufTy).Contents (Elt F) → (⟨S100x384, .f32⟩ : BufTy).Contents (Elt F)),
    StableHlo.unary main_v2 main_v19 ((extractStridedSlice S100x384 ![1600, 0] · slices_S10000x384_S100x384_1600_0) : (⟨S10000x384, .f32⟩ : BufTy).Contents (Elt F) → (⟨S100x384, .f32⟩ : BufTy).Contents (Elt F)),
    StableHlo.unary main_v2 main_v20 ((extractStridedSlice S100x384 ![1700, 0] · slices_S10000x384_S100x384_1700_0) : (⟨S10000x384, .f32⟩ : BufTy).Contents (Elt F) → (⟨S100x384, .f32⟩ : BufTy).Contents (Elt F)),
    StableHlo.unary main_v2 main_v21 ((extractStridedSlice S100x384 ![1800, 0] · slices_S10000x384_S100x384_1800_0) : (⟨S10000x384, .f32⟩ : BufTy).Contents (Elt F) → (⟨S100x384, .f32⟩ : BufTy).Contents (Elt F)),
    StableHlo.unary main_v2 main_v22 ((extractStridedSlice S100x384 ![1900, 0] · slices_S10000x384_S100x384_1900_0) : (⟨S10000x384, .f32⟩ : BufTy).Contents (Elt F) → (⟨S100x384, .f32⟩ : BufTy).Contents (Elt F)),
    StableHlo.unary main_v2 main_v23 ((extractStridedSlice S100x384 ![2000, 0] · slices_S10000x384_S100x384_2000_0) : (⟨S10000x384, .f32⟩ : BufTy).Contents (Elt F) → (⟨S100x384, .f32⟩ : BufTy).Contents (Elt F)),
    StableHlo.unary main_v2 main_v24 ((extractStridedSlice S100x384 ![2100, 0] · slices_S10000x384_S100x384_2100_0) : (⟨S10000x384, .f32⟩ : BufTy).Contents (Elt F) → (⟨S100x384, .f32⟩ : BufTy).Contents (Elt F)),
    StableHlo.unary main_v2 main_v25 ((extractStridedSlice S100x384 ![2200, 0] · slices_S10000x384_S100x384_2200_0) : (⟨S10000x384, .f32⟩ : BufTy).Contents (Elt F) → (⟨S100x384, .f32⟩ : BufTy).Contents (Elt F)),
    StableHlo.unary main_v2 main_v26 ((extractStridedSlice S100x384 ![2300, 0] · slices_S10000x384_S100x384_2300_0) : (⟨S10000x384, .f32⟩ : BufTy).Contents (Elt F) → (⟨S100x384, .f32⟩ : BufTy).Contents (Elt F)),
    StableHlo.unary main_v2 main_v27 ((extractStridedSlice S100x384 ![2400, 0] · slices_S10000x384_S100x384_2400_0) : (⟨S10000x384, .f32⟩ : BufTy).Contents (Elt F) → (⟨S100x384, .f32⟩ : BufTy).Contents (Elt F)),
    StableHlo.unary main_v2 main_v28 ((extractStridedSlice S100x384 ![2500, 0] · slices_S10000x384_S100x384_2500_0) : (⟨S10000x384, .f32⟩ : BufTy).Contents (Elt F) → (⟨S100x384, .f32⟩ : BufTy).Contents (Elt F)),
    StableHlo.unary main_v2 main_v29 ((extractStridedSlice S100x384 ![2600, 0] · slices_S10000x384_S100x384_2600_0) : (⟨S10000x384, .f32⟩ : BufTy).Contents (Elt F) → (⟨S100x384, .f32⟩ : BufTy).Contents (Elt F)),
    StableHlo.unary main_v2 main_v30 ((extractStridedSlice S100x384 ![2700, 0] · slices_S10000x384_S100x384_2700_0) : (⟨S10000x384, .f32⟩ : BufTy).Contents (Elt F) → (⟨S100x384, .f32⟩ : BufTy).Contents (Elt F)),
    StableHlo.unary main_v2 main_v31 ((extractStridedSlice S100x384 ![2800, 0] · slices_S10000x384_S100x384_2800_0) : (⟨S10000x384, .f32⟩ : BufTy).Contents (Elt F) → (⟨S100x384, .f32⟩ : BufTy).Contents (Elt F)),
    StableHlo.unary main_v2 main_v32 ((extractStridedSlice S100x384 ![2900, 0] · slices_S10000x384_S100x384_2900_0) : (⟨S10000x384, .f32⟩ : BufTy).Contents (Elt F) → (⟨S100x384, .f32⟩ : BufTy).Contents (Elt F)),
    StableHlo.unary main_v2 main_v33 ((extractStridedSlice S100x384 ![3000, 0] · slices_S10000x384_S100x384_3000_0) : (⟨S10000x384, .f32⟩ : BufTy).Contents (Elt F) → (⟨S100x384, .f32⟩ : BufTy).Contents (Elt F)),
    StableHlo.unary main_v2 main_v34 ((extractStridedSlice S100x384 ![3100, 0] · slices_S10000x384_S100x384_3100_0) : (⟨S10000x384, .f32⟩ : BufTy).Contents (Elt F) → (⟨S100x384, .f32⟩ : BufTy).Contents (Elt F)),
    StableHlo.unary main_v2 main_v35 ((extractStridedSlice S100x384 ![3200, 0] · slices_S10000x384_S100x384_3200_0) : (⟨S10000x384, .f32⟩ : BufTy).Contents (Elt F) → (⟨S100x384, .f32⟩ : BufTy).Contents (Elt F)),
    StableHlo.unary main_v2 main_v36 ((extractStridedSlice S100x384 ![3300, 0] · slices_S10000x384_S100x384_3300_0) : (⟨S10000x384, .f32⟩ : BufTy).Contents (Elt F) → (⟨S100x384, .f32⟩ : BufTy).Contents (Elt F)),
    StableHlo.unary main_v2 main_v37 ((extractStridedSlice S100x384 ![3400, 0] · slices_S10000x384_S100x384_3400_0) : (⟨S10000x384, .f32⟩ : BufTy).Contents (Elt F) → (⟨S100x384, .f32⟩ : BufTy).Contents (Elt F)),
    StableHlo.unary main_v2 main_v38 ((extractStridedSlice S100x384 ![3500, 0] · slices_S10000x384_S100x384_3500_0) : (⟨S10000x384, .f32⟩ : BufTy).Contents (Elt F) → (⟨S100x384, .f32⟩ : BufTy).Contents (Elt F)),
    StableHlo.unary main_v2 main_v39 ((extractStridedSlice S100x384 ![3600, 0] · slices_S10000x384_S100x384_3600_0) : (⟨S10000x384, .f32⟩ : BufTy).Contents (Elt F) → (⟨S100x384, .f32⟩ : BufTy).Contents (Elt F)),
    StableHlo.unary main_v2 main_v40 ((extractStridedSlice S100x384 ![3700, 0] · slices_S10000x384_S100x384_3700_0) : (⟨S10000x384, .f32⟩ : BufTy).Contents (Elt F) → (⟨S100x384, .f32⟩ : BufTy).Contents (Elt F)),
    StableHlo.unary main_v2 main_v41 ((extractStridedSlice S100x384 ![3800, 0] · slices_S10000x384_S100x384_3800_0) : (⟨S10000x384, .f32⟩ : BufTy).Contents (Elt F) → (⟨S100x384, .f32⟩ : BufTy).Contents (Elt F)),
    StableHlo.unary main_v2 main_v42 ((extractStridedSlice S100x384 ![3900, 0] · slices_S10000x384_S100x384_3900_0) : (⟨S10000x384, .f32⟩ : BufTy).Contents (Elt F) → (⟨S100x384, .f32⟩ : BufTy).Contents (Elt F)),
    StableHlo.unary main_v2 main_v43 ((extractStridedSlice S100x384 ![4000, 0] · slices_S10000x384_S100x384_4000_0) : (⟨S10000x384, .f32⟩ : BufTy).Contents (Elt F) → (⟨S100x384, .f32⟩ : BufTy).Contents (Elt F)),
    StableHlo.unary main_v2 main_v44 ((extractStridedSlice S100x384 ![4100, 0] · slices_S10000x384_S100x384_4100_0) : (⟨S10000x384, .f32⟩ : BufTy).Contents (Elt F) → (⟨S100x384, .f32⟩ : BufTy).Contents (Elt F)),
    StableHlo.unary main_v2 main_v45 ((extractStridedSlice S100x384 ![4200, 0] · slices_S10000x384_S100x384_4200_0) : (⟨S10000x384, .f32⟩ : BufTy).Contents (Elt F) → (⟨S100x384, .f32⟩ : BufTy).Contents (Elt F)),
    StableHlo.unary main_v2 main_v46 ((extractStridedSlice S100x384 ![4300, 0] · slices_S10000x384_S100x384_4300_0) : (⟨S10000x384, .f32⟩ : BufTy).Contents (Elt F) → (⟨S100x384, .f32⟩ : BufTy).Contents (Elt F)),
    StableHlo.unary main_v2 main_v47 ((extractStridedSlice S100x384 ![4400, 0] · slices_S10000x384_S100x384_4400_0) : (⟨S10000x384, .f32⟩ : BufTy).Contents (Elt F) → (⟨S100x384, .f32⟩ : BufTy).Contents (Elt F)),
    StableHlo.unary main_v2 main_v48 ((extractStridedSlice S100x384 ![4500, 0] · slices_S10000x384_S100x384_4500_0) : (⟨S10000x384, .f32⟩ : BufTy).Contents (Elt F) → (⟨S100x384, .f32⟩ : BufTy).Contents (Elt F)),
    StableHlo.unary main_v2 main_v49 ((extractStridedSlice S100x384 ![4600, 0] · slices_S10000x384_S100x384_4600_0) : (⟨S10000x384, .f32⟩ : BufTy).Contents (Elt F) → (⟨S100x384, .f32⟩ : BufTy).Contents (Elt F)),
    StableHlo.unary main_v2 main_v50 ((extractStridedSlice S100x384 ![4700, 0] · slices_S10000x384_S100x384_4700_0) : (⟨S10000x384, .f32⟩ : BufTy).Contents (Elt F) → (⟨S100x384, .f32⟩ : BufTy).Contents (Elt F)),
    StableHlo.unary main_v2 main_v51 ((extractStridedSlice S100x384 ![4800, 0] · slices_S10000x384_S100x384_4800_0) : (⟨S10000x384, .f32⟩ : BufTy).Contents (Elt F) → (⟨S100x384, .f32⟩ : BufTy).Contents (Elt F)),
    StableHlo.unary main_v2 main_v52 ((extractStridedSlice S100x384 ![4900, 0] · slices_S10000x384_S100x384_4900_0) : (⟨S10000x384, .f32⟩ : BufTy).Contents (Elt F) → (⟨S100x384, .f32⟩ : BufTy).Contents (Elt F)),
    StableHlo.unary main_v2 main_v53 ((extractStridedSlice S100x384 ![5000, 0] · slices_S10000x384_S100x384_5000_0) : (⟨S10000x384, .f32⟩ : BufTy).Contents (Elt F) → (⟨S100x384, .f32⟩ : BufTy).Contents (Elt F)),
    StableHlo.unary main_v2 main_v54 ((extractStridedSlice S100x384 ![5100, 0] · slices_S10000x384_S100x384_5100_0) : (⟨S10000x384, .f32⟩ : BufTy).Contents (Elt F) → (⟨S100x384, .f32⟩ : BufTy).Contents (Elt F)),
    StableHlo.unary main_v2 main_v55 ((extractStridedSlice S100x384 ![5200, 0] · slices_S10000x384_S100x384_5200_0) : (⟨S10000x384, .f32⟩ : BufTy).Contents (Elt F) → (⟨S100x384, .f32⟩ : BufTy).Contents (Elt F)),
    StableHlo.unary main_v2 main_v56 ((extractStridedSlice S100x384 ![5300, 0] · slices_S10000x384_S100x384_5300_0) : (⟨S10000x384, .f32⟩ : BufTy).Contents (Elt F) → (⟨S100x384, .f32⟩ : BufTy).Contents (Elt F)),
    StableHlo.unary main_v2 main_v57 ((extractStridedSlice S100x384 ![5400, 0] · slices_S10000x384_S100x384_5400_0) : (⟨S10000x384, .f32⟩ : BufTy).Contents (Elt F) → (⟨S100x384, .f32⟩ : BufTy).Contents (Elt F)),
    StableHlo.unary main_v2 main_v58 ((extractStridedSlice S100x384 ![5500, 0] · slices_S10000x384_S100x384_5500_0) : (⟨S10000x384, .f32⟩ : BufTy).Contents (Elt F) → (⟨S100x384, .f32⟩ : BufTy).Contents (Elt F)),
    StableHlo.unary main_v2 main_v59 ((extractStridedSlice S100x384 ![5600, 0] · slices_S10000x384_S100x384_5600_0) : (⟨S10000x384, .f32⟩ : BufTy).Contents (Elt F) → (⟨S100x384, .f32⟩ : BufTy).Contents (Elt F)) ]

/-- The row chunks 57 … 99 of the concatenated features. -/
abbrev wB1 : List (HloOp τ sig (Elt F)) :=
  [ StableHlo.unary main_v2 main_v60 ((extractStridedSlice S100x384 ![5700, 0] · slices_S10000x384_S100x384_5700_0) : (⟨S10000x384, .f32⟩ : BufTy).Contents (Elt F) → (⟨S100x384, .f32⟩ : BufTy).Contents (Elt F)),
    StableHlo.unary main_v2 main_v61 ((extractStridedSlice S100x384 ![5800, 0] · slices_S10000x384_S100x384_5800_0) : (⟨S10000x384, .f32⟩ : BufTy).Contents (Elt F) → (⟨S100x384, .f32⟩ : BufTy).Contents (Elt F)),
    StableHlo.unary main_v2 main_v62 ((extractStridedSlice S100x384 ![5900, 0] · slices_S10000x384_S100x384_5900_0) : (⟨S10000x384, .f32⟩ : BufTy).Contents (Elt F) → (⟨S100x384, .f32⟩ : BufTy).Contents (Elt F)),
    StableHlo.unary main_v2 main_v63 ((extractStridedSlice S100x384 ![6000, 0] · slices_S10000x384_S100x384_6000_0) : (⟨S10000x384, .f32⟩ : BufTy).Contents (Elt F) → (⟨S100x384, .f32⟩ : BufTy).Contents (Elt F)),
    StableHlo.unary main_v2 main_v64 ((extractStridedSlice S100x384 ![6100, 0] · slices_S10000x384_S100x384_6100_0) : (⟨S10000x384, .f32⟩ : BufTy).Contents (Elt F) → (⟨S100x384, .f32⟩ : BufTy).Contents (Elt F)),
    StableHlo.unary main_v2 main_v65 ((extractStridedSlice S100x384 ![6200, 0] · slices_S10000x384_S100x384_6200_0) : (⟨S10000x384, .f32⟩ : BufTy).Contents (Elt F) → (⟨S100x384, .f32⟩ : BufTy).Contents (Elt F)),
    StableHlo.unary main_v2 main_v66 ((extractStridedSlice S100x384 ![6300, 0] · slices_S10000x384_S100x384_6300_0) : (⟨S10000x384, .f32⟩ : BufTy).Contents (Elt F) → (⟨S100x384, .f32⟩ : BufTy).Contents (Elt F)),
    StableHlo.unary main_v2 main_v67 ((extractStridedSlice S100x384 ![6400, 0] · slices_S10000x384_S100x384_6400_0) : (⟨S10000x384, .f32⟩ : BufTy).Contents (Elt F) → (⟨S100x384, .f32⟩ : BufTy).Contents (Elt F)),
    StableHlo.unary main_v2 main_v68 ((extractStridedSlice S100x384 ![6500, 0] · slices_S10000x384_S100x384_6500_0) : (⟨S10000x384, .f32⟩ : BufTy).Contents (Elt F) → (⟨S100x384, .f32⟩ : BufTy).Contents (Elt F)),
    StableHlo.unary main_v2 main_v69 ((extractStridedSlice S100x384 ![6600, 0] · slices_S10000x384_S100x384_6600_0) : (⟨S10000x384, .f32⟩ : BufTy).Contents (Elt F) → (⟨S100x384, .f32⟩ : BufTy).Contents (Elt F)),
    StableHlo.unary main_v2 main_v70 ((extractStridedSlice S100x384 ![6700, 0] · slices_S10000x384_S100x384_6700_0) : (⟨S10000x384, .f32⟩ : BufTy).Contents (Elt F) → (⟨S100x384, .f32⟩ : BufTy).Contents (Elt F)),
    StableHlo.unary main_v2 main_v71 ((extractStridedSlice S100x384 ![6800, 0] · slices_S10000x384_S100x384_6800_0) : (⟨S10000x384, .f32⟩ : BufTy).Contents (Elt F) → (⟨S100x384, .f32⟩ : BufTy).Contents (Elt F)),
    StableHlo.unary main_v2 main_v72 ((extractStridedSlice S100x384 ![6900, 0] · slices_S10000x384_S100x384_6900_0) : (⟨S10000x384, .f32⟩ : BufTy).Contents (Elt F) → (⟨S100x384, .f32⟩ : BufTy).Contents (Elt F)),
    StableHlo.unary main_v2 main_v73 ((extractStridedSlice S100x384 ![7000, 0] · slices_S10000x384_S100x384_7000_0) : (⟨S10000x384, .f32⟩ : BufTy).Contents (Elt F) → (⟨S100x384, .f32⟩ : BufTy).Contents (Elt F)),
    StableHlo.unary main_v2 main_v74 ((extractStridedSlice S100x384 ![7100, 0] · slices_S10000x384_S100x384_7100_0) : (⟨S10000x384, .f32⟩ : BufTy).Contents (Elt F) → (⟨S100x384, .f32⟩ : BufTy).Contents (Elt F)),
    StableHlo.unary main_v2 main_v75 ((extractStridedSlice S100x384 ![7200, 0] · slices_S10000x384_S100x384_7200_0) : (⟨S10000x384, .f32⟩ : BufTy).Contents (Elt F) → (⟨S100x384, .f32⟩ : BufTy).Contents (Elt F)),
    StableHlo.unary main_v2 main_v76 ((extractStridedSlice S100x384 ![7300, 0] · slices_S10000x384_S100x384_7300_0) : (⟨S10000x384, .f32⟩ : BufTy).Contents (Elt F) → (⟨S100x384, .f32⟩ : BufTy).Contents (Elt F)),
    StableHlo.unary main_v2 main_v77 ((extractStridedSlice S100x384 ![7400, 0] · slices_S10000x384_S100x384_7400_0) : (⟨S10000x384, .f32⟩ : BufTy).Contents (Elt F) → (⟨S100x384, .f32⟩ : BufTy).Contents (Elt F)),
    StableHlo.unary main_v2 main_v78 ((extractStridedSlice S100x384 ![7500, 0] · slices_S10000x384_S100x384_7500_0) : (⟨S10000x384, .f32⟩ : BufTy).Contents (Elt F) → (⟨S100x384, .f32⟩ : BufTy).Contents (Elt F)),
    StableHlo.unary main_v2 main_v79 ((extractStridedSlice S100x384 ![7600, 0] · slices_S10000x384_S100x384_7600_0) : (⟨S10000x384, .f32⟩ : BufTy).Contents (Elt F) → (⟨S100x384, .f32⟩ : BufTy).Contents (Elt F)),
    StableHlo.unary main_v2 main_v80 ((extractStridedSlice S100x384 ![7700, 0] · slices_S10000x384_S100x384_7700_0) : (⟨S10000x384, .f32⟩ : BufTy).Contents (Elt F) → (⟨S100x384, .f32⟩ : BufTy).Contents (Elt F)),
    StableHlo.unary main_v2 main_v81 ((extractStridedSlice S100x384 ![7800, 0] · slices_S10000x384_S100x384_7800_0) : (⟨S10000x384, .f32⟩ : BufTy).Contents (Elt F) → (⟨S100x384, .f32⟩ : BufTy).Contents (Elt F)),
    StableHlo.unary main_v2 main_v82 ((extractStridedSlice S100x384 ![7900, 0] · slices_S10000x384_S100x384_7900_0) : (⟨S10000x384, .f32⟩ : BufTy).Contents (Elt F) → (⟨S100x384, .f32⟩ : BufTy).Contents (Elt F)),
    StableHlo.unary main_v2 main_v83 ((extractStridedSlice S100x384 ![8000, 0] · slices_S10000x384_S100x384_8000_0) : (⟨S10000x384, .f32⟩ : BufTy).Contents (Elt F) → (⟨S100x384, .f32⟩ : BufTy).Contents (Elt F)),
    StableHlo.unary main_v2 main_v84 ((extractStridedSlice S100x384 ![8100, 0] · slices_S10000x384_S100x384_8100_0) : (⟨S10000x384, .f32⟩ : BufTy).Contents (Elt F) → (⟨S100x384, .f32⟩ : BufTy).Contents (Elt F)),
    StableHlo.unary main_v2 main_v85 ((extractStridedSlice S100x384 ![8200, 0] · slices_S10000x384_S100x384_8200_0) : (⟨S10000x384, .f32⟩ : BufTy).Contents (Elt F) → (⟨S100x384, .f32⟩ : BufTy).Contents (Elt F)),
    StableHlo.unary main_v2 main_v86 ((extractStridedSlice S100x384 ![8300, 0] · slices_S10000x384_S100x384_8300_0) : (⟨S10000x384, .f32⟩ : BufTy).Contents (Elt F) → (⟨S100x384, .f32⟩ : BufTy).Contents (Elt F)),
    StableHlo.unary main_v2 main_v87 ((extractStridedSlice S100x384 ![8400, 0] · slices_S10000x384_S100x384_8400_0) : (⟨S10000x384, .f32⟩ : BufTy).Contents (Elt F) → (⟨S100x384, .f32⟩ : BufTy).Contents (Elt F)),
    StableHlo.unary main_v2 main_v88 ((extractStridedSlice S100x384 ![8500, 0] · slices_S10000x384_S100x384_8500_0) : (⟨S10000x384, .f32⟩ : BufTy).Contents (Elt F) → (⟨S100x384, .f32⟩ : BufTy).Contents (Elt F)),
    StableHlo.unary main_v2 main_v89 ((extractStridedSlice S100x384 ![8600, 0] · slices_S10000x384_S100x384_8600_0) : (⟨S10000x384, .f32⟩ : BufTy).Contents (Elt F) → (⟨S100x384, .f32⟩ : BufTy).Contents (Elt F)),
    StableHlo.unary main_v2 main_v90 ((extractStridedSlice S100x384 ![8700, 0] · slices_S10000x384_S100x384_8700_0) : (⟨S10000x384, .f32⟩ : BufTy).Contents (Elt F) → (⟨S100x384, .f32⟩ : BufTy).Contents (Elt F)),
    StableHlo.unary main_v2 main_v91 ((extractStridedSlice S100x384 ![8800, 0] · slices_S10000x384_S100x384_8800_0) : (⟨S10000x384, .f32⟩ : BufTy).Contents (Elt F) → (⟨S100x384, .f32⟩ : BufTy).Contents (Elt F)),
    StableHlo.unary main_v2 main_v92 ((extractStridedSlice S100x384 ![8900, 0] · slices_S10000x384_S100x384_8900_0) : (⟨S10000x384, .f32⟩ : BufTy).Contents (Elt F) → (⟨S100x384, .f32⟩ : BufTy).Contents (Elt F)),
    StableHlo.unary main_v2 main_v93 ((extractStridedSlice S100x384 ![9000, 0] · slices_S10000x384_S100x384_9000_0) : (⟨S10000x384, .f32⟩ : BufTy).Contents (Elt F) → (⟨S100x384, .f32⟩ : BufTy).Contents (Elt F)),
    StableHlo.unary main_v2 main_v94 ((extractStridedSlice S100x384 ![9100, 0] · slices_S10000x384_S100x384_9100_0) : (⟨S10000x384, .f32⟩ : BufTy).Contents (Elt F) → (⟨S100x384, .f32⟩ : BufTy).Contents (Elt F)),
    StableHlo.unary main_v2 main_v95 ((extractStridedSlice S100x384 ![9200, 0] · slices_S10000x384_S100x384_9200_0) : (⟨S10000x384, .f32⟩ : BufTy).Contents (Elt F) → (⟨S100x384, .f32⟩ : BufTy).Contents (Elt F)),
    StableHlo.unary main_v2 main_v96 ((extractStridedSlice S100x384 ![9300, 0] · slices_S10000x384_S100x384_9300_0) : (⟨S10000x384, .f32⟩ : BufTy).Contents (Elt F) → (⟨S100x384, .f32⟩ : BufTy).Contents (Elt F)),
    StableHlo.unary main_v2 main_v97 ((extractStridedSlice S100x384 ![9400, 0] · slices_S10000x384_S100x384_9400_0) : (⟨S10000x384, .f32⟩ : BufTy).Contents (Elt F) → (⟨S100x384, .f32⟩ : BufTy).Contents (Elt F)),
    StableHlo.unary main_v2 main_v98 ((extractStridedSlice S100x384 ![9500, 0] · slices_S10000x384_S100x384_9500_0) : (⟨S10000x384, .f32⟩ : BufTy).Contents (Elt F) → (⟨S100x384, .f32⟩ : BufTy).Contents (Elt F)),
    StableHlo.unary main_v2 main_v99 ((extractStridedSlice S100x384 ![9600, 0] · slices_S10000x384_S100x384_9600_0) : (⟨S10000x384, .f32⟩ : BufTy).Contents (Elt F) → (⟨S100x384, .f32⟩ : BufTy).Contents (Elt F)),
    StableHlo.unary main_v2 main_v100 ((extractStridedSlice S100x384 ![9700, 0] · slices_S10000x384_S100x384_9700_0) : (⟨S10000x384, .f32⟩ : BufTy).Contents (Elt F) → (⟨S100x384, .f32⟩ : BufTy).Contents (Elt F)),
    StableHlo.unary main_v2 main_v101 ((extractStridedSlice S100x384 ![9800, 0] · slices_S10000x384_S100x384_9800_0) : (⟨S10000x384, .f32⟩ : BufTy).Contents (Elt F) → (⟨S100x384, .f32⟩ : BufTy).Contents (Elt F)),
    StableHlo.unary main_v2 main_v102 ((extractStridedSlice S100x384 ![9900, 0] · slices_S10000x384_S100x384_9900_0) : (⟨S10000x384, .f32⟩ : BufTy).Contents (Elt F) → (⟨S100x384, .f32⟩ : BufTy).Contents (Elt F)) ]

/-- The products of chunks 0 … 16 with the weight matrix. -/
abbrev wC0 : List (HloOp τ sig (Elt F)) :=
  [ StableHlo.binary main_v3 main_arg3 main_v103 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v4 main_arg3 main_v104 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v5 main_arg3 main_v105 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v6 main_arg3 main_v106 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v7 main_arg3 main_v107 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v8 main_arg3 main_v108 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v9 main_arg3 main_v109 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v10 main_arg3 main_v110 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v11 main_arg3 main_v111 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v12 main_arg3 main_v112 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v13 main_arg3 main_v113 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v14 main_arg3 main_v114 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v15 main_arg3 main_v115 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v16 main_arg3 main_v116 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v17 main_arg3 main_v117 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v18 main_arg3 main_v118 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v19 main_arg3 main_v119 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)) ]

/-- The products of chunks 17 … 76 with the weight matrix. -/
abbrev wC1 : List (HloOp τ sig (Elt F)) :=
  [ StableHlo.binary main_v20 main_arg3 main_v120 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v21 main_arg3 main_v121 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v22 main_arg3 main_v122 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v23 main_arg3 main_v123 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v24 main_arg3 main_v124 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v25 main_arg3 main_v125 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v26 main_arg3 main_v126 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v27 main_arg3 main_v127 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v28 main_arg3 main_v128 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v29 main_arg3 main_v129 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v30 main_arg3 main_v130 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v31 main_arg3 main_v131 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v32 main_arg3 main_v132 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v33 main_arg3 main_v133 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v34 main_arg3 main_v134 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v35 main_arg3 main_v135 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v36 main_arg3 main_v136 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v37 main_arg3 main_v137 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v38 main_arg3 main_v138 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v39 main_arg3 main_v139 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v40 main_arg3 main_v140 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v41 main_arg3 main_v141 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v42 main_arg3 main_v142 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v43 main_arg3 main_v143 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v44 main_arg3 main_v144 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v45 main_arg3 main_v145 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v46 main_arg3 main_v146 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v47 main_arg3 main_v147 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v48 main_arg3 main_v148 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v49 main_arg3 main_v149 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v50 main_arg3 main_v150 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v51 main_arg3 main_v151 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v52 main_arg3 main_v152 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v53 main_arg3 main_v153 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v54 main_arg3 main_v154 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v55 main_arg3 main_v155 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v56 main_arg3 main_v156 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v57 main_arg3 main_v157 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v58 main_arg3 main_v158 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v59 main_arg3 main_v159 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v60 main_arg3 main_v160 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v61 main_arg3 main_v161 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v62 main_arg3 main_v162 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v63 main_arg3 main_v163 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v64 main_arg3 main_v164 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v65 main_arg3 main_v165 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v66 main_arg3 main_v166 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v67 main_arg3 main_v167 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v68 main_arg3 main_v168 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v69 main_arg3 main_v169 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v70 main_arg3 main_v170 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v71 main_arg3 main_v171 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v72 main_arg3 main_v172 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v73 main_arg3 main_v173 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v74 main_arg3 main_v174 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v75 main_arg3 main_v175 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v76 main_arg3 main_v176 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v77 main_arg3 main_v177 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v78 main_arg3 main_v178 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v79 main_arg3 main_v179 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)) ]

/-- The products of chunks 77 … 99 with the weight matrix. -/
abbrev wC2 : List (HloOp τ sig (Elt F)) :=
  [ StableHlo.binary main_v80 main_arg3 main_v180 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v81 main_arg3 main_v181 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v82 main_arg3 main_v182 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v83 main_arg3 main_v183 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v84 main_arg3 main_v184 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v85 main_arg3 main_v185 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v86 main_arg3 main_v186 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v87 main_arg3 main_v187 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v88 main_arg3 main_v188 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v89 main_arg3 main_v189 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v90 main_arg3 main_v190 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v91 main_arg3 main_v191 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v92 main_arg3 main_v192 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v93 main_arg3 main_v193 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v94 main_arg3 main_v194 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v95 main_arg3 main_v195 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v96 main_arg3 main_v196 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v97 main_arg3 main_v197 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v98 main_arg3 main_v198 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v99 main_arg3 main_v199 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v100 main_arg3 main_v200 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v101 main_arg3 main_v201 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)),
    StableHlo.binary main_v102 main_arg3 main_v202 ((fun l r => Host.dotGeneral dot_S100x384_S384x128_S100x128_1_0_0_1_n_n none l r) : (⟨S100x384, .f32⟩ : BufTy).Contents (Elt F) → (⟨S384x128, .f32⟩ : BufTy).Contents (Elt F) → (⟨S100x128, .f32⟩ : BufTy).Contents (Elt F)) ]

/-- The chunk products stacked back along the rows: six groups of sixteen and one of four. -/
abbrev wD1 : List (HloOp τ sig (Elt F)) :=
  [ StableHlo.nary ![main_v103, main_v104, main_v105, main_v106, main_v107, main_v108, main_v109, main_v110, main_v111, main_v112, main_v113, main_v114, main_v115, main_v116, main_v117, main_v118] main_v203 (fun u => concatenate S1600x128 0 [⟨S100x128, u 0⟩, ⟨S100x128, u 1⟩, ⟨S100x128, u 2⟩, ⟨S100x128, u 3⟩, ⟨S100x128, u 4⟩, ⟨S100x128, u 5⟩, ⟨S100x128, u 6⟩, ⟨S100x128, u 7⟩, ⟨S100x128, u 8⟩, ⟨S100x128, u 9⟩, ⟨S100x128, u 10⟩, ⟨S100x128, u 11⟩, ⟨S100x128, u 12⟩, ⟨S100x128, u 13⟩, ⟨S100x128, u 14⟩, ⟨S100x128, u 15⟩] concatenates_S100x128_S100x128_S100x128_S100x128_S100x128_S100x128_S100x128_S100x128_S100x128_S100x128_S100x128_S100x128_S100x128_S100x128_S100x128_S100x128_S1600x128_d0),
    StableHlo.nary ![main_v119, main_v120, main_v121, main_v122, main_v123, main_v124, main_v125, main_v126, main_v127, main_v128, main_v129, main_v130, main_v131, main_v132, main_v133, main_v134] main_v204 (fun u => concatenate S1600x128 0 [⟨S100x128, u 0⟩, ⟨S100x128, u 1⟩, ⟨S100x128, u 2⟩, ⟨S100x128, u 3⟩, ⟨S100x128, u 4⟩, ⟨S100x128, u 5⟩, ⟨S100x128, u 6⟩, ⟨S100x128, u 7⟩, ⟨S100x128, u 8⟩, ⟨S100x128, u 9⟩, ⟨S100x128, u 10⟩, ⟨S100x128, u 11⟩, ⟨S100x128, u 12⟩, ⟨S100x128, u 13⟩, ⟨S100x128, u 14⟩, ⟨S100x128, u 15⟩] concatenates_S100x128_S100x128_S100x128_S100x128_S100x128_S100x128_S100x128_S100x128_S100x128_S100x128_S100x128_S100x128_S100x128_S100x128_S100x128_S100x128_S1600x128_d0),
    StableHlo.nary ![main_v135, main_v136, main_v137, main_v138, main_v139, main_v140, main_v141, main_v142, main_v143, main_v144, main_v145, main_v146, main_v147, main_v148, main_v149, main_v150] main_v205 (fun u => concatenate S1600x128 0 [⟨S100x128, u 0⟩, ⟨S100x128, u 1⟩, ⟨S100x128, u 2⟩, ⟨S100x128, u 3⟩, ⟨S100x128, u 4⟩, ⟨S100x128, u 5⟩, ⟨S100x128, u 6⟩, ⟨S100x128, u 7⟩, ⟨S100x128, u 8⟩, ⟨S100x128, u 9⟩, ⟨S100x128, u 10⟩, ⟨S100x128, u 11⟩, ⟨S100x128, u 12⟩, ⟨S100x128, u 13⟩, ⟨S100x128, u 14⟩, ⟨S100x128, u 15⟩] concatenates_S100x128_S100x128_S100x128_S100x128_S100x128_S100x128_S100x128_S100x128_S100x128_S100x128_S100x128_S100x128_S100x128_S100x128_S100x128_S100x128_S1600x128_d0),
    StableHlo.nary ![main_v151, main_v152, main_v153, main_v154, main_v155, main_v156, main_v157, main_v158, main_v159, main_v160, main_v161, main_v162, main_v163, main_v164, main_v165, main_v166] main_v206 (fun u => concatenate S1600x128 0 [⟨S100x128, u 0⟩, ⟨S100x128, u 1⟩, ⟨S100x128, u 2⟩, ⟨S100x128, u 3⟩, ⟨S100x128, u 4⟩, ⟨S100x128, u 5⟩, ⟨S100x128, u 6⟩, ⟨S100x128, u 7⟩, ⟨S100x128, u 8⟩, ⟨S100x128, u 9⟩, ⟨S100x128, u 10⟩, ⟨S100x128, u 11⟩, ⟨S100x128, u 12⟩, ⟨S100x128, u 13⟩, ⟨S100x128, u 14⟩, ⟨S100x128, u 15⟩] concatenates_S100x128_S100x128_S100x128_S100x128_S100x128_S100x128_S100x128_S100x128_S100x128_S100x128_S100x128_S100x128_S100x128_S100x128_S100x128_S100x128_S1600x128_d0),
    StableHlo.nary ![main_v167, main_v168, main_v169, main_v170, main_v171, main_v172, main_v173, main_v174, main_v175, main_v176, main_v177, main_v178, main_v179, main_v180, main_v181, main_v182] main_v207 (fun u => concatenate S1600x128 0 [⟨S100x128, u 0⟩, ⟨S100x128, u 1⟩, ⟨S100x128, u 2⟩, ⟨S100x128, u 3⟩, ⟨S100x128, u 4⟩, ⟨S100x128, u 5⟩, ⟨S100x128, u 6⟩, ⟨S100x128, u 7⟩, ⟨S100x128, u 8⟩, ⟨S100x128, u 9⟩, ⟨S100x128, u 10⟩, ⟨S100x128, u 11⟩, ⟨S100x128, u 12⟩, ⟨S100x128, u 13⟩, ⟨S100x128, u 14⟩, ⟨S100x128, u 15⟩] concatenates_S100x128_S100x128_S100x128_S100x128_S100x128_S100x128_S100x128_S100x128_S100x128_S100x128_S100x128_S100x128_S100x128_S100x128_S100x128_S100x128_S1600x128_d0),
    StableHlo.nary ![main_v183, main_v184, main_v185, main_v186, main_v187, main_v188, main_v189, main_v190, main_v191, main_v192, main_v193, main_v194, main_v195, main_v196, main_v197, main_v198] main_v208 (fun u => concatenate S1600x128 0 [⟨S100x128, u 0⟩, ⟨S100x128, u 1⟩, ⟨S100x128, u 2⟩, ⟨S100x128, u 3⟩, ⟨S100x128, u 4⟩, ⟨S100x128, u 5⟩, ⟨S100x128, u 6⟩, ⟨S100x128, u 7⟩, ⟨S100x128, u 8⟩, ⟨S100x128, u 9⟩, ⟨S100x128, u 10⟩, ⟨S100x128, u 11⟩, ⟨S100x128, u 12⟩, ⟨S100x128, u 13⟩, ⟨S100x128, u 14⟩, ⟨S100x128, u 15⟩] concatenates_S100x128_S100x128_S100x128_S100x128_S100x128_S100x128_S100x128_S100x128_S100x128_S100x128_S100x128_S100x128_S100x128_S100x128_S100x128_S100x128_S1600x128_d0),
    StableHlo.nary ![main_v199, main_v200, main_v201, main_v202] main_v209 (fun u => concatenate S400x128 0 [⟨S100x128, u 0⟩, ⟨S100x128, u 1⟩, ⟨S100x128, u 2⟩, ⟨S100x128, u 3⟩] concatenates_S100x128_S100x128_S100x128_S100x128_S400x128_d0) ]

/-- The seven groups stacked along the rows: the 10000 × 128 product before the rectifier. -/
abbrev wD2 : List (HloOp τ sig (Elt F)) :=
  [ StableHlo.nary ![main_v203, main_v204, main_v205, main_v206, main_v207, main_v208, main_v209] main_v210 (fun u => concatenate S10000x128 0 [⟨S1600x128, u 0⟩, ⟨S1600x128, u 1⟩, ⟨S1600x128, u 2⟩, ⟨S1600x128, u 3⟩, ⟨S1600x128, u 4⟩, ⟨S1600x128, u 5⟩, ⟨S400x128, u 6⟩] concatenates_S1600x128_S1600x128_S1600x128_S1600x128_S1600x128_S1600x128_S400x128_S10000x128_d0) ]

/-- The slope constant, and the leaky rectifier's body with the select it calls, written where they are called, over the call's buffers. -/
abbrev wE : List (HloOp τ sig (Elt F)) :=
  [ StableHlo.nullary main_cst (constant S_ .f32 0x3C23D70A#32),
    TRef.nullary main_call0.cst (constant S_ .f32 0x00000000#32),
    TRef.unary main_call0.cst main_call0.v0 (broadcastInDim S10000x128 ![] bcast_S_S10000x128),
    TRef.binary (.of main_v210) main_call0.v0 main_call0.v1 (cmpf .oge),
    TRef.unary (.of main_cst) main_call0.v2 id,
    TRef.unary main_call0.v2 main_call0.v3 (broadcastInDim S10000x128 ![] bcast_S_S10000x128),
    TRef.binary main_call0.v3 (.of main_v210) main_call0.v4 mulf,
    TRef.ternary main_call0.v1 (.of main_v210) main_call0.v4 main_call0.call0.v0 select ]

/-- The four printed parts of the program, each as a list. -/
def ops0 : List (HloOp τ sig (Elt F)) := wA ++ wB0
def ops1 : List (HloOp τ sig (Elt F)) := wB1 ++ wC0
def ops2 : List (HloOp τ sig (Elt F)) := wC1
def ops3 : List (HloOp τ sig (Elt F)) := wC2 ++ (wD1 ++ (wD2 ++ wE))

/-- The whole program, in order. -/
def ops : List (HloOp τ sig (Elt F)) := ops0 ++ (ops1 ++ (ops2 ++ ops3))

set_option maxRecDepth 8192 in
theorem part0_eq (c : Dev nD) : main_part0 (F := F) c = seq ops0 := rfl
set_option maxRecDepth 8192 in
theorem part1_eq (c : Dev nD) : main_part1 (F := F) c = seq ops1 := rfl
set_option maxRecDepth 8192 in
theorem part2_eq (c : Dev nD) : main_part2 (F := F) c = seq ops2 := rfl
set_option maxRecDepth 8192 in
/-- The last part calls the rectifier, which calls the select: a call is its body run on the operands, so with the
    two bodies unfolded the part is again a straight line. -/
theorem part3_eq (c : Dev nD) : main_part3 (F := F) c = seq ops3 := rfl

/-- The program is its four parts run one after the other. -/
theorem main_eq (c : Dev nD) : main (F := F) c = seq ops := by
  unfold ops
  simp only [seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem wA_sub : (wA : List (HloOp τ sig (Elt F))).Forall fun op => op.bufs ⊆ tcRefs τ sig :=
  ⟨binary_bufs_sub .., binary_bufs_sub .., nary_bufs_sub ..⟩
set_option maxRecDepth 8192 in
theorem wA_fresh : ∀ op ∈ (wA : List (HloOp τ sig (Elt F))), op.fresh = ∅ := by
  intro _ h; (repeat (cases h with | head => rfl | tail _ h => ?_)); exact nomatch h

set_option maxRecDepth 8192 in
theorem wB0_sub : (wB0 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem wB0_fresh : ∀ op ∈ (wB0 : List (HloOp τ sig (Elt F))), op.fresh = ∅ := by
  intro _ h; (repeat (cases h with | head => rfl | tail _ h => ?_)); exact nomatch h

set_option maxRecDepth 8192 in
theorem wB1_sub : (wB1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem wB1_fresh : ∀ op ∈ (wB1 : List (HloOp τ sig (Elt F))), op.fresh = ∅ := by
  intro _ h; (repeat (cases h with | head => rfl | tail _ h => ?_)); exact nomatch h

set_option maxRecDepth 8192 in
theorem wC0_sub : (wC0 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩
set_option maxRecDepth 8192 in
theorem wC0_fresh : ∀ op ∈ (wC0 : List (HloOp τ sig (Elt F))), op.fresh = ∅ := by
  intro _ h; (repeat (cases h with | head => rfl | tail _ h => ?_)); exact nomatch h

set_option maxRecDepth 8192 in
theorem wC1_sub : (wC1 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩
set_option maxRecDepth 8192 in
theorem wC1_fresh : ∀ op ∈ (wC1 : List (HloOp τ sig (Elt F))), op.fresh = ∅ := by
  intro _ h; (repeat (cases h with | head => rfl | tail _ h => ?_)); exact nomatch h

set_option maxRecDepth 8192 in
theorem wC2_sub : (wC2 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩
set_option maxRecDepth 8192 in
theorem wC2_fresh : ∀ op ∈ (wC2 : List (HloOp τ sig (Elt F))), op.fresh = ∅ := by
  intro _ h; (repeat (cases h with | head => rfl | tail _ h => ?_)); exact nomatch h

set_option maxRecDepth 8192 in
theorem wD1_sub : (wD1 : List (HloOp τ sig (Elt F))).Forall fun op => op.bufs ⊆ tcRefs τ sig :=
  ⟨nary_bufs_sub .., nary_bufs_sub .., nary_bufs_sub .., nary_bufs_sub .., nary_bufs_sub .., nary_bufs_sub .., nary_bufs_sub ..⟩
set_option maxRecDepth 8192 in
theorem wD1_fresh : ∀ op ∈ (wD1 : List (HloOp τ sig (Elt F))), op.fresh = ∅ := by
  intro _ h; (repeat (cases h with | head => rfl | tail _ h => ?_)); exact nomatch h

set_option maxRecDepth 8192 in
theorem wD2_sub : (wD2 : List (HloOp τ sig (Elt F))).Forall fun op => op.bufs ⊆ tcRefs τ sig :=
  (nary_bufs_sub ..)
set_option maxRecDepth 8192 in
theorem wD2_fresh : ∀ op ∈ (wD2 : List (HloOp τ sig (Elt F))), op.fresh = ∅ := by
  intro _ h; (repeat (cases h with | head => rfl | tail _ h => ?_)); exact nomatch h

set_option maxRecDepth 8192 in
theorem wE_sub : (wE : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
set_option maxRecDepth 8192 in
theorem wE_fresh : ∀ op ∈ (wE : List (HloOp τ sig (Elt F))), op.fresh = ∅ := by
  intro _ h; (repeat (cases h with | head => rfl | tail _ h => ?_)); exact nomatch h

/-- Membership in the whole list is membership in one of the nine stretches. -/
theorem mem_ops {op : HloOp τ sig (Elt F)} (h : op ∈ (ops : List (HloOp τ sig (Elt F)))) :
    op ∈ (wA : List (HloOp τ sig (Elt F)))
      ∨ op ∈ (wB0 : List (HloOp τ sig (Elt F)))
      ∨ op ∈ (wB1 : List (HloOp τ sig (Elt F)))
      ∨ op ∈ (wC0 : List (HloOp τ sig (Elt F)))
      ∨ op ∈ (wC1 : List (HloOp τ sig (Elt F)))
      ∨ op ∈ (wC2 : List (HloOp τ sig (Elt F)))
      ∨ op ∈ (wD1 : List (HloOp τ sig (Elt F)))
      ∨ op ∈ (wD2 : List (HloOp τ sig (Elt F)))
      ∨ op ∈ (wE : List (HloOp τ sig (Elt F))) := by
  simp only [ops, ops0, ops1, ops2, ops3, List.mem_append] at h
  tauto

theorem ops_sub : (ops : List (HloOp τ sig (Elt F))).Forall fun op => op.bufs ⊆ tcRefs τ sig :=
  List.forall_iff_forall_mem.mpr fun op h => by
    rcases mem_ops h with h | h | h | h | h | h | h | h | h
    exacts [List.forall_iff_forall_mem.mp wA_sub op h, List.forall_iff_forall_mem.mp wB0_sub op h, List.forall_iff_forall_mem.mp wB1_sub op h, List.forall_iff_forall_mem.mp wC0_sub op h, List.forall_iff_forall_mem.mp wC1_sub op h, List.forall_iff_forall_mem.mp wC2_sub op h, List.forall_iff_forall_mem.mp wD1_sub op h, List.forall_iff_forall_mem.mp wD2_sub op h, List.forall_iff_forall_mem.mp wE_sub op h]

theorem ops_fresh : ∀ op ∈ (ops : List (HloOp τ sig (Elt F))), op.fresh = ∅ := fun op h => by
  rcases mem_ops h with h | h | h | h | h | h | h | h | h
  exacts [wA_fresh op h, wB0_fresh op h, wB1_fresh op h, wC0_fresh op h, wC1_fresh op h, wC2_fresh op h, wD1_fresh op h, wD2_fresh op h, wE_fresh op h]

/-- On every device, for any float values, from any memory with zero counters: every weakly fair execution of the
    program terminates, and every buffer ends at the fold of the 219 operations over the launch memory. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefValue

end
-- ==== Proof.RefTerms.lean ====
/-
  The reference's intermediate values as functions of its four arguments.

  `feat` is the 10000 × 384 matrix `[ego | A_in · ego | A_out · ego]`; `chunk off` is the product of its rows
  `off … off + 99` with the weight matrix; `grp0 … grp6` stack sixteen (the last: four) consecutive chunk products, `lin`
  stacks the seven groups, and `out` is the leaky rectifier of `lin`: the program's result.
-/
import proofs.«146782_g82085414961676_cont_9to1_m_158_1_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- The product `A · ego` of a 10000 × 10000 matrix with the 10000 × 128 embedding. -/
def adj (A : (⟨S10000x10000, .f32⟩ : BufTy).Contents (Elt F)) (E : (⟨S10000x128, .f32⟩ : BufTy).Contents (Elt F)) : (⟨S10000x128, .f32⟩ : BufTy).Contents (Elt F) :=
  Host.dotGeneral dot_S10000x10000_S10000x128_S10000x128_1_0_0_1_n_n none A E

/-- The concatenated features `[ego | A_in · ego | A_out · ego]`, 10000 × 384. -/
def feat (E : (⟨S10000x128, .f32⟩ : BufTy).Contents (Elt F)) (A1 A2 : (⟨S10000x10000, .f32⟩ : BufTy).Contents (Elt F)) : (⟨S10000x384, .f32⟩ : BufTy).Contents (Elt F) :=
  concatenate S10000x384 1 [⟨S10000x128, E⟩, ⟨S10000x128, adj A1 E⟩, ⟨S10000x128, adj A2 E⟩] concatenates_S10000x128_S10000x128_S10000x128_S10000x384_d1

/-- Rows `off … off + 99` of a 10000 × 384 matrix times the 384 × 128 weight matrix. -/
def chunk (off : Nat) (h : S10000x384.Slices ![off, 0] S100x384) (X : (⟨S10000x384, .f32⟩ : BufTy).Contents (Elt F)) (W : (⟨S384x128, .f32⟩ : BufTy).Contents (Elt F)) : (⟨S100x128, .f32⟩ : BufTy).Contents (Elt F) :=
  Host.dotGeneral dot_S100x384_S384x128_S100x128_1_0_0_1_n_n none (extractStridedSlice S100x384 ![off, 0] X h) W

/-- The products of chunks 0 … 15, stacked along the rows. -/
def grp0 (X : (⟨S10000x384, .f32⟩ : BufTy).Contents (Elt F)) (W : (⟨S384x128, .f32⟩ : BufTy).Contents (Elt F)) : (⟨S1600x128, .f32⟩ : BufTy).Contents (Elt F) :=
  concatenate S1600x128 0 [⟨S100x128, chunk 0 slices_S10000x384_S100x384_0_0 X W⟩, ⟨S100x128, chunk 100 slices_S10000x384_S100x384_100_0 X W⟩, ⟨S100x128, chunk 200 slices_S10000x384_S100x384_200_0 X W⟩, ⟨S100x128, chunk 300 slices_S10000x384_S100x384_300_0 X W⟩, ⟨S100x128, chunk 400 slices_S10000x384_S100x384_400_0 X W⟩, ⟨S100x128, chunk 500 slices_S10000x384_S100x384_500_0 X W⟩, ⟨S100x128, chunk 600 slices_S10000x384_S100x384_600_0 X W⟩, ⟨S100x128, chunk 700 slices_S10000x384_S100x384_700_0 X W⟩, ⟨S100x128, chunk 800 slices_S10000x384_S100x384_800_0 X W⟩, ⟨S100x128, chunk 900 slices_S10000x384_S100x384_900_0 X W⟩, ⟨S100x128, chunk 1000 slices_S10000x384_S100x384_1000_0 X W⟩, ⟨S100x128, chunk 1100 slices_S10000x384_S100x384_1100_0 X W⟩, ⟨S100x128, chunk 1200 slices_S10000x384_S100x384_1200_0 X W⟩, ⟨S100x128, chunk 1300 slices_S10000x384_S100x384_1300_0 X W⟩, ⟨S100x128, chunk 1400 slices_S10000x384_S100x384_1400_0 X W⟩, ⟨S100x128, chunk 1500 slices_S10000x384_S100x384_1500_0 X W⟩] concatenates_S100x128_S100x128_S100x128_S100x128_S100x128_S100x128_S100x128_S100x128_S100x128_S100x128_S100x128_S100x128_S100x128_S100x128_S100x128_S100x128_S1600x128_d0

/-- The products of chunks 16 … 31, stacked along the rows. -/
def grp1 (X : (⟨S10000x384, .f32⟩ : BufTy).Contents (Elt F)) (W : (⟨S384x128, .f32⟩ : BufTy).Contents (Elt F)) : (⟨S1600x128, .f32⟩ : BufTy).Contents (Elt F) :=
  concatenate S1600x128 0 [⟨S100x128, chunk 1600 slices_S10000x384_S100x384_1600_0 X W⟩, ⟨S100x128, chunk 1700 slices_S10000x384_S100x384_1700_0 X W⟩, ⟨S100x128, chunk 1800 slices_S10000x384_S100x384_1800_0 X W⟩, ⟨S100x128, chunk 1900 slices_S10000x384_S100x384_1900_0 X W⟩, ⟨S100x128, chunk 2000 slices_S10000x384_S100x384_2000_0 X W⟩, ⟨S100x128, chunk 2100 slices_S10000x384_S100x384_2100_0 X W⟩, ⟨S100x128, chunk 2200 slices_S10000x384_S100x384_2200_0 X W⟩, ⟨S100x128, chunk 2300 slices_S10000x384_S100x384_2300_0 X W⟩, ⟨S100x128, chunk 2400 slices_S10000x384_S100x384_2400_0 X W⟩, ⟨S100x128, chunk 2500 slices_S10000x384_S100x384_2500_0 X W⟩, ⟨S100x128, chunk 2600 slices_S10000x384_S100x384_2600_0 X W⟩, ⟨S100x128, chunk 2700 slices_S10000x384_S100x384_2700_0 X W⟩, ⟨S100x128, chunk 2800 slices_S10000x384_S100x384_2800_0 X W⟩, ⟨S100x128, chunk 2900 slices_S10000x384_S100x384_2900_0 X W⟩, ⟨S100x128, chunk 3000 slices_S10000x384_S100x384_3000_0 X W⟩, ⟨S100x128, chunk 3100 slices_S10000x384_S100x384_3100_0 X W⟩] concatenates_S100x128_S100x128_S100x128_S100x128_S100x128_S100x128_S100x128_S100x128_S100x128_S100x128_S100x128_S100x128_S100x128_S100x128_S100x128_S100x128_S1600x128_d0

/-- The products of chunks 32 … 47, stacked along the rows. -/
def grp2 (X : (⟨S10000x384, .f32⟩ : BufTy).Contents (Elt F)) (W : (⟨S384x128, .f32⟩ : BufTy).Contents (Elt F)) : (⟨S1600x128, .f32⟩ : BufTy).Contents (Elt F) :=
  concatenate S1600x128 0 [⟨S100x128, chunk 3200 slices_S10000x384_S100x384_3200_0 X W⟩, ⟨S100x128, chunk 3300 slices_S10000x384_S100x384_3300_0 X W⟩, ⟨S100x128, chunk 3400 slices_S10000x384_S100x384_3400_0 X W⟩, ⟨S100x128, chunk 3500 slices_S10000x384_S100x384_3500_0 X W⟩, ⟨S100x128, chunk 3600 slices_S10000x384_S100x384_3600_0 X W⟩, ⟨S100x128, chunk 3700 slices_S10000x384_S100x384_3700_0 X W⟩, ⟨S100x128, chunk 3800 slices_S10000x384_S100x384_3800_0 X W⟩, ⟨S100x128, chunk 3900 slices_S10000x384_S100x384_3900_0 X W⟩, ⟨S100x128, chunk 4000 slices_S10000x384_S100x384_4000_0 X W⟩, ⟨S100x128, chunk 4100 slices_S10000x384_S100x384_4100_0 X W⟩, ⟨S100x128, chunk 4200 slices_S10000x384_S100x384_4200_0 X W⟩, ⟨S100x128, chunk 4300 slices_S10000x384_S100x384_4300_0 X W⟩, ⟨S100x128, chunk 4400 slices_S10000x384_S100x384_4400_0 X W⟩, ⟨S100x128, chunk 4500 slices_S10000x384_S100x384_4500_0 X W⟩, ⟨S100x128, chunk 4600 slices_S10000x384_S100x384_4600_0 X W⟩, ⟨S100x128, chunk 4700 slices_S10000x384_S100x384_4700_0 X W⟩] concatenates_S100x128_S100x128_S100x128_S100x128_S100x128_S100x128_S100x128_S100x128_S100x128_S100x128_S100x128_S100x128_S100x128_S100x128_S100x128_S100x128_S1600x128_d0

/-- The products of chunks 48 … 63, stacked along the rows. -/
def grp3 (X : (⟨S10000x384, .f32⟩ : BufTy).Contents (Elt F)) (W : (⟨S384x128, .f32⟩ : BufTy).Contents (Elt F)) : (⟨S1600x128, .f32⟩ : BufTy).Contents (Elt F) :=
  concatenate S1600x128 0 [⟨S100x128, chunk 4800 slices_S10000x384_S100x384_4800_0 X W⟩, ⟨S100x128, chunk 4900 slices_S10000x384_S100x384_4900_0 X W⟩, ⟨S100x128, chunk 5000 slices_S10000x384_S100x384_5000_0 X W⟩, ⟨S100x128, chunk 5100 slices_S10000x384_S100x384_5100_0 X W⟩, ⟨S100x128, chunk 5200 slices_S10000x384_S100x384_5200_0 X W⟩, ⟨S100x128, chunk 5300 slices_S10000x384_S100x384_5300_0 X W⟩, ⟨S100x128, chunk 5400 slices_S10000x384_S100x384_5400_0 X W⟩, ⟨S100x128, chunk 5500 slices_S10000x384_S100x384_5500_0 X W⟩, ⟨S100x128, chunk 5600 slices_S10000x384_S100x384_5600_0 X W⟩, ⟨S100x128, chunk 5700 slices_S10000x384_S100x384_5700_0 X W⟩, ⟨S100x128, chunk 5800 slices_S10000x384_S100x384_5800_0 X W⟩, ⟨S100x128, chunk 5900 slices_S10000x384_S100x384_5900_0 X W⟩, ⟨S100x128, chunk 6000 slices_S10000x384_S100x384_6000_0 X W⟩, ⟨S100x128, chunk 6100 slices_S10000x384_S100x384_6100_0 X W⟩, ⟨S100x128, chunk 6200 slices_S10000x384_S100x384_6200_0 X W⟩, ⟨S100x128, chunk 6300 slices_S10000x384_S100x384_6300_0 X W⟩] concatenates_S100x128_S100x128_S100x128_S100x128_S100x128_S100x128_S100x128_S100x128_S100x128_S100x128_S100x128_S100x128_S100x128_S100x128_S100x128_S100x128_S1600x128_d0

/-- The products of chunks 64 … 79, stacked along the rows. -/
def grp4 (X : (⟨S10000x384, .f32⟩ : BufTy).Contents (Elt F)) (W : (⟨S384x128, .f32⟩ : BufTy).Contents (Elt F)) : (⟨S1600x128, .f32⟩ : BufTy).Contents (Elt F) :=
  concatenate S1600x128 0 [⟨S100x128, chunk 6400 slices_S10000x384_S100x384_6400_0 X W⟩, ⟨S100x128, chunk 6500 slices_S10000x384_S100x384_6500_0 X W⟩, ⟨S100x128, chunk 6600 slices_S10000x384_S100x384_6600_0 X W⟩, ⟨S100x128, chunk 6700 slices_S10000x384_S100x384_6700_0 X W⟩, ⟨S100x128, chunk 6800 slices_S10000x384_S100x384_6800_0 X W⟩, ⟨S100x128, chunk 6900 slices_S10000x384_S100x384_6900_0 X W⟩, ⟨S100x128, chunk 7000 slices_S10000x384_S100x384_7000_0 X W⟩, ⟨S100x128, chunk 7100 slices_S10000x384_S100x384_7100_0 X W⟩, ⟨S100x128, chunk 7200 slices_S10000x384_S100x384_7200_0 X W⟩, ⟨S100x128, chunk 7300 slices_S10000x384_S100x384_7300_0 X W⟩, ⟨S100x128, chunk 7400 slices_S10000x384_S100x384_7400_0 X W⟩, ⟨S100x128, chunk 7500 slices_S10000x384_S100x384_7500_0 X W⟩, ⟨S100x128, chunk 7600 slices_S10000x384_S100x384_7600_0 X W⟩, ⟨S100x128, chunk 7700 slices_S10000x384_S100x384_7700_0 X W⟩, ⟨S100x128, chunk 7800 slices_S10000x384_S100x384_7800_0 X W⟩, ⟨S100x128, chunk 7900 slices_S10000x384_S100x384_7900_0 X W⟩] concatenates_S100x128_S100x128_S100x128_S100x128_S100x128_S100x128_S100x128_S100x128_S100x128_S100x128_S100x128_S100x128_S100x128_S100x128_S100x128_S100x128_S1600x128_d0

/-- The products of chunks 80 … 95, stacked along the rows. -/
def grp5 (X : (⟨S10000x384, .f32⟩ : BufTy).Contents (Elt F)) (W : (⟨S384x128, .f32⟩ : BufTy).Contents (Elt F)) : (⟨S1600x128, .f32⟩ : BufTy).Contents (Elt F) :=
  concatenate S1600x128 0 [⟨S100x128, chunk 8000 slices_S10000x384_S100x384_8000_0 X W⟩, ⟨S100x128, chunk 8100 slices_S10000x384_S100x384_8100_0 X W⟩, ⟨S100x128, chunk 8200 slices_S10000x384_S100x384_8200_0 X W⟩, ⟨S100x128, chunk 8300 slices_S10000x384_S100x384_8300_0 X W⟩, ⟨S100x128, chunk 8400 slices_S10000x384_S100x384_8400_0 X W⟩, ⟨S100x128, chunk 8500 slices_S10000x384_S100x384_8500_0 X W⟩, ⟨S100x128, chunk 8600 slices_S10000x384_S100x384_8600_0 X W⟩, ⟨S100x128, chunk 8700 slices_S10000x384_S100x384_8700_0 X W⟩, ⟨S100x128, chunk 8800 slices_S10000x384_S100x384_8800_0 X W⟩, ⟨S100x128, chunk 8900 slices_S10000x384_S100x384_8900_0 X W⟩, ⟨S100x128, chunk 9000 slices_S10000x384_S100x384_9000_0 X W⟩, ⟨S100x128, chunk 9100 slices_S10000x384_S100x384_9100_0 X W⟩, ⟨S100x128, chunk 9200 slices_S10000x384_S100x384_9200_0 X W⟩, ⟨S100x128, chunk 9300 slices_S10000x384_S100x384_9300_0 X W⟩, ⟨S100x128, chunk 9400 slices_S10000x384_S100x384_9400_0 X W⟩, ⟨S100x128, chunk 9500 slices_S10000x384_S100x384_9500_0 X W⟩] concatenates_S100x128_S100x128_S100x128_S100x128_S100x128_S100x128_S100x128_S100x128_S100x128_S100x128_S100x128_S100x128_S100x128_S100x128_S100x128_S100x128_S1600x128_d0

/-- The products of chunks 96 … 99, stacked along the rows. -/
def grp6 (X : (⟨S10000x384, .f32⟩ : BufTy).Contents (Elt F)) (W : (⟨S384x128, .f32⟩ : BufTy).Contents (Elt F)) : (⟨S400x128, .f32⟩ : BufTy).Contents (Elt F) :=
  concatenate S400x128 0 [⟨S100x128, chunk 9600 slices_S10000x384_S100x384_9600_0 X W⟩, ⟨S100x128, chunk 9700 slices_S10000x384_S100x384_9700_0 X W⟩, ⟨S100x128, chunk 9800 slices_S10000x384_S100x384_9800_0 X W⟩, ⟨S100x128, chunk 9900 slices_S10000x384_S100x384_9900_0 X W⟩] concatenates_S100x128_S100x128_S100x128_S100x128_S400x128_d0

/-- The seven groups stacked along the rows: all 100 chunk products, 10000 × 128. -/
def lin (X : (⟨S10000x384, .f32⟩ : BufTy).Contents (Elt F)) (W : (⟨S384x128, .f32⟩ : BufTy).Contents (Elt F)) : (⟨S10000x128, .f32⟩ : BufTy).Contents (Elt F) :=
  concatenate S10000x128 0 [⟨S1600x128, grp0 X W⟩, ⟨S1600x128, grp1 X W⟩, ⟨S1600x128, grp2 X W⟩, ⟨S1600x128, grp3 X W⟩, ⟨S1600x128, grp4 X W⟩, ⟨S1600x128, grp5 X W⟩, ⟨S400x128, grp6 X W⟩] concatenates_S1600x128_S1600x128_S1600x128_S1600x128_S1600x128_S1600x128_S400x128_S10000x128_d0

/-- The leaky rectifier as the program writes it: where `z ≥ 0` (against a broadcast zero) take `z`, elsewhere the broadcast
    slope times `z`. -/
def leakyOf (z : (⟨S10000x128, .f32⟩ : BufTy).Contents (Elt F)) : (⟨S10000x128, .f32⟩ : BufTy).Contents (Elt F) :=
  select (cmpf .oge z (broadcastInDim S10000x128 ![] bcast_S_S10000x128 (constant S_ .f32 0x00000000#32))) z
    (mulf (broadcastInDim S10000x128 ![] bcast_S_S10000x128 (id (constant S_ .f32 0x3C23D70A#32))) z)

/-- The program's result as a function of its four arguments. -/
def out (E : (⟨S10000x128, .f32⟩ : BufTy).Contents (Elt F)) (A1 A2 : (⟨S10000x10000, .f32⟩ : BufTy).Contents (Elt F)) (W : (⟨S384x128, .f32⟩ : BufTy).Contents (Elt F)) : (⟨S10000x128, .f32⟩ : BufTy).Contents (Elt F) :=
  leakyOf (lin (feat E A1 A2) W)

end Cert.ReferenceIdeal.RefValue

end
-- ==== Proof.RefRun.lean ====
/-
  The reference program's fold, read off stretch by stretch.

  After each stretch of the operation list every buffer written so far that a later operation reads holds the
  corresponding intermediate value (the concatenated features, a row chunk of them, a chunk product, a group of
  products, the stacked products) as a term of the four arguments; a buffer a stretch does not write keeps its
  contents through it. The last stretch leaves `out` in the result buffer and the arguments as they were.
-/
import proofs.«146782_g82085414961676_cont_9to1_m_158_1_alg».proof.Proof.RefOps
import proofs.«146782_g82085414961676_cont_9to1_m_158_1_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The same terms over a memory's contents at the argument buffers. -/
def featV (V0 : Valuation τ sig (Elt F)) : (⟨S10000x384, .f32⟩ : BufTy).Contents (Elt F) :=
  feat (V0 (Proc.devRef .tc main_arg0)) (V0 (Proc.devRef .tc main_arg1)) (V0 (Proc.devRef .tc main_arg2))
def outV (V0 : Valuation τ sig (Elt F)) : (⟨S10000x128, .f32⟩ : BufTy).Contents (Elt F) :=
  out (V0 (Proc.devRef .tc main_arg0)) (V0 (Proc.devRef .tc main_arg1)) (V0 (Proc.devRef .tc main_arg2)) (V0 (Proc.devRef .tc main_arg3))

/-! ## The fold, stretch by stretch -/

/-- The fold over two lists run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Stacking along the rows respects equality of the pieces. -/
theorem stack16_congr {c0 c1 c2 c3 c4 c5 c6 c7 c8 c9 c10 c11 c12 c13 c14 c15 d0 d1 d2 d3 d4 d5 d6 d7 d8 d9 d10 d11 d12 d13 d14 d15 : (⟨S100x128, .f32⟩ : BufTy).Contents (Elt F)}
    (h0 : c0 = d0) (h1 : c1 = d1) (h2 : c2 = d2) (h3 : c3 = d3) (h4 : c4 = d4) (h5 : c5 = d5) (h6 : c6 = d6) (h7 : c7 = d7) (h8 : c8 = d8) (h9 : c9 = d9) (h10 : c10 = d10) (h11 : c11 = d11) (h12 : c12 = d12) (h13 : c13 = d13) (h14 : c14 = d14) (h15 : c15 = d15) :
    concatenate S1600x128 0 [⟨S100x128, c0⟩, ⟨S100x128, c1⟩, ⟨S100x128, c2⟩, ⟨S100x128, c3⟩, ⟨S100x128, c4⟩, ⟨S100x128, c5⟩, ⟨S100x128, c6⟩, ⟨S100x128, c7⟩, ⟨S100x128, c8⟩, ⟨S100x128, c9⟩, ⟨S100x128, c10⟩, ⟨S100x128, c11⟩, ⟨S100x128, c12⟩, ⟨S100x128, c13⟩, ⟨S100x128, c14⟩, ⟨S100x128, c15⟩] concatenates_S100x128_S100x128_S100x128_S100x128_S100x128_S100x128_S100x128_S100x128_S100x128_S100x128_S100x128_S100x128_S100x128_S100x128_S100x128_S100x128_S1600x128_d0
      = concatenate S1600x128 0 [⟨S100x128, d0⟩, ⟨S100x128, d1⟩, ⟨S100x128, d2⟩, ⟨S100x128, d3⟩, ⟨S100x128, d4⟩, ⟨S100x128, d5⟩, ⟨S100x128, d6⟩, ⟨S100x128, d7⟩, ⟨S100x128, d8⟩, ⟨S100x128, d9⟩, ⟨S100x128, d10⟩, ⟨S100x128, d11⟩, ⟨S100x128, d12⟩, ⟨S100x128, d13⟩, ⟨S100x128, d14⟩, ⟨S100x128, d15⟩] concatenates_S100x128_S100x128_S100x128_S100x128_S100x128_S100x128_S100x128_S100x128_S100x128_S100x128_S100x128_S100x128_S100x128_S100x128_S100x128_S100x128_S1600x128_d0 := by
  subst h0 h1 h2 h3 h4 h5 h6 h7 h8 h9 h10 h11 h12 h13 h14 h15
  rfl
/-- Stacking along the rows respects equality of the pieces. -/
theorem stack4_congr {c0 c1 c2 c3 d0 d1 d2 d3 : (⟨S100x128, .f32⟩ : BufTy).Contents (Elt F)}
    (h0 : c0 = d0) (h1 : c1 = d1) (h2 : c2 = d2) (h3 : c3 = d3) :
    concatenate S400x128 0 [⟨S100x128, c0⟩, ⟨S100x128, c1⟩, ⟨S100x128, c2⟩, ⟨S100x128, c3⟩] concatenates_S100x128_S100x128_S100x128_S100x128_S400x128_d0
      = concatenate S400x128 0 [⟨S100x128, d0⟩, ⟨S100x128, d1⟩, ⟨S100x128, d2⟩, ⟨S100x128, d3⟩] concatenates_S100x128_S100x128_S100x128_S100x128_S400x128_d0 := by
  subst h0 h1 h2 h3
  rfl
/-- The seven groups stacked: equal groups give `lin`. -/
theorem lin_of_groups {g0 g1 g2 g3 g4 g5 : (⟨S1600x128, .f32⟩ : BufTy).Contents (Elt F)} {g6 : (⟨S400x128, .f32⟩ : BufTy).Contents (Elt F)} (X : (⟨S10000x384, .f32⟩ : BufTy).Contents (Elt F)) (W : (⟨S384x128, .f32⟩ : BufTy).Contents (Elt F))
    (h0 : g0 = grp0 X W) (h1 : g1 = grp1 X W) (h2 : g2 = grp2 X W) (h3 : g3 = grp3 X W) (h4 : g4 = grp4 X W) (h5 : g5 = grp5 X W) (h6 : g6 = grp6 X W) :
    concatenate S10000x128 0 [⟨S1600x128, g0⟩, ⟨S1600x128, g1⟩, ⟨S1600x128, g2⟩, ⟨S1600x128, g3⟩, ⟨S1600x128, g4⟩, ⟨S1600x128, g5⟩, ⟨S400x128, g6⟩] concatenates_S1600x128_S1600x128_S1600x128_S1600x128_S1600x128_S1600x128_S400x128_S10000x128_d0 = lin X W := by
  subst h0 h1 h2 h3 h4 h5 h6
  rfl

/-- The contents after the stretch `wA`. -/
def valA (V0 : Valuation τ sig (Elt F)) : Valuation τ sig (Elt F) := after wA V0
/-- The buffers the stretch writes. -/
abbrev wA_W : List (Ref sig .tc) := [main_v0, main_v1, main_v2]
set_option maxRecDepth 8192 in
theorem wA_writes : (wA : List (HloOp τ sig (Elt F))).Forall fun op => op.writes ⊆ (wA_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem valA_keep (V0 : Valuation τ sig (Elt F)) (r : Ref sig .tc) (h : r ∉ wA_W) :
    valA V0 (no_index (Proc.devRef .tc r)) = V0 (Proc.devRef .tc r) :=
  after_of_writes_sub wA _ wA_writes h

set_option maxRecDepth 8192 in
theorem valA_main_v2 (V0 : Valuation τ sig (Elt F)) : valA V0 (no_index (Proc.devRef .tc main_v2)) = featV V0 := by
  unfold valA
  simp only [wA]
  after_results_simp
  try dsimp only [Matrix.cons_val]
  try after_results_simp
  all_goals rfl

/-- The contents after the stretch `wB0`. -/
def valB0 (V0 : Valuation τ sig (Elt F)) : Valuation τ sig (Elt F) := after wB0 (valA V0)
/-- The buffers the stretch writes. -/
abbrev wB0_W : List (Ref sig .tc) := [main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59]
set_option maxRecDepth 8192 in
theorem wB0_writes : (wB0 : List (HloOp τ sig (Elt F))).Forall fun op => op.writes ⊆ (wB0_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem valB0_keep (V0 : Valuation τ sig (Elt F)) (r : Ref sig .tc) (h : r ∉ wB0_W) :
    valB0 V0 (no_index (Proc.devRef .tc r)) = valA V0 (Proc.devRef .tc r) :=
  after_of_writes_sub wB0 _ wB0_writes h

set_option maxRecDepth 8192 in
theorem valB0_main_v3 (V0 : Valuation τ sig (Elt F)) : valB0 V0 (no_index (Proc.devRef .tc main_v3)) = extractStridedSlice S100x384 ![0, 0] (featV V0) slices_S10000x384_S100x384_0_0 := by
  unfold valB0
  simp only [wB0]
  after_results_simp
  try simp (disch := decide) only [valA_keep, valA_main_v2]
  all_goals rfl
set_option maxRecDepth 8192 in
theorem valB0_main_v4 (V0 : Valuation τ sig (Elt F)) : valB0 V0 (no_index (Proc.devRef .tc main_v4)) = extractStridedSlice S100x384 ![100, 0] (featV V0) slices_S10000x384_S100x384_100_0 := by
  unfold valB0
  simp only [wB0]
  after_results_simp
  try simp (disch := decide) only [valA_keep, valA_main_v2]
  all_goals rfl
set_option maxRecDepth 8192 in
theorem valB0_main_v5 (V0 : Valuation τ sig (Elt F)) : valB0 V0 (no_index (Proc.devRef .tc main_v5)) = extractStridedSlice S100x384 ![200, 0] (featV V0) slices_S10000x384_S100x384_200_0 := by
  unfold valB0
  simp only [wB0]
  after_results_simp
  try simp (disch := decide) only [valA_keep, valA_main_v2]
  all_goals rfl
set_option maxRecDepth 8192 in
theorem valB0_main_v6 (V0 : Valuation τ sig (Elt F)) : valB0 V0 (no_index (Proc.devRef .tc main_v6)) = extractStridedSlice S100x384 ![300, 0] (featV V0) slices_S10000x384_S100x384_300_0 := by
  unfold valB0
  simp only [wB0]
  after_results_simp
  try simp (disch := decide) only [valA_keep, valA_main_v2]
  all_goals rfl
set_option maxRecDepth 8192 in
theorem valB0_main_v7 (V0 : Valuation τ sig (Elt F)) : valB0 V0 (no_index (Proc.devRef .tc main_v7)) = extractStridedSlice S100x384 ![400, 0] (featV V0) slices_S10000x384_S100x384_400_0 := by
  unfold valB0
  simp only [wB0]
  after_results_simp
  try simp (disch := decide) only [valA_keep, valA_main_v2]
  all_goals rfl
set_option maxRecDepth 8192 in
theorem valB0_main_v8 (V0 : Valuation τ sig (Elt F)) : valB0 V0 (no_index (Proc.devRef .tc main_v8)) = extractStridedSlice S100x384 ![500, 0] (featV V0) slices_S10000x384_S100x384_500_0 := by
  unfold valB0
  simp only [wB0]
  after_results_simp
  try simp (disch := decide) only [valA_keep, valA_main_v2]
  all_goals rfl
set_option maxRecDepth 8192 in
theorem valB0_main_v9 (V0 : Valuation τ sig (Elt F)) : valB0 V0 (no_index (Proc.devRef .tc main_v9)) = extractStridedSlice S100x384 ![600, 0] (featV V0) slices_S10000x384_S100x384_600_0 := by
  unfold valB0
  simp only [wB0]
  after_results_simp
  try simp (disch := decide) only [valA_keep, valA_main_v2]
  all_goals rfl
set_option maxRecDepth 8192 in
theorem valB0_main_v10 (V0 : Valuation τ sig (Elt F)) : valB0 V0 (no_index (Proc.devRef .tc main_v10)) = extractStridedSlice S100x384 ![700, 0] (featV V0) slices_S10000x384_S100x384_700_0 := by
  unfold valB0
  simp only [wB0]
  after_results_simp
  try simp (disch := decide) only [valA_keep, valA_main_v2]
  all_goals rfl
set_option maxRecDepth 8192 in
theorem valB0_main_v11 (V0 : Valuation τ sig (Elt F)) : valB0 V0 (no_index (Proc.devRef .tc main_v11)) = extractStridedSlice S100x384 ![800, 0] (featV V0) slices_S10000x384_S100x384_800_0 := by
  unfold valB0
  simp only [wB0]
  after_results_simp
  try simp (disch := decide) only [valA_keep, valA_main_v2]
  all_goals rfl
set_option maxRecDepth 8192 in
theorem valB0_main_v12 (V0 : Valuation τ sig (Elt F)) : valB0 V0 (no_index (Proc.devRef .tc main_v12)) = extractStridedSlice S100x384 ![900, 0] (featV V0) slices_S10000x384_S100x384_900_0 := by
  unfold valB0
  simp only [wB0]
  after_results_simp
  try simp (disch := decide) only [valA_keep, valA_main_v2]
  all_goals rfl
set_option maxRecDepth 8192 in
theorem valB0_main_v13 (V0 : Valuation τ sig (Elt F)) : valB0 V0 (no_index (Proc.devRef .tc main_v13)) = extractStridedSlice S100x384 ![1000, 0] (featV V0) slices_S10000x384_S100x384_1000_0 := by
  unfold valB0
  simp only [wB0]
  after_results_simp
  try simp (disch := decide) only [valA_keep, valA_main_v2]
  all_goals rfl
set_option maxRecDepth 8192 in
theorem valB0_main_v14 (V0 : Valuation τ sig (Elt F)) : valB0 V0 (no_index (Proc.devRef .tc main_v14)) = extractStridedSlice S100x384 ![1100, 0] (featV V0) slices_S10000x384_S100x384_1100_0 := by
  unfold valB0
  simp only [wB0]
  after_results_simp
  try simp (disch := decide) only [valA_keep, valA_main_v2]
  all_goals rfl
set_option maxRecDepth 8192 in
theorem valB0_main_v15 (V0 : Valuation τ sig (Elt F)) : valB0 V0 (no_index (Proc.devRef .tc main_v15)) = extractStridedSlice S100x384 ![1200, 0] (featV V0) slices_S10000x384_S100x384_1200_0 := by
  unfold valB0
  simp only [wB0]
  after_results_simp
  try simp (disch := decide) only [valA_keep, valA_main_v2]
  all_goals rfl
set_option maxRecDepth 8192 in
theorem valB0_main_v16 (V0 : Valuation τ sig (Elt F)) : valB0 V0 (no_index (Proc.devRef .tc main_v16)) = extractStridedSlice S100x384 ![1300, 0] (featV V0) slices_S10000x384_S100x384_1300_0 := by
  unfold valB0
  simp only [wB0]
  after_results_simp
  try simp (disch := decide) only [valA_keep, valA_main_v2]
  all_goals rfl
set_option maxRecDepth 8192 in
theorem valB0_main_v17 (V0 : Valuation τ sig (Elt F)) : valB0 V0 (no_index (Proc.devRef .tc main_v17)) = extractStridedSlice S100x384 ![1400, 0] (featV V0) slices_S10000x384_S100x384_1400_0 := by
  unfold valB0
  simp only [wB0]
  after_results_simp
  try simp (disch := decide) only [valA_keep, valA_main_v2]
  all_goals rfl
set_option maxRecDepth 8192 in
theorem valB0_main_v18 (V0 : Valuation τ sig (Elt F)) : valB0 V0 (no_index (Proc.devRef .tc main_v18)) = extractStridedSlice S100x384 ![1500, 0] (featV V0) slices_S10000x384_S100x384_1500_0 := by
  unfold valB0
  simp only [wB0]
  after_results_simp
  try simp (disch := decide) only [valA_keep, valA_main_v2]
  all_goals rfl
set_option maxRecDepth 8192 in
theorem valB0_main_v19 (V0 : Valuation τ sig (Elt F)) : valB0 V0 (no_index (Proc.devRef .tc main_v19)) = extractStridedSlice S100x384 ![1600, 0] (featV V0) slices_S10000x384_S100x384_1600_0 := by
  unfold valB0
  simp only [wB0]
  after_results_simp
  try simp (disch := decide) only [valA_keep, valA_main_v2]
  all_goals rfl
set_option maxRecDepth 8192 in
theorem valB0_main_v20 (V0 : Valuation τ sig (Elt F)) : valB0 V0 (no_index (Proc.devRef .tc main_v20)) = extractStridedSlice S100x384 ![1700, 0] (featV V0) slices_S10000x384_S100x384_1700_0 := by
  unfold valB0
  simp only [wB0]
  after_results_simp
  try simp (disch := decide) only [valA_keep, valA_main_v2]
  all_goals rfl
set_option maxRecDepth 8192 in
theorem valB0_main_v21 (V0 : Valuation τ sig (Elt F)) : valB0 V0 (no_index (Proc.devRef .tc main_v21)) = extractStridedSlice S100x384 ![1800, 0] (featV V0) slices_S10000x384_S100x384_1800_0 := by
  unfold valB0
  simp only [wB0]
  after_results_simp
  try simp (disch := decide) only [valA_keep, valA_main_v2]
  all_goals rfl
set_option maxRecDepth 8192 in
theorem valB0_main_v22 (V0 : Valuation τ sig (Elt F)) : valB0 V0 (no_index (Proc.devRef .tc main_v22)) = extractStridedSlice S100x384 ![1900, 0] (featV V0) slices_S10000x384_S100x384_1900_0 := by
  unfold valB0
  simp only [wB0]
  after_results_simp
  try simp (disch := decide) only [valA_keep, valA_main_v2]
  all_goals rfl
set_option maxRecDepth 8192 in
theorem valB0_main_v23 (V0 : Valuation τ sig (Elt F)) : valB0 V0 (no_index (Proc.devRef .tc main_v23)) = extractStridedSlice S100x384 ![2000, 0] (featV V0) slices_S10000x384_S100x384_2000_0 := by
  unfold valB0
  simp only [wB0]
  after_results_simp
  try simp (disch := decide) only [valA_keep, valA_main_v2]
  all_goals rfl
set_option maxRecDepth 8192 in
theorem valB0_main_v24 (V0 : Valuation τ sig (Elt F)) : valB0 V0 (no_index (Proc.devRef .tc main_v24)) = extractStridedSlice S100x384 ![2100, 0] (featV V0) slices_S10000x384_S100x384_2100_0 := by
  unfold valB0
  simp only [wB0]
  after_results_simp
  try simp (disch := decide) only [valA_keep, valA_main_v2]
  all_goals rfl
set_option maxRecDepth 8192 in
theorem valB0_main_v25 (V0 : Valuation τ sig (Elt F)) : valB0 V0 (no_index (Proc.devRef .tc main_v25)) = extractStridedSlice S100x384 ![2200, 0] (featV V0) slices_S10000x384_S100x384_2200_0 := by
  unfold valB0
  simp only [wB0]
  after_results_simp
  try simp (disch := decide) only [valA_keep, valA_main_v2]
  all_goals rfl
set_option maxRecDepth 8192 in
theorem valB0_main_v26 (V0 : Valuation τ sig (Elt F)) : valB0 V0 (no_index (Proc.devRef .tc main_v26)) = extractStridedSlice S100x384 ![2300, 0] (featV V0) slices_S10000x384_S100x384_2300_0 := by
  unfold valB0
  simp only [wB0]
  after_results_simp
  try simp (disch := decide) only [valA_keep, valA_main_v2]
  all_goals rfl
set_option maxRecDepth 8192 in
theorem valB0_main_v27 (V0 : Valuation τ sig (Elt F)) : valB0 V0 (no_index (Proc.devRef .tc main_v27)) = extractStridedSlice S100x384 ![2400, 0] (featV V0) slices_S10000x384_S100x384_2400_0 := by
  unfold valB0
  simp only [wB0]
  after_results_simp
  try simp (disch := decide) only [valA_keep, valA_main_v2]
  all_goals rfl
set_option maxRecDepth 8192 in
theorem valB0_main_v28 (V0 : Valuation τ sig (Elt F)) : valB0 V0 (no_index (Proc.devRef .tc main_v28)) = extractStridedSlice S100x384 ![2500, 0] (featV V0) slices_S10000x384_S100x384_2500_0 := by
  unfold valB0
  simp only [wB0]
  after_results_simp
  try simp (disch := decide) only [valA_keep, valA_main_v2]
  all_goals rfl
set_option maxRecDepth 8192 in
theorem valB0_main_v29 (V0 : Valuation τ sig (Elt F)) : valB0 V0 (no_index (Proc.devRef .tc main_v29)) = extractStridedSlice S100x384 ![2600, 0] (featV V0) slices_S10000x384_S100x384_2600_0 := by
  unfold valB0
  simp only [wB0]
  after_results_simp
  try simp (disch := decide) only [valA_keep, valA_main_v2]
  all_goals rfl
set_option maxRecDepth 8192 in
theorem valB0_main_v30 (V0 : Valuation τ sig (Elt F)) : valB0 V0 (no_index (Proc.devRef .tc main_v30)) = extractStridedSlice S100x384 ![2700, 0] (featV V0) slices_S10000x384_S100x384_2700_0 := by
  unfold valB0
  simp only [wB0]
  after_results_simp
  try simp (disch := decide) only [valA_keep, valA_main_v2]
  all_goals rfl
set_option maxRecDepth 8192 in
theorem valB0_main_v31 (V0 : Valuation τ sig (Elt F)) : valB0 V0 (no_index (Proc.devRef .tc main_v31)) = extractStridedSlice S100x384 ![2800, 0] (featV V0) slices_S10000x384_S100x384_2800_0 := by
  unfold valB0
  simp only [wB0]
  after_results_simp
  try simp (disch := decide) only [valA_keep, valA_main_v2]
  all_goals rfl
set_option maxRecDepth 8192 in
theorem valB0_main_v32 (V0 : Valuation τ sig (Elt F)) : valB0 V0 (no_index (Proc.devRef .tc main_v32)) = extractStridedSlice S100x384 ![2900, 0] (featV V0) slices_S10000x384_S100x384_2900_0 := by
  unfold valB0
  simp only [wB0]
  after_results_simp
  try simp (disch := decide) only [valA_keep, valA_main_v2]
  all_goals rfl
set_option maxRecDepth 8192 in
theorem valB0_main_v33 (V0 : Valuation τ sig (Elt F)) : valB0 V0 (no_index (Proc.devRef .tc main_v33)) = extractStridedSlice S100x384 ![3000, 0] (featV V0) slices_S10000x384_S100x384_3000_0 := by
  unfold valB0
  simp only [wB0]
  after_results_simp
  try simp (disch := decide) only [valA_keep, valA_main_v2]
  all_goals rfl
set_option maxRecDepth 8192 in
theorem valB0_main_v34 (V0 : Valuation τ sig (Elt F)) : valB0 V0 (no_index (Proc.devRef .tc main_v34)) = extractStridedSlice S100x384 ![3100, 0] (featV V0) slices_S10000x384_S100x384_3100_0 := by
  unfold valB0
  simp only [wB0]
  after_results_simp
  try simp (disch := decide) only [valA_keep, valA_main_v2]
  all_goals rfl
set_option maxRecDepth 8192 in
theorem valB0_main_v35 (V0 : Valuation τ sig (Elt F)) : valB0 V0 (no_index (Proc.devRef .tc main_v35)) = extractStridedSlice S100x384 ![3200, 0] (featV V0) slices_S10000x384_S100x384_3200_0 := by
  unfold valB0
  simp only [wB0]
  after_results_simp
  try simp (disch := decide) only [valA_keep, valA_main_v2]
  all_goals rfl
set_option maxRecDepth 8192 in
theorem valB0_main_v36 (V0 : Valuation τ sig (Elt F)) : valB0 V0 (no_index (Proc.devRef .tc main_v36)) = extractStridedSlice S100x384 ![3300, 0] (featV V0) slices_S10000x384_S100x384_3300_0 := by
  unfold valB0
  simp only [wB0]
  after_results_simp
  try simp (disch := decide) only [valA_keep, valA_main_v2]
  all_goals rfl
set_option maxRecDepth 8192 in
theorem valB0_main_v37 (V0 : Valuation τ sig (Elt F)) : valB0 V0 (no_index (Proc.devRef .tc main_v37)) = extractStridedSlice S100x384 ![3400, 0] (featV V0) slices_S10000x384_S100x384_3400_0 := by
  unfold valB0
  simp only [wB0]
  after_results_simp
  try simp (disch := decide) only [valA_keep, valA_main_v2]
  all_goals rfl
set_option maxRecDepth 8192 in
theorem valB0_main_v38 (V0 : Valuation τ sig (Elt F)) : valB0 V0 (no_index (Proc.devRef .tc main_v38)) = extractStridedSlice S100x384 ![3500, 0] (featV V0) slices_S10000x384_S100x384_3500_0 := by
  unfold valB0
  simp only [wB0]
  after_results_simp
  try simp (disch := decide) only [valA_keep, valA_main_v2]
  all_goals rfl
set_option maxRecDepth 8192 in
theorem valB0_main_v39 (V0 : Valuation τ sig (Elt F)) : valB0 V0 (no_index (Proc.devRef .tc main_v39)) = extractStridedSlice S100x384 ![3600, 0] (featV V0) slices_S10000x384_S100x384_3600_0 := by
  unfold valB0
  simp only [wB0]
  after_results_simp
  try simp (disch := decide) only [valA_keep, valA_main_v2]
  all_goals rfl
set_option maxRecDepth 8192 in
theorem valB0_main_v40 (V0 : Valuation τ sig (Elt F)) : valB0 V0 (no_index (Proc.devRef .tc main_v40)) = extractStridedSlice S100x384 ![3700, 0] (featV V0) slices_S10000x384_S100x384_3700_0 := by
  unfold valB0
  simp only [wB0]
  after_results_simp
  try simp (disch := decide) only [valA_keep, valA_main_v2]
  all_goals rfl
set_option maxRecDepth 8192 in
theorem valB0_main_v41 (V0 : Valuation τ sig (Elt F)) : valB0 V0 (no_index (Proc.devRef .tc main_v41)) = extractStridedSlice S100x384 ![3800, 0] (featV V0) slices_S10000x384_S100x384_3800_0 := by
  unfold valB0
  simp only [wB0]
  after_results_simp
  try simp (disch := decide) only [valA_keep, valA_main_v2]
  all_goals rfl
set_option maxRecDepth 8192 in
theorem valB0_main_v42 (V0 : Valuation τ sig (Elt F)) : valB0 V0 (no_index (Proc.devRef .tc main_v42)) = extractStridedSlice S100x384 ![3900, 0] (featV V0) slices_S10000x384_S100x384_3900_0 := by
  unfold valB0
  simp only [wB0]
  after_results_simp
  try simp (disch := decide) only [valA_keep, valA_main_v2]
  all_goals rfl
set_option maxRecDepth 8192 in
theorem valB0_main_v43 (V0 : Valuation τ sig (Elt F)) : valB0 V0 (no_index (Proc.devRef .tc main_v43)) = extractStridedSlice S100x384 ![4000, 0] (featV V0) slices_S10000x384_S100x384_4000_0 := by
  unfold valB0
  simp only [wB0]
  after_results_simp
  try simp (disch := decide) only [valA_keep, valA_main_v2]
  all_goals rfl
set_option maxRecDepth 8192 in
theorem valB0_main_v44 (V0 : Valuation τ sig (Elt F)) : valB0 V0 (no_index (Proc.devRef .tc main_v44)) = extractStridedSlice S100x384 ![4100, 0] (featV V0) slices_S10000x384_S100x384_4100_0 := by
  unfold valB0
  simp only [wB0]
  after_results_simp
  try simp (disch := decide) only [valA_keep, valA_main_v2]
  all_goals rfl
set_option maxRecDepth 8192 in
theorem valB0_main_v45 (V0 : Valuation τ sig (Elt F)) : valB0 V0 (no_index (Proc.devRef .tc main_v45)) = extractStridedSlice S100x384 ![4200, 0] (featV V0) slices_S10000x384_S100x384_4200_0 := by
  unfold valB0
  simp only [wB0]
  after_results_simp
  try simp (disch := decide) only [valA_keep, valA_main_v2]
  all_goals rfl
set_option maxRecDepth 8192 in
theorem valB0_main_v46 (V0 : Valuation τ sig (Elt F)) : valB0 V0 (no_index (Proc.devRef .tc main_v46)) = extractStridedSlice S100x384 ![4300, 0] (featV V0) slices_S10000x384_S100x384_4300_0 := by
  unfold valB0
  simp only [wB0]
  after_results_simp
  try simp (disch := decide) only [valA_keep, valA_main_v2]
  all_goals rfl
set_option maxRecDepth 8192 in
theorem valB0_main_v47 (V0 : Valuation τ sig (Elt F)) : valB0 V0 (no_index (Proc.devRef .tc main_v47)) = extractStridedSlice S100x384 ![4400, 0] (featV V0) slices_S10000x384_S100x384_4400_0 := by
  unfold valB0
  simp only [wB0]
  after_results_simp
  try simp (disch := decide) only [valA_keep, valA_main_v2]
  all_goals rfl
set_option maxRecDepth 8192 in
theorem valB0_main_v48 (V0 : Valuation τ sig (Elt F)) : valB0 V0 (no_index (Proc.devRef .tc main_v48)) = extractStridedSlice S100x384 ![4500, 0] (featV V0) slices_S10000x384_S100x384_4500_0 := by
  unfold valB0
  simp only [wB0]
  after_results_simp
  try simp (disch := decide) only [valA_keep, valA_main_v2]
  all_goals rfl
set_option maxRecDepth 8192 in
theorem valB0_main_v49 (V0 : Valuation τ sig (Elt F)) : valB0 V0 (no_index (Proc.devRef .tc main_v49)) = extractStridedSlice S100x384 ![4600, 0] (featV V0) slices_S10000x384_S100x384_4600_0 := by
  unfold valB0
  simp only [wB0]
  after_results_simp
  try simp (disch := decide) only [valA_keep, valA_main_v2]
  all_goals rfl
set_option maxRecDepth 8192 in
theorem valB0_main_v50 (V0 : Valuation τ sig (Elt F)) : valB0 V0 (no_index (Proc.devRef .tc main_v50)) = extractStridedSlice S100x384 ![4700, 0] (featV V0) slices_S10000x384_S100x384_4700_0 := by
  unfold valB0
  simp only [wB0]
  after_results_simp
  try simp (disch := decide) only [valA_keep, valA_main_v2]
  all_goals rfl
set_option maxRecDepth 8192 in
theorem valB0_main_v51 (V0 : Valuation τ sig (Elt F)) : valB0 V0 (no_index (Proc.devRef .tc main_v51)) = extractStridedSlice S100x384 ![4800, 0] (featV V0) slices_S10000x384_S100x384_4800_0 := by
  unfold valB0
  simp only [wB0]
  after_results_simp
  try simp (disch := decide) only [valA_keep, valA_main_v2]
  all_goals rfl
set_option maxRecDepth 8192 in
theorem valB0_main_v52 (V0 : Valuation τ sig (Elt F)) : valB0 V0 (no_index (Proc.devRef .tc main_v52)) = extractStridedSlice S100x384 ![4900, 0] (featV V0) slices_S10000x384_S100x384_4900_0 := by
  unfold valB0
  simp only [wB0]
  after_results_simp
  try simp (disch := decide) only [valA_keep, valA_main_v2]
  all_goals rfl
set_option maxRecDepth 8192 in
theorem valB0_main_v53 (V0 : Valuation τ sig (Elt F)) : valB0 V0 (no_index (Proc.devRef .tc main_v53)) = extractStridedSlice S100x384 ![5000, 0] (featV V0) slices_S10000x384_S100x384_5000_0 := by
  unfold valB0
  simp only [wB0]
  after_results_simp
  try simp (disch := decide) only [valA_keep, valA_main_v2]
  all_goals rfl
set_option maxRecDepth 8192 in
theorem valB0_main_v54 (V0 : Valuation τ sig (Elt F)) : valB0 V0 (no_index (Proc.devRef .tc main_v54)) = extractStridedSlice S100x384 ![5100, 0] (featV V0) slices_S10000x384_S100x384_5100_0 := by
  unfold valB0
  simp only [wB0]
  after_results_simp
  try simp (disch := decide) only [valA_keep, valA_main_v2]
  all_goals rfl
set_option maxRecDepth 8192 in
theorem valB0_main_v55 (V0 : Valuation τ sig (Elt F)) : valB0 V0 (no_index (Proc.devRef .tc main_v55)) = extractStridedSlice S100x384 ![5200, 0] (featV V0) slices_S10000x384_S100x384_5200_0 := by
  unfold valB0
  simp only [wB0]
  after_results_simp
  try simp (disch := decide) only [valA_keep, valA_main_v2]
  all_goals rfl
set_option maxRecDepth 8192 in
theorem valB0_main_v56 (V0 : Valuation τ sig (Elt F)) : valB0 V0 (no_index (Proc.devRef .tc main_v56)) = extractStridedSlice S100x384 ![5300, 0] (featV V0) slices_S10000x384_S100x384_5300_0 := by
  unfold valB0
  simp only [wB0]
  after_results_simp
  try simp (disch := decide) only [valA_keep, valA_main_v2]
  all_goals rfl
set_option maxRecDepth 8192 in
theorem valB0_main_v57 (V0 : Valuation τ sig (Elt F)) : valB0 V0 (no_index (Proc.devRef .tc main_v57)) = extractStridedSlice S100x384 ![5400, 0] (featV V0) slices_S10000x384_S100x384_5400_0 := by
  unfold valB0
  simp only [wB0]
  after_results_simp
  try simp (disch := decide) only [valA_keep, valA_main_v2]
  all_goals rfl
set_option maxRecDepth 8192 in
theorem valB0_main_v58 (V0 : Valuation τ sig (Elt F)) : valB0 V0 (no_index (Proc.devRef .tc main_v58)) = extractStridedSlice S100x384 ![5500, 0] (featV V0) slices_S10000x384_S100x384_5500_0 := by
  unfold valB0
  simp only [wB0]
  after_results_simp
  try simp (disch := decide) only [valA_keep, valA_main_v2]
  all_goals rfl
set_option maxRecDepth 8192 in
theorem valB0_main_v59 (V0 : Valuation τ sig (Elt F)) : valB0 V0 (no_index (Proc.devRef .tc main_v59)) = extractStridedSlice S100x384 ![5600, 0] (featV V0) slices_S10000x384_S100x384_5600_0 := by
  unfold valB0
  simp only [wB0]
  after_results_simp
  try simp (disch := decide) only [valA_keep, valA_main_v2]
  all_goals rfl

/-- The contents after the stretch `wB1`. -/
def valB1 (V0 : Valuation τ sig (Elt F)) : Valuation τ sig (Elt F) := after wB1 (valB0 V0)
/-- The buffers the stretch writes. -/
abbrev wB1_W : List (Ref sig .tc) := [main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102]
set_option maxRecDepth 8192 in
theorem wB1_writes : (wB1 : List (HloOp τ sig (Elt F))).Forall fun op => op.writes ⊆ (wB1_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem valB1_keep (V0 : Valuation τ sig (Elt F)) (r : Ref sig .tc) (h : r ∉ wB1_W) :
    valB1 V0 (no_index (Proc.devRef .tc r)) = valB0 V0 (Proc.devRef .tc r) :=
  after_of_writes_sub wB1 _ wB1_writes h

set_option maxRecDepth 8192 in
theorem valB1_main_v60 (V0 : Valuation τ sig (Elt F)) : valB1 V0 (no_index (Proc.devRef .tc main_v60)) = extractStridedSlice S100x384 ![5700, 0] (featV V0) slices_S10000x384_S100x384_5700_0 := by
  unfold valB1
  simp only [wB1]
  after_results_simp
  try simp (disch := decide) only [valB0_keep, valA_keep, valA_main_v2]
  all_goals rfl
set_option maxRecDepth 8192 in
theorem valB1_main_v61 (V0 : Valuation τ sig (Elt F)) : valB1 V0 (no_index (Proc.devRef .tc main_v61)) = extractStridedSlice S100x384 ![5800, 0] (featV V0) slices_S10000x384_S100x384_5800_0 := by
  unfold valB1
  simp only [wB1]
  after_results_simp
  try simp (disch := decide) only [valB0_keep, valA_keep, valA_main_v2]
  all_goals rfl
set_option maxRecDepth 8192 in
theorem valB1_main_v62 (V0 : Valuation τ sig (Elt F)) : valB1 V0 (no_index (Proc.devRef .tc main_v62)) = extractStridedSlice S100x384 ![5900, 0] (featV V0) slices_S10000x384_S100x384_5900_0 := by
  unfold valB1
  simp only [wB1]
  after_results_simp
  try simp (disch := decide) only [valB0_keep, valA_keep, valA_main_v2]
  all_goals rfl
set_option maxRecDepth 8192 in
theorem valB1_main_v63 (V0 : Valuation τ sig (Elt F)) : valB1 V0 (no_index (Proc.devRef .tc main_v63)) = extractStridedSlice S100x384 ![6000, 0] (featV V0) slices_S10000x384_S100x384_6000_0 := by
  unfold valB1
  simp only [wB1]
  after_results_simp
  try simp (disch := decide) only [valB0_keep, valA_keep, valA_main_v2]
  all_goals rfl
set_option maxRecDepth 8192 in
theorem valB1_main_v64 (V0 : Valuation τ sig (Elt F)) : valB1 V0 (no_index (Proc.devRef .tc main_v64)) = extractStridedSlice S100x384 ![6100, 0] (featV V0) slices_S10000x384_S100x384_6100_0 := by
  unfold valB1
  simp only [wB1]
  after_results_simp
  try simp (disch := decide) only [valB0_keep, valA_keep, valA_main_v2]
  all_goals rfl
set_option maxRecDepth 8192 in
theorem valB1_main_v65 (V0 : Valuation τ sig (Elt F)) : valB1 V0 (no_index (Proc.devRef .tc main_v65)) = extractStridedSlice S100x384 ![6200, 0] (featV V0) slices_S10000x384_S100x384_6200_0 := by
  unfold valB1
  simp only [wB1]
  after_results_simp
  try simp (disch := decide) only [valB0_keep, valA_keep, valA_main_v2]
  all_goals rfl
set_option maxRecDepth 8192 in
theorem valB1_main_v66 (V0 : Valuation τ sig (Elt F)) : valB1 V0 (no_index (Proc.devRef .tc main_v66)) = extractStridedSlice S100x384 ![6300, 0] (featV V0) slices_S10000x384_S100x384_6300_0 := by
  unfold valB1
  simp only [wB1]
  after_results_simp
  try simp (disch := decide) only [valB0_keep, valA_keep, valA_main_v2]
  all_goals rfl
set_option maxRecDepth 8192 in
theorem valB1_main_v67 (V0 : Valuation τ sig (Elt F)) : valB1 V0 (no_index (Proc.devRef .tc main_v67)) = extractStridedSlice S100x384 ![6400, 0] (featV V0) slices_S10000x384_S100x384_6400_0 := by
  unfold valB1
  simp only [wB1]
  after_results_simp
  try simp (disch := decide) only [valB0_keep, valA_keep, valA_main_v2]
  all_goals rfl
set_option maxRecDepth 8192 in
theorem valB1_main_v68 (V0 : Valuation τ sig (Elt F)) : valB1 V0 (no_index (Proc.devRef .tc main_v68)) = extractStridedSlice S100x384 ![6500, 0] (featV V0) slices_S10000x384_S100x384_6500_0 := by
  unfold valB1
  simp only [wB1]
  after_results_simp
  try simp (disch := decide) only [valB0_keep, valA_keep, valA_main_v2]
  all_goals rfl
set_option maxRecDepth 8192 in
theorem valB1_main_v69 (V0 : Valuation τ sig (Elt F)) : valB1 V0 (no_index (Proc.devRef .tc main_v69)) = extractStridedSlice S100x384 ![6600, 0] (featV V0) slices_S10000x384_S100x384_6600_0 := by
  unfold valB1
  simp only [wB1]
  after_results_simp
  try simp (disch := decide) only [valB0_keep, valA_keep, valA_main_v2]
  all_goals rfl
set_option maxRecDepth 8192 in
theorem valB1_main_v70 (V0 : Valuation τ sig (Elt F)) : valB1 V0 (no_index (Proc.devRef .tc main_v70)) = extractStridedSlice S100x384 ![6700, 0] (featV V0) slices_S10000x384_S100x384_6700_0 := by
  unfold valB1
  simp only [wB1]
  after_results_simp
  try simp (disch := decide) only [valB0_keep, valA_keep, valA_main_v2]
  all_goals rfl
set_option maxRecDepth 8192 in
theorem valB1_main_v71 (V0 : Valuation τ sig (Elt F)) : valB1 V0 (no_index (Proc.devRef .tc main_v71)) = extractStridedSlice S100x384 ![6800, 0] (featV V0) slices_S10000x384_S100x384_6800_0 := by
  unfold valB1
  simp only [wB1]
  after_results_simp
  try simp (disch := decide) only [valB0_keep, valA_keep, valA_main_v2]
  all_goals rfl
set_option maxRecDepth 8192 in
theorem valB1_main_v72 (V0 : Valuation τ sig (Elt F)) : valB1 V0 (no_index (Proc.devRef .tc main_v72)) = extractStridedSlice S100x384 ![6900, 0] (featV V0) slices_S10000x384_S100x384_6900_0 := by
  unfold valB1
  simp only [wB1]
  after_results_simp
  try simp (disch := decide) only [valB0_keep, valA_keep, valA_main_v2]
  all_goals rfl
set_option maxRecDepth 8192 in
theorem valB1_main_v73 (V0 : Valuation τ sig (Elt F)) : valB1 V0 (no_index (Proc.devRef .tc main_v73)) = extractStridedSlice S100x384 ![7000, 0] (featV V0) slices_S10000x384_S100x384_7000_0 := by
  unfold valB1
  simp only [wB1]
  after_results_simp
  try simp (disch := decide) only [valB0_keep, valA_keep, valA_main_v2]
  all_goals rfl
set_option maxRecDepth 8192 in
theorem valB1_main_v74 (V0 : Valuation τ sig (Elt F)) : valB1 V0 (no_index (Proc.devRef .tc main_v74)) = extractStridedSlice S100x384 ![7100, 0] (featV V0) slices_S10000x384_S100x384_7100_0 := by
  unfold valB1
  simp only [wB1]
  after_results_simp
  try simp (disch := decide) only [valB0_keep, valA_keep, valA_main_v2]
  all_goals rfl
set_option maxRecDepth 8192 in
theorem valB1_main_v75 (V0 : Valuation τ sig (Elt F)) : valB1 V0 (no_index (Proc.devRef .tc main_v75)) = extractStridedSlice S100x384 ![7200, 0] (featV V0) slices_S10000x384_S100x384_7200_0 := by
  unfold valB1
  simp only [wB1]
  after_results_simp
  try simp (disch := decide) only [valB0_keep, valA_keep, valA_main_v2]
  all_goals rfl
set_option maxRecDepth 8192 in
theorem valB1_main_v76 (V0 : Valuation τ sig (Elt F)) : valB1 V0 (no_index (Proc.devRef .tc main_v76)) = extractStridedSlice S100x384 ![7300, 0] (featV V0) slices_S10000x384_S100x384_7300_0 := by
  unfold valB1
  simp only [wB1]
  after_results_simp
  try simp (disch := decide) only [valB0_keep, valA_keep, valA_main_v2]
  all_goals rfl
set_option maxRecDepth 8192 in
theorem valB1_main_v77 (V0 : Valuation τ sig (Elt F)) : valB1 V0 (no_index (Proc.devRef .tc main_v77)) = extractStridedSlice S100x384 ![7400, 0] (featV V0) slices_S10000x384_S100x384_7400_0 := by
  unfold valB1
  simp only [wB1]
  after_results_simp
  try simp (disch := decide) only [valB0_keep, valA_keep, valA_main_v2]
  all_goals rfl
set_option maxRecDepth 8192 in
theorem valB1_main_v78 (V0 : Valuation τ sig (Elt F)) : valB1 V0 (no_index (Proc.devRef .tc main_v78)) = extractStridedSlice S100x384 ![7500, 0] (featV V0) slices_S10000x384_S100x384_7500_0 := by
  unfold valB1
  simp only [wB1]
  after_results_simp
  try simp (disch := decide) only [valB0_keep, valA_keep, valA_main_v2]
  all_goals rfl
set_option maxRecDepth 8192 in
theorem valB1_main_v79 (V0 : Valuation τ sig (Elt F)) : valB1 V0 (no_index (Proc.devRef .tc main_v79)) = extractStridedSlice S100x384 ![7600, 0] (featV V0) slices_S10000x384_S100x384_7600_0 := by
  unfold valB1
  simp only [wB1]
  after_results_simp
  try simp (disch := decide) only [valB0_keep, valA_keep, valA_main_v2]
  all_goals rfl
set_option maxRecDepth 8192 in
theorem valB1_main_v80 (V0 : Valuation τ sig (Elt F)) : valB1 V0 (no_index (Proc.devRef .tc main_v80)) = extractStridedSlice S100x384 ![7700, 0] (featV V0) slices_S10000x384_S100x384_7700_0 := by
  unfold valB1
  simp only [wB1]
  after_results_simp
  try simp (disch := decide) only [valB0_keep, valA_keep, valA_main_v2]
  all_goals rfl
set_option maxRecDepth 8192 in
theorem valB1_main_v81 (V0 : Valuation τ sig (Elt F)) : valB1 V0 (no_index (Proc.devRef .tc main_v81)) = extractStridedSlice S100x384 ![7800, 0] (featV V0) slices_S10000x384_S100x384_7800_0 := by
  unfold valB1
  simp only [wB1]
  after_results_simp
  try simp (disch := decide) only [valB0_keep, valA_keep, valA_main_v2]
  all_goals rfl
set_option maxRecDepth 8192 in
theorem valB1_main_v82 (V0 : Valuation τ sig (Elt F)) : valB1 V0 (no_index (Proc.devRef .tc main_v82)) = extractStridedSlice S100x384 ![7900, 0] (featV V0) slices_S10000x384_S100x384_7900_0 := by
  unfold valB1
  simp only [wB1]
  after_results_simp
  try simp (disch := decide) only [valB0_keep, valA_keep, valA_main_v2]
  all_goals rfl
set_option maxRecDepth 8192 in
theorem valB1_main_v83 (V0 : Valuation τ sig (Elt F)) : valB1 V0 (no_index (Proc.devRef .tc main_v83)) = extractStridedSlice S100x384 ![8000, 0] (featV V0) slices_S10000x384_S100x384_8000_0 := by
  unfold valB1
  simp only [wB1]
  after_results_simp
  try simp (disch := decide) only [valB0_keep, valA_keep, valA_main_v2]
  all_goals rfl
set_option maxRecDepth 8192 in
theorem valB1_main_v84 (V0 : Valuation τ sig (Elt F)) : valB1 V0 (no_index (Proc.devRef .tc main_v84)) = extractStridedSlice S100x384 ![8100, 0] (featV V0) slices_S10000x384_S100x384_8100_0 := by
  unfold valB1
  simp only [wB1]
  after_results_simp
  try simp (disch := decide) only [valB0_keep, valA_keep, valA_main_v2]
  all_goals rfl
set_option maxRecDepth 8192 in
theorem valB1_main_v85 (V0 : Valuation τ sig (Elt F)) : valB1 V0 (no_index (Proc.devRef .tc main_v85)) = extractStridedSlice S100x384 ![8200, 0] (featV V0) slices_S10000x384_S100x384_8200_0 := by
  unfold valB1
  simp only [wB1]
  after_results_simp
  try simp (disch := decide) only [valB0_keep, valA_keep, valA_main_v2]
  all_goals rfl
set_option maxRecDepth 8192 in
theorem valB1_main_v86 (V0 : Valuation τ sig (Elt F)) : valB1 V0 (no_index (Proc.devRef .tc main_v86)) = extractStridedSlice S100x384 ![8300, 0] (featV V0) slices_S10000x384_S100x384_8300_0 := by
  unfold valB1
  simp only [wB1]
  after_results_simp
  try simp (disch := decide) only [valB0_keep, valA_keep, valA_main_v2]
  all_goals rfl
set_option maxRecDepth 8192 in
theorem valB1_main_v87 (V0 : Valuation τ sig (Elt F)) : valB1 V0 (no_index (Proc.devRef .tc main_v87)) = extractStridedSlice S100x384 ![8400, 0] (featV V0) slices_S10000x384_S100x384_8400_0 := by
  unfold valB1
  simp only [wB1]
  after_results_simp
  try simp (disch := decide) only [valB0_keep, valA_keep, valA_main_v2]
  all_goals rfl
set_option maxRecDepth 8192 in
theorem valB1_main_v88 (V0 : Valuation τ sig (Elt F)) : valB1 V0 (no_index (Proc.devRef .tc main_v88)) = extractStridedSlice S100x384 ![8500, 0] (featV V0) slices_S10000x384_S100x384_8500_0 := by
  unfold valB1
  simp only [wB1]
  after_results_simp
  try simp (disch := decide) only [valB0_keep, valA_keep, valA_main_v2]
  all_goals rfl
set_option maxRecDepth 8192 in
theorem valB1_main_v89 (V0 : Valuation τ sig (Elt F)) : valB1 V0 (no_index (Proc.devRef .tc main_v89)) = extractStridedSlice S100x384 ![8600, 0] (featV V0) slices_S10000x384_S100x384_8600_0 := by
  unfold valB1
  simp only [wB1]
  after_results_simp
  try simp (disch := decide) only [valB0_keep, valA_keep, valA_main_v2]
  all_goals rfl
set_option maxRecDepth 8192 in
theorem valB1_main_v90 (V0 : Valuation τ sig (Elt F)) : valB1 V0 (no_index (Proc.devRef .tc main_v90)) = extractStridedSlice S100x384 ![8700, 0] (featV V0) slices_S10000x384_S100x384_8700_0 := by
  unfold valB1
  simp only [wB1]
  after_results_simp
  try simp (disch := decide) only [valB0_keep, valA_keep, valA_main_v2]
  all_goals rfl
set_option maxRecDepth 8192 in
theorem valB1_main_v91 (V0 : Valuation τ sig (Elt F)) : valB1 V0 (no_index (Proc.devRef .tc main_v91)) = extractStridedSlice S100x384 ![8800, 0] (featV V0) slices_S10000x384_S100x384_8800_0 := by
  unfold valB1
  simp only [wB1]
  after_results_simp
  try simp (disch := decide) only [valB0_keep, valA_keep, valA_main_v2]
  all_goals rfl
set_option maxRecDepth 8192 in
theorem valB1_main_v92 (V0 : Valuation τ sig (Elt F)) : valB1 V0 (no_index (Proc.devRef .tc main_v92)) = extractStridedSlice S100x384 ![8900, 0] (featV V0) slices_S10000x384_S100x384_8900_0 := by
  unfold valB1
  simp only [wB1]
  after_results_simp
  try simp (disch := decide) only [valB0_keep, valA_keep, valA_main_v2]
  all_goals rfl
set_option maxRecDepth 8192 in
theorem valB1_main_v93 (V0 : Valuation τ sig (Elt F)) : valB1 V0 (no_index (Proc.devRef .tc main_v93)) = extractStridedSlice S100x384 ![9000, 0] (featV V0) slices_S10000x384_S100x384_9000_0 := by
  unfold valB1
  simp only [wB1]
  after_results_simp
  try simp (disch := decide) only [valB0_keep, valA_keep, valA_main_v2]
  all_goals rfl
set_option maxRecDepth 8192 in
theorem valB1_main_v94 (V0 : Valuation τ sig (Elt F)) : valB1 V0 (no_index (Proc.devRef .tc main_v94)) = extractStridedSlice S100x384 ![9100, 0] (featV V0) slices_S10000x384_S100x384_9100_0 := by
  unfold valB1
  simp only [wB1]
  after_results_simp
  try simp (disch := decide) only [valB0_keep, valA_keep, valA_main_v2]
  all_goals rfl
set_option maxRecDepth 8192 in
theorem valB1_main_v95 (V0 : Valuation τ sig (Elt F)) : valB1 V0 (no_index (Proc.devRef .tc main_v95)) = extractStridedSlice S100x384 ![9200, 0] (featV V0) slices_S10000x384_S100x384_9200_0 := by
  unfold valB1
  simp only [wB1]
  after_results_simp
  try simp (disch := decide) only [valB0_keep, valA_keep, valA_main_v2]
  all_goals rfl
set_option maxRecDepth 8192 in
theorem valB1_main_v96 (V0 : Valuation τ sig (Elt F)) : valB1 V0 (no_index (Proc.devRef .tc main_v96)) = extractStridedSlice S100x384 ![9300, 0] (featV V0) slices_S10000x384_S100x384_9300_0 := by
  unfold valB1
  simp only [wB1]
  after_results_simp
  try simp (disch := decide) only [valB0_keep, valA_keep, valA_main_v2]
  all_goals rfl
set_option maxRecDepth 8192 in
theorem valB1_main_v97 (V0 : Valuation τ sig (Elt F)) : valB1 V0 (no_index (Proc.devRef .tc main_v97)) = extractStridedSlice S100x384 ![9400, 0] (featV V0) slices_S10000x384_S100x384_9400_0 := by
  unfold valB1
  simp only [wB1]
  after_results_simp
  try simp (disch := decide) only [valB0_keep, valA_keep, valA_main_v2]
  all_goals rfl
set_option maxRecDepth 8192 in
theorem valB1_main_v98 (V0 : Valuation τ sig (Elt F)) : valB1 V0 (no_index (Proc.devRef .tc main_v98)) = extractStridedSlice S100x384 ![9500, 0] (featV V0) slices_S10000x384_S100x384_9500_0 := by
  unfold valB1
  simp only [wB1]
  after_results_simp
  try simp (disch := decide) only [valB0_keep, valA_keep, valA_main_v2]
  all_goals rfl
set_option maxRecDepth 8192 in
theorem valB1_main_v99 (V0 : Valuation τ sig (Elt F)) : valB1 V0 (no_index (Proc.devRef .tc main_v99)) = extractStridedSlice S100x384 ![9600, 0] (featV V0) slices_S10000x384_S100x384_9600_0 := by
  unfold valB1
  simp only [wB1]
  after_results_simp
  try simp (disch := decide) only [valB0_keep, valA_keep, valA_main_v2]
  all_goals rfl
set_option maxRecDepth 8192 in
theorem valB1_main_v100 (V0 : Valuation τ sig (Elt F)) : valB1 V0 (no_index (Proc.devRef .tc main_v100)) = extractStridedSlice S100x384 ![9700, 0] (featV V0) slices_S10000x384_S100x384_9700_0 := by
  unfold valB1
  simp only [wB1]
  after_results_simp
  try simp (disch := decide) only [valB0_keep, valA_keep, valA_main_v2]
  all_goals rfl
set_option maxRecDepth 8192 in
theorem valB1_main_v101 (V0 : Valuation τ sig (Elt F)) : valB1 V0 (no_index (Proc.devRef .tc main_v101)) = extractStridedSlice S100x384 ![9800, 0] (featV V0) slices_S10000x384_S100x384_9800_0 := by
  unfold valB1
  simp only [wB1]
  after_results_simp
  try simp (disch := decide) only [valB0_keep, valA_keep, valA_main_v2]
  all_goals rfl
set_option maxRecDepth 8192 in
theorem valB1_main_v102 (V0 : Valuation τ sig (Elt F)) : valB1 V0 (no_index (Proc.devRef .tc main_v102)) = extractStridedSlice S100x384 ![9900, 0] (featV V0) slices_S10000x384_S100x384_9900_0 := by
  unfold valB1
  simp only [wB1]
  after_results_simp
  try simp (disch := decide) only [valB0_keep, valA_keep, valA_main_v2]
  all_goals rfl

/-- The contents after the stretch `wC0`. -/
def valC0 (V0 : Valuation τ sig (Elt F)) : Valuation τ sig (Elt F) := after wC0 (valB1 V0)
/-- The buffers the stretch writes. -/
abbrev wC0_W : List (Ref sig .tc) := [main_v103, main_v104, main_v105, main_v106, main_v107, main_v108, main_v109, main_v110, main_v111, main_v112, main_v113, main_v114, main_v115, main_v116, main_v117, main_v118, main_v119]
set_option maxRecDepth 8192 in
theorem wC0_writes : (wC0 : List (HloOp τ sig (Elt F))).Forall fun op => op.writes ⊆ (wC0_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem valC0_keep (V0 : Valuation τ sig (Elt F)) (r : Ref sig .tc) (h : r ∉ wC0_W) :
    valC0 V0 (no_index (Proc.devRef .tc r)) = valB1 V0 (Proc.devRef .tc r) :=
  after_of_writes_sub wC0 _ wC0_writes h

set_option maxRecDepth 8192 in
theorem valC0_main_v103 (V0 : Valuation τ sig (Elt F)) : valC0 V0 (no_index (Proc.devRef .tc main_v103)) = chunk 0 slices_S10000x384_S100x384_0_0 (featV V0) (V0 (Proc.devRef .tc main_arg3)) := by
  unfold valC0
  simp only [wC0]
  after_results_simp
  try simp (disch := decide) only [valB1_keep, valB0_keep, valA_keep, valB0_main_v3]
  all_goals rfl
set_option maxRecDepth 8192 in
theorem valC0_main_v104 (V0 : Valuation τ sig (Elt F)) : valC0 V0 (no_index (Proc.devRef .tc main_v104)) = chunk 100 slices_S10000x384_S100x384_100_0 (featV V0) (V0 (Proc.devRef .tc main_arg3)) := by
  unfold valC0
  simp only [wC0]
  after_results_simp
  try simp (disch := decide) only [valB1_keep, valB0_keep, valA_keep, valB0_main_v4]
  all_goals rfl
set_option maxRecDepth 8192 in
theorem valC0_main_v105 (V0 : Valuation τ sig (Elt F)) : valC0 V0 (no_index (Proc.devRef .tc main_v105)) = chunk 200 slices_S10000x384_S100x384_200_0 (featV V0) (V0 (Proc.devRef .tc main_arg3)) := by
  unfold valC0
  simp only [wC0]
  after_results_simp
  try simp (disch := decide) only [valB1_keep, valB0_keep, valA_keep, valB0_main_v5]
  all_goals rfl
set_option maxRecDepth 8192 in
theorem valC0_main_v106 (V0 : Valuation τ sig (Elt F)) : valC0 V0 (no_index (Proc.devRef .tc main_v106)) = chunk 300 slices_S10000x384_S100x384_300_0 (featV V0) (V0 (Proc.devRef .tc main_arg3)) := by
  unfold valC0
  simp only [wC0]
  after_results_simp
  try simp (disch := decide) only [valB1_keep, valB0_keep, valA_keep, valB0_main_v6]
  all_goals rfl
set_option maxRecDepth 8192 in
theorem valC0_main_v107 (V0 : Valuation τ sig (Elt F)) : valC0 V0 (no_index (Proc.devRef .tc main_v107)) = chunk 400 slices_S10000x384_S100x384_400_0 (featV V0) (V0 (Proc.devRef .tc main_arg3)) := by
  unfold valC0
  simp only [wC0]
  after_results_simp
  try simp (disch := decide) only [valB1_keep, valB0_keep, valA_keep, valB0_main_v7]
  all_goals rfl
set_option maxRecDepth 8192 in
theorem valC0_main_v108 (V0 : Valuation τ sig (Elt F)) : valC0 V0 (no_index (Proc.devRef .tc main_v108)) = chunk 500 slices_S10000x384_S100x384_500_0 (featV V0) (V0 (Proc.devRef .tc main_arg3)) := by
  unfold valC0
  simp only [wC0]
  after_results_simp
  try simp (disch := decide) only [valB1_keep, valB0_keep, valA_keep, valB0_main_v8]
  all_goals rfl
set_option maxRecDepth 8192 in
theorem valC0_main_v109 (V0 : Valuation τ sig (Elt F)) : valC0 V0 (no_index (Proc.devRef .tc main_v109)) = chunk 600 slices_S10000x384_S100x384_600_0 (featV V0) (V0 (Proc.devRef .tc main_arg3)) := by
  unfold valC0
  simp only [wC0]
  after_results_simp
  try simp (disch := decide) only [valB1_keep, valB0_keep, valA_keep, valB0_main_v9]
  all_goals rfl
set_option maxRecDepth 8192 in
theorem valC0_main_v110 (V0 : Valuation τ sig (Elt F)) : valC0 V0 (no_index (Proc.devRef .tc main_v110)) = chunk 700 slices_S10000x384_S100x384_700_0 (featV V0) (V0 (Proc.devRef .tc main_arg3)) := by
  unfold valC0
  simp only [wC0]
  after_results_simp
  try simp (disch := decide) only [valB1_keep, valB0_keep, valA_keep, valB0_main_v10]
  all_goals rfl
set_option maxRecDepth 8192 in
theorem valC0_main_v111 (V0 : Valuation τ sig (Elt F)) : valC0 V0 (no_index (Proc.devRef .tc main_v111)) = chunk 800 slices_S10000x384_S100x384_800_0 (featV V0) (V0 (Proc.devRef .tc main_arg3)) := by
  unfold valC0
  simp only [wC0]
  after_results_simp
  try simp (disch := decide) only [valB1_keep, valB0_keep, valA_keep, valB0_main_v11]
  all_goals rfl
set_option maxRecDepth 8192 in
theorem valC0_main_v112 (V0 : Valuation τ sig (Elt F)) : valC0 V0 (no_index (Proc.devRef .tc main_v112)) = chunk 900 slices_S10000x384_S100x384_900_0 (featV V0) (V0 (Proc.devRef .tc main_arg3)) := by
  unfold valC0
  simp only [wC0]
  after_results_simp
  try simp (disch := decide) only [valB1_keep, valB0_keep, valA_keep, valB0_main_v12]
  all_goals rfl
set_option maxRecDepth 8192 in
theorem valC0_main_v113 (V0 : Valuation τ sig (Elt F)) : valC0 V0 (no_index (Proc.devRef .tc main_v113)) = chunk 1000 slices_S10000x384_S100x384_1000_0 (featV V0) (V0 (Proc.devRef .tc main_arg3)) := by
  unfold valC0
  simp only [wC0]
  after_results_simp
  try simp (disch := decide) only [valB1_keep, valB0_keep, valA_keep, valB0_main_v13]
  all_goals rfl
set_option maxRecDepth 8192 in
theorem valC0_main_v114 (V0 : Valuation τ sig (Elt F)) : valC0 V0 (no_index (Proc.devRef .tc main_v114)) = chunk 1100 slices_S10000x384_S100x384_1100_0 (featV V0) (V0 (Proc.devRef .tc main_arg3)) := by
  unfold valC0
  simp only [wC0]
  after_results_simp
  try simp (disch := decide) only [valB1_keep, valB0_keep, valA_keep, valB0_main_v14]
  all_goals rfl
set_option maxRecDepth 8192 in
theorem valC0_main_v115 (V0 : Valuation τ sig (Elt F)) : valC0 V0 (no_index (Proc.devRef .tc main_v115)) = chunk 1200 slices_S10000x384_S100x384_1200_0 (featV V0) (V0 (Proc.devRef .tc main_arg3)) := by
  unfold valC0
  simp only [wC0]
  after_results_simp
  try simp (disch := decide) only [valB1_keep, valB0_keep, valA_keep, valB0_main_v15]
  all_goals rfl
set_option maxRecDepth 8192 in
theorem valC0_main_v116 (V0 : Valuation τ sig (Elt F)) : valC0 V0 (no_index (Proc.devRef .tc main_v116)) = chunk 1300 slices_S10000x384_S100x384_1300_0 (featV V0) (V0 (Proc.devRef .tc main_arg3)) := by
  unfold valC0
  simp only [wC0]
  after_results_simp
  try simp (disch := decide) only [valB1_keep, valB0_keep, valA_keep, valB0_main_v16]
  all_goals rfl
set_option maxRecDepth 8192 in
theorem valC0_main_v117 (V0 : Valuation τ sig (Elt F)) : valC0 V0 (no_index (Proc.devRef .tc main_v117)) = chunk 1400 slices_S10000x384_S100x384_1400_0 (featV V0) (V0 (Proc.devRef .tc main_arg3)) := by
  unfold valC0
  simp only [wC0]
  after_results_simp
  try simp (disch := decide) only [valB1_keep, valB0_keep, valA_keep, valB0_main_v17]
  all_goals rfl
set_option maxRecDepth 8192 in
theorem valC0_main_v118 (V0 : Valuation τ sig (Elt F)) : valC0 V0 (no_index (Proc.devRef .tc main_v118)) = chunk 1500 slices_S10000x384_S100x384_1500_0 (featV V0) (V0 (Proc.devRef .tc main_arg3)) := by
  unfold valC0
  simp only [wC0]
  after_results_simp
  try simp (disch := decide) only [valB1_keep, valB0_keep, valA_keep, valB0_main_v18]
  all_goals rfl
set_option maxRecDepth 8192 in
theorem valC0_main_v119 (V0 : Valuation τ sig (Elt F)) : valC0 V0 (no_index (Proc.devRef .tc main_v119)) = chunk 1600 slices_S10000x384_S100x384_1600_0 (featV V0) (V0 (Proc.devRef .tc main_arg3)) := by
  unfold valC0
  simp only [wC0]
  after_results_simp
  try simp (disch := decide) only [valB1_keep, valB0_keep, valA_keep, valB0_main_v19]
  all_goals rfl

/-- The contents after the stretch `wC1`. -/
def valC1 (V0 : Valuation τ sig (Elt F)) : Valuation τ sig (Elt F) := after wC1 (valC0 V0)
/-- The buffers the stretch writes. -/
abbrev wC1_W : List (Ref sig .tc) := [main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179]
set_option maxRecDepth 8192 in
theorem wC1_writes : (wC1 : List (HloOp τ sig (Elt F))).Forall fun op => op.writes ⊆ (wC1_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem valC1_keep (V0 : Valuation τ sig (Elt F)) (r : Ref sig .tc) (h : r ∉ wC1_W) :
    valC1 V0 (no_index (Proc.devRef .tc r)) = valC0 V0 (Proc.devRef .tc r) :=
  after_of_writes_sub wC1 _ wC1_writes h

set_option maxRecDepth 8192 in
theorem valC1_main_v120 (V0 : Valuation τ sig (Elt F)) : valC1 V0 (no_index (Proc.devRef .tc main_v120)) = chunk 1700 slices_S10000x384_S100x384_1700_0 (featV V0) (V0 (Proc.devRef .tc main_arg3)) := by
  unfold valC1
  simp only [wC1]
  after_results_simp
  try simp (disch := decide) only [valC0_keep, valB1_keep, valB0_keep, valA_keep, valB0_main_v20]
  all_goals rfl
set_option maxRecDepth 8192 in
theorem valC1_main_v121 (V0 : Valuation τ sig (Elt F)) : valC1 V0 (no_index (Proc.devRef .tc main_v121)) = chunk 1800 slices_S10000x384_S100x384_1800_0 (featV V0) (V0 (Proc.devRef .tc main_arg3)) := by
  unfold valC1
  simp only [wC1]
  after_results_simp
  try simp (disch := decide) only [valC0_keep, valB1_keep, valB0_keep, valA_keep, valB0_main_v21]
  all_goals rfl
set_option maxRecDepth 8192 in
theorem valC1_main_v122 (V0 : Valuation τ sig (Elt F)) : valC1 V0 (no_index (Proc.devRef .tc main_v122)) = chunk 1900 slices_S10000x384_S100x384_1900_0 (featV V0) (V0 (Proc.devRef .tc main_arg3)) := by
  unfold valC1
  simp only [wC1]
  after_results_simp
  try simp (disch := decide) only [valC0_keep, valB1_keep, valB0_keep, valA_keep, valB0_main_v22]
  all_goals rfl
set_option maxRecDepth 8192 in
theorem valC1_main_v123 (V0 : Valuation τ sig (Elt F)) : valC1 V0 (no_index (Proc.devRef .tc main_v123)) = chunk 2000 slices_S10000x384_S100x384_2000_0 (featV V0) (V0 (Proc.devRef .tc main_arg3)) := by
  unfold valC1
  simp only [wC1]
  after_results_simp
  try simp (disch := decide) only [valC0_keep, valB1_keep, valB0_keep, valA_keep, valB0_main_v23]
  all_goals rfl
set_option maxRecDepth 8192 in
theorem valC1_main_v124 (V0 : Valuation τ sig (Elt F)) : valC1 V0 (no_index (Proc.devRef .tc main_v124)) = chunk 2100 slices_S10000x384_S100x384_2100_0 (featV V0) (V0 (Proc.devRef .tc main_arg3)) := by
  unfold valC1
  simp only [wC1]
  after_results_simp
  try simp (disch := decide) only [valC0_keep, valB1_keep, valB0_keep, valA_keep, valB0_main_v24]
  all_goals rfl
set_option maxRecDepth 8192 in
theorem valC1_main_v125 (V0 : Valuation τ sig (Elt F)) : valC1 V0 (no_index (Proc.devRef .tc main_v125)) = chunk 2200 slices_S10000x384_S100x384_2200_0 (featV V0) (V0 (Proc.devRef .tc main_arg3)) := by
  unfold valC1
  simp only [wC1]
  after_results_simp
  try simp (disch := decide) only [valC0_keep, valB1_keep, valB0_keep, valA_keep, valB0_main_v25]
  all_goals rfl
set_option maxRecDepth 8192 in
theorem valC1_main_v126 (V0 : Valuation τ sig (Elt F)) : valC1 V0 (no_index (Proc.devRef .tc main_v126)) = chunk 2300 slices_S10000x384_S100x384_2300_0 (featV V0) (V0 (Proc.devRef .tc main_arg3)) := by
  unfold valC1
  simp only [wC1]
  after_results_simp
  try simp (disch := decide) only [valC0_keep, valB1_keep, valB0_keep, valA_keep, valB0_main_v26]
  all_goals rfl
set_option maxRecDepth 8192 in
theorem valC1_main_v127 (V0 : Valuation τ sig (Elt F)) : valC1 V0 (no_index (Proc.devRef .tc main_v127)) = chunk 2400 slices_S10000x384_S100x384_2400_0 (featV V0) (V0 (Proc.devRef .tc main_arg3)) := by
  unfold valC1
  simp only [wC1]
  after_results_simp
  try simp (disch := decide) only [valC0_keep, valB1_keep, valB0_keep, valA_keep, valB0_main_v27]
  all_goals rfl
set_option maxRecDepth 8192 in
theorem valC1_main_v128 (V0 : Valuation τ sig (Elt F)) : valC1 V0 (no_index (Proc.devRef .tc main_v128)) = chunk 2500 slices_S10000x384_S100x384_2500_0 (featV V0) (V0 (Proc.devRef .tc main_arg3)) := by
  unfold valC1
  simp only [wC1]
  after_results_simp
  try simp (disch := decide) only [valC0_keep, valB1_keep, valB0_keep, valA_keep, valB0_main_v28]
  all_goals rfl
set_option maxRecDepth 8192 in
theorem valC1_main_v129 (V0 : Valuation τ sig (Elt F)) : valC1 V0 (no_index (Proc.devRef .tc main_v129)) = chunk 2600 slices_S10000x384_S100x384_2600_0 (featV V0) (V0 (Proc.devRef .tc main_arg3)) := by
  unfold valC1
  simp only [wC1]
  after_results_simp
  try simp (disch := decide) only [valC0_keep, valB1_keep, valB0_keep, valA_keep, valB0_main_v29]
  all_goals rfl
set_option maxRecDepth 8192 in
theorem valC1_main_v130 (V0 : Valuation τ sig (Elt F)) : valC1 V0 (no_index (Proc.devRef .tc main_v130)) = chunk 2700 slices_S10000x384_S100x384_2700_0 (featV V0) (V0 (Proc.devRef .tc main_arg3)) := by
  unfold valC1
  simp only [wC1]
  after_results_simp
  try simp (disch := decide) only [valC0_keep, valB1_keep, valB0_keep, valA_keep, valB0_main_v30]
  all_goals rfl
set_option maxRecDepth 8192 in
theorem valC1_main_v131 (V0 : Valuation τ sig (Elt F)) : valC1 V0 (no_index (Proc.devRef .tc main_v131)) = chunk 2800 slices_S10000x384_S100x384_2800_0 (featV V0) (V0 (Proc.devRef .tc main_arg3)) := by
  unfold valC1
  simp only [wC1]
  after_results_simp
  try simp (disch := decide) only [valC0_keep, valB1_keep, valB0_keep, valA_keep, valB0_main_v31]
  all_goals rfl
set_option maxRecDepth 8192 in
theorem valC1_main_v132 (V0 : Valuation τ sig (Elt F)) : valC1 V0 (no_index (Proc.devRef .tc main_v132)) = chunk 2900 slices_S10000x384_S100x384_2900_0 (featV V0) (V0 (Proc.devRef .tc main_arg3)) := by
  unfold valC1
  simp only [wC1]
  after_results_simp
  try simp (disch := decide) only [valC0_keep, valB1_keep, valB0_keep, valA_keep, valB0_main_v32]
  all_goals rfl
set_option maxRecDepth 8192 in
theorem valC1_main_v133 (V0 : Valuation τ sig (Elt F)) : valC1 V0 (no_index (Proc.devRef .tc main_v133)) = chunk 3000 slices_S10000x384_S100x384_3000_0 (featV V0) (V0 (Proc.devRef .tc main_arg3)) := by
  unfold valC1
  simp only [wC1]
  after_results_simp
  try simp (disch := decide) only [valC0_keep, valB1_keep, valB0_keep, valA_keep, valB0_main_v33]
  all_goals rfl
set_option maxRecDepth 8192 in
theorem valC1_main_v134 (V0 : Valuation τ sig (Elt F)) : valC1 V0 (no_index (Proc.devRef .tc main_v134)) = chunk 3100 slices_S10000x384_S100x384_3100_0 (featV V0) (V0 (Proc.devRef .tc main_arg3)) := by
  unfold valC1
  simp only [wC1]
  after_results_simp
  try simp (disch := decide) only [valC0_keep, valB1_keep, valB0_keep, valA_keep, valB0_main_v34]
  all_goals rfl
set_option maxRecDepth 8192 in
theorem valC1_main_v135 (V0 : Valuation τ sig (Elt F)) : valC1 V0 (no_index (Proc.devRef .tc main_v135)) = chunk 3200 slices_S10000x384_S100x384_3200_0 (featV V0) (V0 (Proc.devRef .tc main_arg3)) := by
  unfold valC1
  simp only [wC1]
  after_results_simp
  try simp (disch := decide) only [valC0_keep, valB1_keep, valB0_keep, valA_keep, valB0_main_v35]
  all_goals rfl
set_option maxRecDepth 8192 in
theorem valC1_main_v136 (V0 : Valuation τ sig (Elt F)) : valC1 V0 (no_index (Proc.devRef .tc main_v136)) = chunk 3300 slices_S10000x384_S100x384_3300_0 (featV V0) (V0 (Proc.devRef .tc main_arg3)) := by
  unfold valC1
  simp only [wC1]
  after_results_simp
  try simp (disch := decide) only [valC0_keep, valB1_keep, valB0_keep, valA_keep, valB0_main_v36]
  all_goals rfl
set_option maxRecDepth 8192 in
theorem valC1_main_v137 (V0 : Valuation τ sig (Elt F)) : valC1 V0 (no_index (Proc.devRef .tc main_v137)) = chunk 3400 slices_S10000x384_S100x384_3400_0 (featV V0) (V0 (Proc.devRef .tc main_arg3)) := by
  unfold valC1
  simp only [wC1]
  after_results_simp
  try simp (disch := decide) only [valC0_keep, valB1_keep, valB0_keep, valA_keep, valB0_main_v37]
  all_goals rfl
set_option maxRecDepth 8192 in
theorem valC1_main_v138 (V0 : Valuation τ sig (Elt F)) : valC1 V0 (no_index (Proc.devRef .tc main_v138)) = chunk 3500 slices_S10000x384_S100x384_3500_0 (featV V0) (V0 (Proc.devRef .tc main_arg3)) := by
  unfold valC1
  simp only [wC1]
  after_results_simp
  try simp (disch := decide) only [valC0_keep, valB1_keep, valB0_keep, valA_keep, valB0_main_v38]
  all_goals rfl
set_option maxRecDepth 8192 in
theorem valC1_main_v139 (V0 : Valuation τ sig (Elt F)) : valC1 V0 (no_index (Proc.devRef .tc main_v139)) = chunk 3600 slices_S10000x384_S100x384_3600_0 (featV V0) (V0 (Proc.devRef .tc main_arg3)) := by
  unfold valC1
  simp only [wC1]
  after_results_simp
  try simp (disch := decide) only [valC0_keep, valB1_keep, valB0_keep, valA_keep, valB0_main_v39]
  all_goals rfl
set_option maxRecDepth 8192 in
theorem valC1_main_v140 (V0 : Valuation τ sig (Elt F)) : valC1 V0 (no_index (Proc.devRef .tc main_v140)) = chunk 3700 slices_S10000x384_S100x384_3700_0 (featV V0) (V0 (Proc.devRef .tc main_arg3)) := by
  unfold valC1
  simp only [wC1]
  after_results_simp
  try simp (disch := decide) only [valC0_keep, valB1_keep, valB0_keep, valA_keep, valB0_main_v40]
  all_goals rfl
set_option maxRecDepth 8192 in
theorem valC1_main_v141 (V0 : Valuation τ sig (Elt F)) : valC1 V0 (no_index (Proc.devRef .tc main_v141)) = chunk 3800 slices_S10000x384_S100x384_3800_0 (featV V0) (V0 (Proc.devRef .tc main_arg3)) := by
  unfold valC1
  simp only [wC1]
  after_results_simp
  try simp (disch := decide) only [valC0_keep, valB1_keep, valB0_keep, valA_keep, valB0_main_v41]
  all_goals rfl
set_option maxRecDepth 8192 in
theorem valC1_main_v142 (V0 : Valuation τ sig (Elt F)) : valC1 V0 (no_index (Proc.devRef .tc main_v142)) = chunk 3900 slices_S10000x384_S100x384_3900_0 (featV V0) (V0 (Proc.devRef .tc main_arg3)) := by
  unfold valC1
  simp only [wC1]
  after_results_simp
  try simp (disch := decide) only [valC0_keep, valB1_keep, valB0_keep, valA_keep, valB0_main_v42]
  all_goals rfl
set_option maxRecDepth 8192 in
theorem valC1_main_v143 (V0 : Valuation τ sig (Elt F)) : valC1 V0 (no_index (Proc.devRef .tc main_v143)) = chunk 4000 slices_S10000x384_S100x384_4000_0 (featV V0) (V0 (Proc.devRef .tc main_arg3)) := by
  unfold valC1
  simp only [wC1]
  after_results_simp
  try simp (disch := decide) only [valC0_keep, valB1_keep, valB0_keep, valA_keep, valB0_main_v43]
  all_goals rfl
set_option maxRecDepth 8192 in
theorem valC1_main_v144 (V0 : Valuation τ sig (Elt F)) : valC1 V0 (no_index (Proc.devRef .tc main_v144)) = chunk 4100 slices_S10000x384_S100x384_4100_0 (featV V0) (V0 (Proc.devRef .tc main_arg3)) := by
  unfold valC1
  simp only [wC1]
  after_results_simp
  try simp (disch := decide) only [valC0_keep, valB1_keep, valB0_keep, valA_keep, valB0_main_v44]
  all_goals rfl
set_option maxRecDepth 8192 in
theorem valC1_main_v145 (V0 : Valuation τ sig (Elt F)) : valC1 V0 (no_index (Proc.devRef .tc main_v145)) = chunk 4200 slices_S10000x384_S100x384_4200_0 (featV V0) (V0 (Proc.devRef .tc main_arg3)) := by
  unfold valC1
  simp only [wC1]
  after_results_simp
  try simp (disch := decide) only [valC0_keep, valB1_keep, valB0_keep, valA_keep, valB0_main_v45]
  all_goals rfl
set_option maxRecDepth 8192 in
theorem valC1_main_v146 (V0 : Valuation τ sig (Elt F)) : valC1 V0 (no_index (Proc.devRef .tc main_v146)) = chunk 4300 slices_S10000x384_S100x384_4300_0 (featV V0) (V0 (Proc.devRef .tc main_arg3)) := by
  unfold valC1
  simp only [wC1]
  after_results_simp
  try simp (disch := decide) only [valC0_keep, valB1_keep, valB0_keep, valA_keep, valB0_main_v46]
  all_goals rfl
set_option maxRecDepth 8192 in
theorem valC1_main_v147 (V0 : Valuation τ sig (Elt F)) : valC1 V0 (no_index (Proc.devRef .tc main_v147)) = chunk 4400 slices_S10000x384_S100x384_4400_0 (featV V0) (V0 (Proc.devRef .tc main_arg3)) := by
  unfold valC1
  simp only [wC1]
  after_results_simp
  try simp (disch := decide) only [valC0_keep, valB1_keep, valB0_keep, valA_keep, valB0_main_v47]
  all_goals rfl
set_option maxRecDepth 8192 in
theorem valC1_main_v148 (V0 : Valuation τ sig (Elt F)) : valC1 V0 (no_index (Proc.devRef .tc main_v148)) = chunk 4500 slices_S10000x384_S100x384_4500_0 (featV V0) (V0 (Proc.devRef .tc main_arg3)) := by
  unfold valC1
  simp only [wC1]
  after_results_simp
  try simp (disch := decide) only [valC0_keep, valB1_keep, valB0_keep, valA_keep, valB0_main_v48]
  all_goals rfl
set_option maxRecDepth 8192 in
theorem valC1_main_v149 (V0 : Valuation τ sig (Elt F)) : valC1 V0 (no_index (Proc.devRef .tc main_v149)) = chunk 4600 slices_S10000x384_S100x384_4600_0 (featV V0) (V0 (Proc.devRef .tc main_arg3)) := by
  unfold valC1
  simp only [wC1]
  after_results_simp
  try simp (disch := decide) only [valC0_keep, valB1_keep, valB0_keep, valA_keep, valB0_main_v49]
  all_goals rfl
set_option maxRecDepth 8192 in
theorem valC1_main_v150 (V0 : Valuation τ sig (Elt F)) : valC1 V0 (no_index (Proc.devRef .tc main_v150)) = chunk 4700 slices_S10000x384_S100x384_4700_0 (featV V0) (V0 (Proc.devRef .tc main_arg3)) := by
  unfold valC1
  simp only [wC1]
  after_results_simp
  try simp (disch := decide) only [valC0_keep, valB1_keep, valB0_keep, valA_keep, valB0_main_v50]
  all_goals rfl
set_option maxRecDepth 8192 in
theorem valC1_main_v151 (V0 : Valuation τ sig (Elt F)) : valC1 V0 (no_index (Proc.devRef .tc main_v151)) = chunk 4800 slices_S10000x384_S100x384_4800_0 (featV V0) (V0 (Proc.devRef .tc main_arg3)) := by
  unfold valC1
  simp only [wC1]
  after_results_simp
  try simp (disch := decide) only [valC0_keep, valB1_keep, valB0_keep, valA_keep, valB0_main_v51]
  all_goals rfl
set_option maxRecDepth 8192 in
theorem valC1_main_v152 (V0 : Valuation τ sig (Elt F)) : valC1 V0 (no_index (Proc.devRef .tc main_v152)) = chunk 4900 slices_S10000x384_S100x384_4900_0 (featV V0) (V0 (Proc.devRef .tc main_arg3)) := by
  unfold valC1
  simp only [wC1]
  after_results_simp
  try simp (disch := decide) only [valC0_keep, valB1_keep, valB0_keep, valA_keep, valB0_main_v52]
  all_goals rfl
set_option maxRecDepth 8192 in
theorem valC1_main_v153 (V0 : Valuation τ sig (Elt F)) : valC1 V0 (no_index (Proc.devRef .tc main_v153)) = chunk 5000 slices_S10000x384_S100x384_5000_0 (featV V0) (V0 (Proc.devRef .tc main_arg3)) := by
  unfold valC1
  simp only [wC1]
  after_results_simp
  try simp (disch := decide) only [valC0_keep, valB1_keep, valB0_keep, valA_keep, valB0_main_v53]
  all_goals rfl
set_option maxRecDepth 8192 in
theorem valC1_main_v154 (V0 : Valuation τ sig (Elt F)) : valC1 V0 (no_index (Proc.devRef .tc main_v154)) = chunk 5100 slices_S10000x384_S100x384_5100_0 (featV V0) (V0 (Proc.devRef .tc main_arg3)) := by
  unfold valC1
  simp only [wC1]
  after_results_simp
  try simp (disch := decide) only [valC0_keep, valB1_keep, valB0_keep, valA_keep, valB0_main_v54]
  all_goals rfl
set_option maxRecDepth 8192 in
theorem valC1_main_v155 (V0 : Valuation τ sig (Elt F)) : valC1 V0 (no_index (Proc.devRef .tc main_v155)) = chunk 5200 slices_S10000x384_S100x384_5200_0 (featV V0) (V0 (Proc.devRef .tc main_arg3)) := by
  unfold valC1
  simp only [wC1]
  after_results_simp
  try simp (disch := decide) only [valC0_keep, valB1_keep, valB0_keep, valA_keep, valB0_main_v55]
  all_goals rfl
set_option maxRecDepth 8192 in
theorem valC1_main_v156 (V0 : Valuation τ sig (Elt F)) : valC1 V0 (no_index (Proc.devRef .tc main_v156)) = chunk 5300 slices_S10000x384_S100x384_5300_0 (featV V0) (V0 (Proc.devRef .tc main_arg3)) := by
  unfold valC1
  simp only [wC1]
  after_results_simp
  try simp (disch := decide) only [valC0_keep, valB1_keep, valB0_keep, valA_keep, valB0_main_v56]
  all_goals rfl
set_option maxRecDepth 8192 in
theorem valC1_main_v157 (V0 : Valuation τ sig (Elt F)) : valC1 V0 (no_index (Proc.devRef .tc main_v157)) = chunk 5400 slices_S10000x384_S100x384_5400_0 (featV V0) (V0 (Proc.devRef .tc main_arg3)) := by
  unfold valC1
  simp only [wC1]
  after_results_simp
  try simp (disch := decide) only [valC0_keep, valB1_keep, valB0_keep, valA_keep, valB0_main_v57]
  all_goals rfl
set_option maxRecDepth 8192 in
theorem valC1_main_v158 (V0 : Valuation τ sig (Elt F)) : valC1 V0 (no_index (Proc.devRef .tc main_v158)) = chunk 5500 slices_S10000x384_S100x384_5500_0 (featV V0) (V0 (Proc.devRef .tc main_arg3)) := by
  unfold valC1
  simp only [wC1]
  after_results_simp
  try simp (disch := decide) only [valC0_keep, valB1_keep, valB0_keep, valA_keep, valB0_main_v58]
  all_goals rfl
set_option maxRecDepth 8192 in
theorem valC1_main_v159 (V0 : Valuation τ sig (Elt F)) : valC1 V0 (no_index (Proc.devRef .tc main_v159)) = chunk 5600 slices_S10000x384_S100x384_5600_0 (featV V0) (V0 (Proc.devRef .tc main_arg3)) := by
  unfold valC1
  simp only [wC1]
  after_results_simp
  try simp (disch := decide) only [valC0_keep, valB1_keep, valB0_keep, valA_keep, valB0_main_v59]
  all_goals rfl
set_option maxRecDepth 8192 in
theorem valC1_main_v160 (V0 : Valuation τ sig (Elt F)) : valC1 V0 (no_index (Proc.devRef .tc main_v160)) = chunk 5700 slices_S10000x384_S100x384_5700_0 (featV V0) (V0 (Proc.devRef .tc main_arg3)) := by
  unfold valC1
  simp only [wC1]
  after_results_simp
  try simp (disch := decide) only [valC0_keep, valB1_keep, valB0_keep, valA_keep, valB1_main_v60]
  all_goals rfl
set_option maxRecDepth 8192 in
theorem valC1_main_v161 (V0 : Valuation τ sig (Elt F)) : valC1 V0 (no_index (Proc.devRef .tc main_v161)) = chunk 5800 slices_S10000x384_S100x384_5800_0 (featV V0) (V0 (Proc.devRef .tc main_arg3)) := by
  unfold valC1
  simp only [wC1]
  after_results_simp
  try simp (disch := decide) only [valC0_keep, valB1_keep, valB0_keep, valA_keep, valB1_main_v61]
  all_goals rfl
set_option maxRecDepth 8192 in
theorem valC1_main_v162 (V0 : Valuation τ sig (Elt F)) : valC1 V0 (no_index (Proc.devRef .tc main_v162)) = chunk 5900 slices_S10000x384_S100x384_5900_0 (featV V0) (V0 (Proc.devRef .tc main_arg3)) := by
  unfold valC1
  simp only [wC1]
  after_results_simp
  try simp (disch := decide) only [valC0_keep, valB1_keep, valB0_keep, valA_keep, valB1_main_v62]
  all_goals rfl
set_option maxRecDepth 8192 in
theorem valC1_main_v163 (V0 : Valuation τ sig (Elt F)) : valC1 V0 (no_index (Proc.devRef .tc main_v163)) = chunk 6000 slices_S10000x384_S100x384_6000_0 (featV V0) (V0 (Proc.devRef .tc main_arg3)) := by
  unfold valC1
  simp only [wC1]
  after_results_simp
  try simp (disch := decide) only [valC0_keep, valB1_keep, valB0_keep, valA_keep, valB1_main_v63]
  all_goals rfl
set_option maxRecDepth 8192 in
theorem valC1_main_v164 (V0 : Valuation τ sig (Elt F)) : valC1 V0 (no_index (Proc.devRef .tc main_v164)) = chunk 6100 slices_S10000x384_S100x384_6100_0 (featV V0) (V0 (Proc.devRef .tc main_arg3)) := by
  unfold valC1
  simp only [wC1]
  after_results_simp
  try simp (disch := decide) only [valC0_keep, valB1_keep, valB0_keep, valA_keep, valB1_main_v64]
  all_goals rfl
set_option maxRecDepth 8192 in
theorem valC1_main_v165 (V0 : Valuation τ sig (Elt F)) : valC1 V0 (no_index (Proc.devRef .tc main_v165)) = chunk 6200 slices_S10000x384_S100x384_6200_0 (featV V0) (V0 (Proc.devRef .tc main_arg3)) := by
  unfold valC1
  simp only [wC1]
  after_results_simp
  try simp (disch := decide) only [valC0_keep, valB1_keep, valB0_keep, valA_keep, valB1_main_v65]
  all_goals rfl
set_option maxRecDepth 8192 in
theorem valC1_main_v166 (V0 : Valuation τ sig (Elt F)) : valC1 V0 (no_index (Proc.devRef .tc main_v166)) = chunk 6300 slices_S10000x384_S100x384_6300_0 (featV V0) (V0 (Proc.devRef .tc main_arg3)) := by
  unfold valC1
  simp only [wC1]
  after_results_simp
  try simp (disch := decide) only [valC0_keep, valB1_keep, valB0_keep, valA_keep, valB1_main_v66]
  all_goals rfl
set_option maxRecDepth 8192 in
theorem valC1_main_v167 (V0 : Valuation τ sig (Elt F)) : valC1 V0 (no_index (Proc.devRef .tc main_v167)) = chunk 6400 slices_S10000x384_S100x384_6400_0 (featV V0) (V0 (Proc.devRef .tc main_arg3)) := by
  unfold valC1
  simp only [wC1]
  after_results_simp
  try simp (disch := decide) only [valC0_keep, valB1_keep, valB0_keep, valA_keep, valB1_main_v67]
  all_goals rfl
set_option maxRecDepth 8192 in
theorem valC1_main_v168 (V0 : Valuation τ sig (Elt F)) : valC1 V0 (no_index (Proc.devRef .tc main_v168)) = chunk 6500 slices_S10000x384_S100x384_6500_0 (featV V0) (V0 (Proc.devRef .tc main_arg3)) := by
  unfold valC1
  simp only [wC1]
  after_results_simp
  try simp (disch := decide) only [valC0_keep, valB1_keep, valB0_keep, valA_keep, valB1_main_v68]
  all_goals rfl
set_option maxRecDepth 8192 in
theorem valC1_main_v169 (V0 : Valuation τ sig (Elt F)) : valC1 V0 (no_index (Proc.devRef .tc main_v169)) = chunk 6600 slices_S10000x384_S100x384_6600_0 (featV V0) (V0 (Proc.devRef .tc main_arg3)) := by
  unfold valC1
  simp only [wC1]
  after_results_simp
  try simp (disch := decide) only [valC0_keep, valB1_keep, valB0_keep, valA_keep, valB1_main_v69]
  all_goals rfl
set_option maxRecDepth 8192 in
theorem valC1_main_v170 (V0 : Valuation τ sig (Elt F)) : valC1 V0 (no_index (Proc.devRef .tc main_v170)) = chunk 6700 slices_S10000x384_S100x384_6700_0 (featV V0) (V0 (Proc.devRef .tc main_arg3)) := by
  unfold valC1
  simp only [wC1]
  after_results_simp
  try simp (disch := decide) only [valC0_keep, valB1_keep, valB0_keep, valA_keep, valB1_main_v70]
  all_goals rfl
set_option maxRecDepth 8192 in
theorem valC1_main_v171 (V0 : Valuation τ sig (Elt F)) : valC1 V0 (no_index (Proc.devRef .tc main_v171)) = chunk 6800 slices_S10000x384_S100x384_6800_0 (featV V0) (V0 (Proc.devRef .tc main_arg3)) := by
  unfold valC1
  simp only [wC1]
  after_results_simp
  try simp (disch := decide) only [valC0_keep, valB1_keep, valB0_keep, valA_keep, valB1_main_v71]
  all_goals rfl
set_option maxRecDepth 8192 in
theorem valC1_main_v172 (V0 : Valuation τ sig (Elt F)) : valC1 V0 (no_index (Proc.devRef .tc main_v172)) = chunk 6900 slices_S10000x384_S100x384_6900_0 (featV V0) (V0 (Proc.devRef .tc main_arg3)) := by
  unfold valC1
  simp only [wC1]
  after_results_simp
  try simp (disch := decide) only [valC0_keep, valB1_keep, valB0_keep, valA_keep, valB1_main_v72]
  all_goals rfl
set_option maxRecDepth 8192 in
theorem valC1_main_v173 (V0 : Valuation τ sig (Elt F)) : valC1 V0 (no_index (Proc.devRef .tc main_v173)) = chunk 7000 slices_S10000x384_S100x384_7000_0 (featV V0) (V0 (Proc.devRef .tc main_arg3)) := by
  unfold valC1
  simp only [wC1]
  after_results_simp
  try simp (disch := decide) only [valC0_keep, valB1_keep, valB0_keep, valA_keep, valB1_main_v73]
  all_goals rfl
set_option maxRecDepth 8192 in
theorem valC1_main_v174 (V0 : Valuation τ sig (Elt F)) : valC1 V0 (no_index (Proc.devRef .tc main_v174)) = chunk 7100 slices_S10000x384_S100x384_7100_0 (featV V0) (V0 (Proc.devRef .tc main_arg3)) := by
  unfold valC1
  simp only [wC1]
  after_results_simp
  try simp (disch := decide) only [valC0_keep, valB1_keep, valB0_keep, valA_keep, valB1_main_v74]
  all_goals rfl
set_option maxRecDepth 8192 in
theorem valC1_main_v175 (V0 : Valuation τ sig (Elt F)) : valC1 V0 (no_index (Proc.devRef .tc main_v175)) = chunk 7200 slices_S10000x384_S100x384_7200_0 (featV V0) (V0 (Proc.devRef .tc main_arg3)) := by
  unfold valC1
  simp only [wC1]
  after_results_simp
  try simp (disch := decide) only [valC0_keep, valB1_keep, valB0_keep, valA_keep, valB1_main_v75]
  all_goals rfl
set_option maxRecDepth 8192 in
theorem valC1_main_v176 (V0 : Valuation τ sig (Elt F)) : valC1 V0 (no_index (Proc.devRef .tc main_v176)) = chunk 7300 slices_S10000x384_S100x384_7300_0 (featV V0) (V0 (Proc.devRef .tc main_arg3)) := by
  unfold valC1
  simp only [wC1]
  after_results_simp
  try simp (disch := decide) only [valC0_keep, valB1_keep, valB0_keep, valA_keep, valB1_main_v76]
  all_goals rfl
set_option maxRecDepth 8192 in
theorem valC1_main_v177 (V0 : Valuation τ sig (Elt F)) : valC1 V0 (no_index (Proc.devRef .tc main_v177)) = chunk 7400 slices_S10000x384_S100x384_7400_0 (featV V0) (V0 (Proc.devRef .tc main_arg3)) := by
  unfold valC1
  simp only [wC1]
  after_results_simp
  try simp (disch := decide) only [valC0_keep, valB1_keep, valB0_keep, valA_keep, valB1_main_v77]
  all_goals rfl
set_option maxRecDepth 8192 in
theorem valC1_main_v178 (V0 : Valuation τ sig (Elt F)) : valC1 V0 (no_index (Proc.devRef .tc main_v178)) = chunk 7500 slices_S10000x384_S100x384_7500_0 (featV V0) (V0 (Proc.devRef .tc main_arg3)) := by
  unfold valC1
  simp only [wC1]
  after_results_simp
  try simp (disch := decide) only [valC0_keep, valB1_keep, valB0_keep, valA_keep, valB1_main_v78]
  all_goals rfl
set_option maxRecDepth 8192 in
theorem valC1_main_v179 (V0 : Valuation τ sig (Elt F)) : valC1 V0 (no_index (Proc.devRef .tc main_v179)) = chunk 7600 slices_S10000x384_S100x384_7600_0 (featV V0) (V0 (Proc.devRef .tc main_arg3)) := by
  unfold valC1
  simp only [wC1]
  after_results_simp
  try simp (disch := decide) only [valC0_keep, valB1_keep, valB0_keep, valA_keep, valB1_main_v79]
  all_goals rfl

/-- The contents after the stretch `wC2`. -/
def valC2 (V0 : Valuation τ sig (Elt F)) : Valuation τ sig (Elt F) := after wC2 (valC1 V0)
/-- The buffers the stretch writes. -/
abbrev wC2_W : List (Ref sig .tc) := [main_v180, main_v181, main_v182, main_v183, main_v184, main_v185, main_v186, main_v187, main_v188, main_v189, main_v190, main_v191, main_v192, main_v193, main_v194, main_v195, main_v196, main_v197, main_v198, main_v199, main_v200, main_v201, main_v202]
set_option maxRecDepth 8192 in
theorem wC2_writes : (wC2 : List (HloOp τ sig (Elt F))).Forall fun op => op.writes ⊆ (wC2_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem valC2_keep (V0 : Valuation τ sig (Elt F)) (r : Ref sig .tc) (h : r ∉ wC2_W) :
    valC2 V0 (no_index (Proc.devRef .tc r)) = valC1 V0 (Proc.devRef .tc r) :=
  after_of_writes_sub wC2 _ wC2_writes h

set_option maxRecDepth 8192 in
theorem valC2_main_v180 (V0 : Valuation τ sig (Elt F)) : valC2 V0 (no_index (Proc.devRef .tc main_v180)) = chunk 7700 slices_S10000x384_S100x384_7700_0 (featV V0) (V0 (Proc.devRef .tc main_arg3)) := by
  unfold valC2
  simp only [wC2]
  after_results_simp
  try simp (disch := decide) only [valC1_keep, valC0_keep, valB1_keep, valB0_keep, valA_keep, valB1_main_v80]
  all_goals rfl
set_option maxRecDepth 8192 in
theorem valC2_main_v181 (V0 : Valuation τ sig (Elt F)) : valC2 V0 (no_index (Proc.devRef .tc main_v181)) = chunk 7800 slices_S10000x384_S100x384_7800_0 (featV V0) (V0 (Proc.devRef .tc main_arg3)) := by
  unfold valC2
  simp only [wC2]
  after_results_simp
  try simp (disch := decide) only [valC1_keep, valC0_keep, valB1_keep, valB0_keep, valA_keep, valB1_main_v81]
  all_goals rfl
set_option maxRecDepth 8192 in
theorem valC2_main_v182 (V0 : Valuation τ sig (Elt F)) : valC2 V0 (no_index (Proc.devRef .tc main_v182)) = chunk 7900 slices_S10000x384_S100x384_7900_0 (featV V0) (V0 (Proc.devRef .tc main_arg3)) := by
  unfold valC2
  simp only [wC2]
  after_results_simp
  try simp (disch := decide) only [valC1_keep, valC0_keep, valB1_keep, valB0_keep, valA_keep, valB1_main_v82]
  all_goals rfl
set_option maxRecDepth 8192 in
theorem valC2_main_v183 (V0 : Valuation τ sig (Elt F)) : valC2 V0 (no_index (Proc.devRef .tc main_v183)) = chunk 8000 slices_S10000x384_S100x384_8000_0 (featV V0) (V0 (Proc.devRef .tc main_arg3)) := by
  unfold valC2
  simp only [wC2]
  after_results_simp
  try simp (disch := decide) only [valC1_keep, valC0_keep, valB1_keep, valB0_keep, valA_keep, valB1_main_v83]
  all_goals rfl
set_option maxRecDepth 8192 in
theorem valC2_main_v184 (V0 : Valuation τ sig (Elt F)) : valC2 V0 (no_index (Proc.devRef .tc main_v184)) = chunk 8100 slices_S10000x384_S100x384_8100_0 (featV V0) (V0 (Proc.devRef .tc main_arg3)) := by
  unfold valC2
  simp only [wC2]
  after_results_simp
  try simp (disch := decide) only [valC1_keep, valC0_keep, valB1_keep, valB0_keep, valA_keep, valB1_main_v84]
  all_goals rfl
set_option maxRecDepth 8192 in
theorem valC2_main_v185 (V0 : Valuation τ sig (Elt F)) : valC2 V0 (no_index (Proc.devRef .tc main_v185)) = chunk 8200 slices_S10000x384_S100x384_8200_0 (featV V0) (V0 (Proc.devRef .tc main_arg3)) := by
  unfold valC2
  simp only [wC2]
  after_results_simp
  try simp (disch := decide) only [valC1_keep, valC0_keep, valB1_keep, valB0_keep, valA_keep, valB1_main_v85]
  all_goals rfl
set_option maxRecDepth 8192 in
theorem valC2_main_v186 (V0 : Valuation τ sig (Elt F)) : valC2 V0 (no_index (Proc.devRef .tc main_v186)) = chunk 8300 slices_S10000x384_S100x384_8300_0 (featV V0) (V0 (Proc.devRef .tc main_arg3)) := by
  unfold valC2
  simp only [wC2]
  after_results_simp
  try simp (disch := decide) only [valC1_keep, valC0_keep, valB1_keep, valB0_keep, valA_keep, valB1_main_v86]
  all_goals rfl
set_option maxRecDepth 8192 in
theorem valC2_main_v187 (V0 : Valuation τ sig (Elt F)) : valC2 V0 (no_index (Proc.devRef .tc main_v187)) = chunk 8400 slices_S10000x384_S100x384_8400_0 (featV V0) (V0 (Proc.devRef .tc main_arg3)) := by
  unfold valC2
  simp only [wC2]
  after_results_simp
  try simp (disch := decide) only [valC1_keep, valC0_keep, valB1_keep, valB0_keep, valA_keep, valB1_main_v87]
  all_goals rfl
set_option maxRecDepth 8192 in
theorem valC2_main_v188 (V0 : Valuation τ sig (Elt F)) : valC2 V0 (no_index (Proc.devRef .tc main_v188)) = chunk 8500 slices_S10000x384_S100x384_8500_0 (featV V0) (V0 (Proc.devRef .tc main_arg3)) := by
  unfold valC2
  simp only [wC2]
  after_results_simp
  try simp (disch := decide) only [valC1_keep, valC0_keep, valB1_keep, valB0_keep, valA_keep, valB1_main_v88]
  all_goals rfl
set_option maxRecDepth 8192 in
theorem valC2_main_v189 (V0 : Valuation τ sig (Elt F)) : valC2 V0 (no_index (Proc.devRef .tc main_v189)) = chunk 8600 slices_S10000x384_S100x384_8600_0 (featV V0) (V0 (Proc.devRef .tc main_arg3)) := by
  unfold valC2
  simp only [wC2]
  after_results_simp
  try simp (disch := decide) only [valC1_keep, valC0_keep, valB1_keep, valB0_keep, valA_keep, valB1_main_v89]
  all_goals rfl
set_option maxRecDepth 8192 in
theorem valC2_main_v190 (V0 : Valuation τ sig (Elt F)) : valC2 V0 (no_index (Proc.devRef .tc main_v190)) = chunk 8700 slices_S10000x384_S100x384_8700_0 (featV V0) (V0 (Proc.devRef .tc main_arg3)) := by
  unfold valC2
  simp only [wC2]
  after_results_simp
  try simp (disch := decide) only [valC1_keep, valC0_keep, valB1_keep, valB0_keep, valA_keep, valB1_main_v90]
  all_goals rfl
set_option maxRecDepth 8192 in
theorem valC2_main_v191 (V0 : Valuation τ sig (Elt F)) : valC2 V0 (no_index (Proc.devRef .tc main_v191)) = chunk 8800 slices_S10000x384_S100x384_8800_0 (featV V0) (V0 (Proc.devRef .tc main_arg3)) := by
  unfold valC2
  simp only [wC2]
  after_results_simp
  try simp (disch := decide) only [valC1_keep, valC0_keep, valB1_keep, valB0_keep, valA_keep, valB1_main_v91]
  all_goals rfl
set_option maxRecDepth 8192 in
theorem valC2_main_v192 (V0 : Valuation τ sig (Elt F)) : valC2 V0 (no_index (Proc.devRef .tc main_v192)) = chunk 8900 slices_S10000x384_S100x384_8900_0 (featV V0) (V0 (Proc.devRef .tc main_arg3)) := by
  unfold valC2
  simp only [wC2]
  after_results_simp
  try simp (disch := decide) only [valC1_keep, valC0_keep, valB1_keep, valB0_keep, valA_keep, valB1_main_v92]
  all_goals rfl
set_option maxRecDepth 8192 in
theorem valC2_main_v193 (V0 : Valuation τ sig (Elt F)) : valC2 V0 (no_index (Proc.devRef .tc main_v193)) = chunk 9000 slices_S10000x384_S100x384_9000_0 (featV V0) (V0 (Proc.devRef .tc main_arg3)) := by
  unfold valC2
  simp only [wC2]
  after_results_simp
  try simp (disch := decide) only [valC1_keep, valC0_keep, valB1_keep, valB0_keep, valA_keep, valB1_main_v93]
  all_goals rfl
set_option maxRecDepth 8192 in
theorem valC2_main_v194 (V0 : Valuation τ sig (Elt F)) : valC2 V0 (no_index (Proc.devRef .tc main_v194)) = chunk 9100 slices_S10000x384_S100x384_9100_0 (featV V0) (V0 (Proc.devRef .tc main_arg3)) := by
  unfold valC2
  simp only [wC2]
  after_results_simp
  try simp (disch := decide) only [valC1_keep, valC0_keep, valB1_keep, valB0_keep, valA_keep, valB1_main_v94]
  all_goals rfl
set_option maxRecDepth 8192 in
theorem valC2_main_v195 (V0 : Valuation τ sig (Elt F)) : valC2 V0 (no_index (Proc.devRef .tc main_v195)) = chunk 9200 slices_S10000x384_S100x384_9200_0 (featV V0) (V0 (Proc.devRef .tc main_arg3)) := by
  unfold valC2
  simp only [wC2]
  after_results_simp
  try simp (disch := decide) only [valC1_keep, valC0_keep, valB1_keep, valB0_keep, valA_keep, valB1_main_v95]
  all_goals rfl
set_option maxRecDepth 8192 in
theorem valC2_main_v196 (V0 : Valuation τ sig (Elt F)) : valC2 V0 (no_index (Proc.devRef .tc main_v196)) = chunk 9300 slices_S10000x384_S100x384_9300_0 (featV V0) (V0 (Proc.devRef .tc main_arg3)) := by
  unfold valC2
  simp only [wC2]
  after_results_simp
  try simp (disch := decide) only [valC1_keep, valC0_keep, valB1_keep, valB0_keep, valA_keep, valB1_main_v96]
  all_goals rfl
set_option maxRecDepth 8192 in
theorem valC2_main_v197 (V0 : Valuation τ sig (Elt F)) : valC2 V0 (no_index (Proc.devRef .tc main_v197)) = chunk 9400 slices_S10000x384_S100x384_9400_0 (featV V0) (V0 (Proc.devRef .tc main_arg3)) := by
  unfold valC2
  simp only [wC2]
  after_results_simp
  try simp (disch := decide) only [valC1_keep, valC0_keep, valB1_keep, valB0_keep, valA_keep, valB1_main_v97]
  all_goals rfl
set_option maxRecDepth 8192 in
theorem valC2_main_v198 (V0 : Valuation τ sig (Elt F)) : valC2 V0 (no_index (Proc.devRef .tc main_v198)) = chunk 9500 slices_S10000x384_S100x384_9500_0 (featV V0) (V0 (Proc.devRef .tc main_arg3)) := by
  unfold valC2
  simp only [wC2]
  after_results_simp
  try simp (disch := decide) only [valC1_keep, valC0_keep, valB1_keep, valB0_keep, valA_keep, valB1_main_v98]
  all_goals rfl
set_option maxRecDepth 8192 in
theorem valC2_main_v199 (V0 : Valuation τ sig (Elt F)) : valC2 V0 (no_index (Proc.devRef .tc main_v199)) = chunk 9600 slices_S10000x384_S100x384_9600_0 (featV V0) (V0 (Proc.devRef .tc main_arg3)) := by
  unfold valC2
  simp only [wC2]
  after_results_simp
  try simp (disch := decide) only [valC1_keep, valC0_keep, valB1_keep, valB0_keep, valA_keep, valB1_main_v99]
  all_goals rfl
set_option maxRecDepth 8192 in
theorem valC2_main_v200 (V0 : Valuation τ sig (Elt F)) : valC2 V0 (no_index (Proc.devRef .tc main_v200)) = chunk 9700 slices_S10000x384_S100x384_9700_0 (featV V0) (V0 (Proc.devRef .tc main_arg3)) := by
  unfold valC2
  simp only [wC2]
  after_results_simp
  try simp (disch := decide) only [valC1_keep, valC0_keep, valB1_keep, valB0_keep, valA_keep, valB1_main_v100]
  all_goals rfl
set_option maxRecDepth 8192 in
theorem valC2_main_v201 (V0 : Valuation τ sig (Elt F)) : valC2 V0 (no_index (Proc.devRef .tc main_v201)) = chunk 9800 slices_S10000x384_S100x384_9800_0 (featV V0) (V0 (Proc.devRef .tc main_arg3)) := by
  unfold valC2
  simp only [wC2]
  after_results_simp
  try simp (disch := decide) only [valC1_keep, valC0_keep, valB1_keep, valB0_keep, valA_keep, valB1_main_v101]
  all_goals rfl
set_option maxRecDepth 8192 in
theorem valC2_main_v202 (V0 : Valuation τ sig (Elt F)) : valC2 V0 (no_index (Proc.devRef .tc main_v202)) = chunk 9900 slices_S10000x384_S100x384_9900_0 (featV V0) (V0 (Proc.devRef .tc main_arg3)) := by
  unfold valC2
  simp only [wC2]
  after_results_simp
  try simp (disch := decide) only [valC1_keep, valC0_keep, valB1_keep, valB0_keep, valA_keep, valB1_main_v102]
  all_goals rfl

/-- The contents after the stretch `wD1`. -/
def valD1 (V0 : Valuation τ sig (Elt F)) : Valuation τ sig (Elt F) := after wD1 (valC2 V0)
/-- The buffers the stretch writes. -/
abbrev wD1_W : List (Ref sig .tc) := [main_v203, main_v204, main_v205, main_v206, main_v207, main_v208, main_v209]
set_option maxRecDepth 8192 in
theorem wD1_writes : (wD1 : List (HloOp τ sig (Elt F))).Forall fun op => op.writes ⊆ (wD1_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem valD1_keep (V0 : Valuation τ sig (Elt F)) (r : Ref sig .tc) (h : r ∉ wD1_W) :
    valD1 V0 (no_index (Proc.devRef .tc r)) = valC2 V0 (Proc.devRef .tc r) :=
  after_of_writes_sub wD1 _ wD1_writes h

set_option maxRecDepth 8192 in
set_option maxHeartbeats 1000000 in
theorem valD1_main_v203 (V0 : Valuation τ sig (Elt F)) : valD1 V0 (no_index (Proc.devRef .tc main_v203)) = grp0 (featV V0) (V0 (Proc.devRef .tc main_arg3)) := by
  unfold valD1
  simp only [wD1]
  after_results_simp
  try dsimp only [Matrix.cons_val]
  try after_results_simp
  exact stack16_congr
    ((valC2_keep V0 main_v103 (by decide)).trans ((valC1_keep V0 main_v103 (by decide)).trans (valC0_main_v103 V0)))
    ((valC2_keep V0 main_v104 (by decide)).trans ((valC1_keep V0 main_v104 (by decide)).trans (valC0_main_v104 V0)))
    ((valC2_keep V0 main_v105 (by decide)).trans ((valC1_keep V0 main_v105 (by decide)).trans (valC0_main_v105 V0)))
    ((valC2_keep V0 main_v106 (by decide)).trans ((valC1_keep V0 main_v106 (by decide)).trans (valC0_main_v106 V0)))
    ((valC2_keep V0 main_v107 (by decide)).trans ((valC1_keep V0 main_v107 (by decide)).trans (valC0_main_v107 V0)))
    ((valC2_keep V0 main_v108 (by decide)).trans ((valC1_keep V0 main_v108 (by decide)).trans (valC0_main_v108 V0)))
    ((valC2_keep V0 main_v109 (by decide)).trans ((valC1_keep V0 main_v109 (by decide)).trans (valC0_main_v109 V0)))
    ((valC2_keep V0 main_v110 (by decide)).trans ((valC1_keep V0 main_v110 (by decide)).trans (valC0_main_v110 V0)))
    ((valC2_keep V0 main_v111 (by decide)).trans ((valC1_keep V0 main_v111 (by decide)).trans (valC0_main_v111 V0)))
    ((valC2_keep V0 main_v112 (by decide)).trans ((valC1_keep V0 main_v112 (by decide)).trans (valC0_main_v112 V0)))
    ((valC2_keep V0 main_v113 (by decide)).trans ((valC1_keep V0 main_v113 (by decide)).trans (valC0_main_v113 V0)))
    ((valC2_keep V0 main_v114 (by decide)).trans ((valC1_keep V0 main_v114 (by decide)).trans (valC0_main_v114 V0)))
    ((valC2_keep V0 main_v115 (by decide)).trans ((valC1_keep V0 main_v115 (by decide)).trans (valC0_main_v115 V0)))
    ((valC2_keep V0 main_v116 (by decide)).trans ((valC1_keep V0 main_v116 (by decide)).trans (valC0_main_v116 V0)))
    ((valC2_keep V0 main_v117 (by decide)).trans ((valC1_keep V0 main_v117 (by decide)).trans (valC0_main_v117 V0)))
    ((valC2_keep V0 main_v118 (by decide)).trans ((valC1_keep V0 main_v118 (by decide)).trans (valC0_main_v118 V0)))
set_option maxRecDepth 8192 in
set_option maxHeartbeats 1000000 in
theorem valD1_main_v204 (V0 : Valuation τ sig (Elt F)) : valD1 V0 (no_index (Proc.devRef .tc main_v204)) = grp1 (featV V0) (V0 (Proc.devRef .tc main_arg3)) := by
  unfold valD1
  simp only [wD1]
  after_results_simp
  try dsimp only [Matrix.cons_val]
  try after_results_simp
  exact stack16_congr
    ((valC2_keep V0 main_v119 (by decide)).trans ((valC1_keep V0 main_v119 (by decide)).trans (valC0_main_v119 V0)))
    ((valC2_keep V0 main_v120 (by decide)).trans (valC1_main_v120 V0))
    ((valC2_keep V0 main_v121 (by decide)).trans (valC1_main_v121 V0))
    ((valC2_keep V0 main_v122 (by decide)).trans (valC1_main_v122 V0))
    ((valC2_keep V0 main_v123 (by decide)).trans (valC1_main_v123 V0))
    ((valC2_keep V0 main_v124 (by decide)).trans (valC1_main_v124 V0))
    ((valC2_keep V0 main_v125 (by decide)).trans (valC1_main_v125 V0))
    ((valC2_keep V0 main_v126 (by decide)).trans (valC1_main_v126 V0))
    ((valC2_keep V0 main_v127 (by decide)).trans (valC1_main_v127 V0))
    ((valC2_keep V0 main_v128 (by decide)).trans (valC1_main_v128 V0))
    ((valC2_keep V0 main_v129 (by decide)).trans (valC1_main_v129 V0))
    ((valC2_keep V0 main_v130 (by decide)).trans (valC1_main_v130 V0))
    ((valC2_keep V0 main_v131 (by decide)).trans (valC1_main_v131 V0))
    ((valC2_keep V0 main_v132 (by decide)).trans (valC1_main_v132 V0))
    ((valC2_keep V0 main_v133 (by decide)).trans (valC1_main_v133 V0))
    ((valC2_keep V0 main_v134 (by decide)).trans (valC1_main_v134 V0))
set_option maxRecDepth 8192 in
set_option maxHeartbeats 1000000 in
theorem valD1_main_v205 (V0 : Valuation τ sig (Elt F)) : valD1 V0 (no_index (Proc.devRef .tc main_v205)) = grp2 (featV V0) (V0 (Proc.devRef .tc main_arg3)) := by
  unfold valD1
  simp only [wD1]
  after_results_simp
  try dsimp only [Matrix.cons_val]
  try after_results_simp
  exact stack16_congr
    ((valC2_keep V0 main_v135 (by decide)).trans (valC1_main_v135 V0))
    ((valC2_keep V0 main_v136 (by decide)).trans (valC1_main_v136 V0))
    ((valC2_keep V0 main_v137 (by decide)).trans (valC1_main_v137 V0))
    ((valC2_keep V0 main_v138 (by decide)).trans (valC1_main_v138 V0))
    ((valC2_keep V0 main_v139 (by decide)).trans (valC1_main_v139 V0))
    ((valC2_keep V0 main_v140 (by decide)).trans (valC1_main_v140 V0))
    ((valC2_keep V0 main_v141 (by decide)).trans (valC1_main_v141 V0))
    ((valC2_keep V0 main_v142 (by decide)).trans (valC1_main_v142 V0))
    ((valC2_keep V0 main_v143 (by decide)).trans (valC1_main_v143 V0))
    ((valC2_keep V0 main_v144 (by decide)).trans (valC1_main_v144 V0))
    ((valC2_keep V0 main_v145 (by decide)).trans (valC1_main_v145 V0))
    ((valC2_keep V0 main_v146 (by decide)).trans (valC1_main_v146 V0))
    ((valC2_keep V0 main_v147 (by decide)).trans (valC1_main_v147 V0))
    ((valC2_keep V0 main_v148 (by decide)).trans (valC1_main_v148 V0))
    ((valC2_keep V0 main_v149 (by decide)).trans (valC1_main_v149 V0))
    ((valC2_keep V0 main_v150 (by decide)).trans (valC1_main_v150 V0))
set_option maxRecDepth 8192 in
set_option maxHeartbeats 1000000 in
theorem valD1_main_v206 (V0 : Valuation τ sig (Elt F)) : valD1 V0 (no_index (Proc.devRef .tc main_v206)) = grp3 (featV V0) (V0 (Proc.devRef .tc main_arg3)) := by
  unfold valD1
  simp only [wD1]
  after_results_simp
  try dsimp only [Matrix.cons_val]
  try after_results_simp
  exact stack16_congr
    ((valC2_keep V0 main_v151 (by decide)).trans (valC1_main_v151 V0))
    ((valC2_keep V0 main_v152 (by decide)).trans (valC1_main_v152 V0))
    ((valC2_keep V0 main_v153 (by decide)).trans (valC1_main_v153 V0))
    ((valC2_keep V0 main_v154 (by decide)).trans (valC1_main_v154 V0))
    ((valC2_keep V0 main_v155 (by decide)).trans (valC1_main_v155 V0))
    ((valC2_keep V0 main_v156 (by decide)).trans (valC1_main_v156 V0))
    ((valC2_keep V0 main_v157 (by decide)).trans (valC1_main_v157 V0))
    ((valC2_keep V0 main_v158 (by decide)).trans (valC1_main_v158 V0))
    ((valC2_keep V0 main_v159 (by decide)).trans (valC1_main_v159 V0))
    ((valC2_keep V0 main_v160 (by decide)).trans (valC1_main_v160 V0))
    ((valC2_keep V0 main_v161 (by decide)).trans (valC1_main_v161 V0))
    ((valC2_keep V0 main_v162 (by decide)).trans (valC1_main_v162 V0))
    ((valC2_keep V0 main_v163 (by decide)).trans (valC1_main_v163 V0))
    ((valC2_keep V0 main_v164 (by decide)).trans (valC1_main_v164 V0))
    ((valC2_keep V0 main_v165 (by decide)).trans (valC1_main_v165 V0))
    ((valC2_keep V0 main_v166 (by decide)).trans (valC1_main_v166 V0))
set_option maxRecDepth 8192 in
set_option maxHeartbeats 1000000 in
theorem valD1_main_v207 (V0 : Valuation τ sig (Elt F)) : valD1 V0 (no_index (Proc.devRef .tc main_v207)) = grp4 (featV V0) (V0 (Proc.devRef .tc main_arg3)) := by
  unfold valD1
  simp only [wD1]
  after_results_simp
  try dsimp only [Matrix.cons_val]
  try after_results_simp
  exact stack16_congr
    ((valC2_keep V0 main_v167 (by decide)).trans (valC1_main_v167 V0))
    ((valC2_keep V0 main_v168 (by decide)).trans (valC1_main_v168 V0))
    ((valC2_keep V0 main_v169 (by decide)).trans (valC1_main_v169 V0))
    ((valC2_keep V0 main_v170 (by decide)).trans (valC1_main_v170 V0))
    ((valC2_keep V0 main_v171 (by decide)).trans (valC1_main_v171 V0))
    ((valC2_keep V0 main_v172 (by decide)).trans (valC1_main_v172 V0))
    ((valC2_keep V0 main_v173 (by decide)).trans (valC1_main_v173 V0))
    ((valC2_keep V0 main_v174 (by decide)).trans (valC1_main_v174 V0))
    ((valC2_keep V0 main_v175 (by decide)).trans (valC1_main_v175 V0))
    ((valC2_keep V0 main_v176 (by decide)).trans (valC1_main_v176 V0))
    ((valC2_keep V0 main_v177 (by decide)).trans (valC1_main_v177 V0))
    ((valC2_keep V0 main_v178 (by decide)).trans (valC1_main_v178 V0))
    ((valC2_keep V0 main_v179 (by decide)).trans (valC1_main_v179 V0))
    (valC2_main_v180 V0)
    (valC2_main_v181 V0)
    (valC2_main_v182 V0)
set_option maxRecDepth 8192 in
set_option maxHeartbeats 1000000 in
theorem valD1_main_v208 (V0 : Valuation τ sig (Elt F)) : valD1 V0 (no_index (Proc.devRef .tc main_v208)) = grp5 (featV V0) (V0 (Proc.devRef .tc main_arg3)) := by
  unfold valD1
  simp only [wD1]
  after_results_simp
  try dsimp only [Matrix.cons_val]
  try after_results_simp
  exact stack16_congr
    (valC2_main_v183 V0)
    (valC2_main_v184 V0)
    (valC2_main_v185 V0)
    (valC2_main_v186 V0)
    (valC2_main_v187 V0)
    (valC2_main_v188 V0)
    (valC2_main_v189 V0)
    (valC2_main_v190 V0)
    (valC2_main_v191 V0)
    (valC2_main_v192 V0)
    (valC2_main_v193 V0)
    (valC2_main_v194 V0)
    (valC2_main_v195 V0)
    (valC2_main_v196 V0)
    (valC2_main_v197 V0)
    (valC2_main_v198 V0)
set_option maxRecDepth 8192 in
set_option maxHeartbeats 1000000 in
theorem valD1_main_v209 (V0 : Valuation τ sig (Elt F)) : valD1 V0 (no_index (Proc.devRef .tc main_v209)) = grp6 (featV V0) (V0 (Proc.devRef .tc main_arg3)) := by
  unfold valD1
  simp only [wD1]
  after_results_simp
  try dsimp only [Matrix.cons_val]
  try after_results_simp
  exact stack4_congr
    (valC2_main_v199 V0)
    (valC2_main_v200 V0)
    (valC2_main_v201 V0)
    (valC2_main_v202 V0)

/-- The contents after the stretch `wD2`. -/
def valD2 (V0 : Valuation τ sig (Elt F)) : Valuation τ sig (Elt F) := after wD2 (valD1 V0)
/-- The buffers the stretch writes. -/
abbrev wD2_W : List (Ref sig .tc) := [main_v210]
set_option maxRecDepth 8192 in
theorem wD2_writes : (wD2 : List (HloOp τ sig (Elt F))).Forall fun op => op.writes ⊆ (wD2_W.map (Proc.devRef (τ := τ) .tc)).toFinset := by
  simp only [List.Forall]; exact (by simp only [nullary_writes, unary_writes, binary_writes, ternary_writes, nary_writes, Finset.singleton_subset_iff, List.mem_toFinset]; exact List.mem_map_of_mem (by decide))
/-- A buffer the stretch does not write keeps its contents through it. -/
theorem valD2_keep (V0 : Valuation τ sig (Elt F)) (r : Ref sig .tc) (h : r ∉ wD2_W) :
    valD2 V0 (no_index (Proc.devRef .tc r)) = valD1 V0 (Proc.devRef .tc r) :=
  after_of_writes_sub wD2 _ wD2_writes h

set_option maxRecDepth 8192 in
set_option maxHeartbeats 1000000 in
theorem valD2_main_v210 (V0 : Valuation τ sig (Elt F)) : valD2 V0 (no_index (Proc.devRef .tc main_v210)) = lin (featV V0) (V0 (Proc.devRef .tc main_arg3)) := by
  unfold valD2
  simp only [wD2]
  after_results_simp
  try dsimp only [Matrix.cons_val]
  try after_results_simp
  exact lin_of_groups _ _ (valD1_main_v203 V0) (valD1_main_v204 V0) (valD1_main_v205 V0) (valD1_main_v206 V0) (valD1_main_v207 V0) (valD1_main_v208 V0) (valD1_main_v209 V0)

/-- The contents after the stretch `wE`. -/
def valE (V0 : Valuation τ sig (Elt F)) : Valuation τ sig (Elt F) := after wE (valD2 V0)
/-- The buffers the stretch writes. -/
abbrev wE_W : List (Ref sig .tc) := [main_cst, main_call0_cst, main_call0_v0, main_call0_v1, main_call0_v2, main_call0_v3, main_call0_v4, main_v211]
set_option maxRecDepth 8192 in
theorem wE_writes : (wE : List (HloOp τ sig (Elt F))).Forall fun op => op.writes ⊆ (wE_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩
/-- A buffer the stretch does not write keeps its contents through it. -/
theorem valE_keep (V0 : Valuation τ sig (Elt F)) (r : Ref sig .tc) (h : r ∉ wE_W) :
    valE V0 (no_index (Proc.devRef .tc r)) = valD2 V0 (Proc.devRef .tc r) :=
  after_of_writes_sub wE _ wE_writes h

set_option maxRecDepth 8192 in
set_option maxHeartbeats 1000000 in
theorem valE_main_v211 (V0 : Valuation τ sig (Elt F)) : valE V0 (no_index (Proc.devRef .tc main_v211)) = outV V0 := by
  unfold valE
  simp only [wE]
  after_results_simp
  try simp (disch := decide) only [valD2_main_v210]
  all_goals rfl

/-! ## The whole fold -/

/-- The fold over the whole list is the last stretch's contents. -/
theorem after_ops (V0 : Valuation τ sig (Elt F)) : after ops V0 = valE V0 := by
  simp only [ops, ops0, ops1, ops2, ops3, after_app]
  rfl

/-- A buffer no stretch writes — an argument — ends as it began. -/
theorem valE_of_not_written (V0 : Valuation τ sig (Elt F)) (r : Ref sig .tc) (hA : r ∉ wA_W) (hB0 : r ∉ wB0_W) (hB1 : r ∉ wB1_W) (hC0 : r ∉ wC0_W) (hC1 : r ∉ wC1_W) (hC2 : r ∉ wC2_W) (hD1 : r ∉ wD1_W) (hD2 : r ∉ wD2_W) (hE : r ∉ wE_W) :
    valE V0 (Proc.devRef .tc r) = V0 (Proc.devRef .tc r) :=
  (valE_keep V0 r hE).trans ((valD2_keep V0 r hD2).trans ((valD1_keep V0 r hD1).trans ((valC2_keep V0 r hC2).trans ((valC1_keep V0 r hC1).trans ((valC0_keep V0 r hC0).trans ((valB1_keep V0 r hB1).trans ((valB0_keep V0 r hB0).trans ((valA_keep V0 r hA)))))))))

/-- On every device, for any float values, from any memory with zero counters: every weakly fair execution of the
    program terminates with the result buffer at `out` of the four arguments' launch contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v211) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      :=
  (θ_run defs _ _).mono (fun _ h c => ⟨(h c main_v211).trans (by rw [after_ops]; exact valE_main_v211 _),
      (h c main_arg0).trans (by rw [after_ops]; exact valE_of_not_written _ main_arg0 (by decide) (by decide) (by decide) (by decide) (by decide) (by decide) (by decide) (by decide) (by decide)),
      (h c main_arg1).trans (by rw [after_ops]; exact valE_of_not_written _ main_arg1 (by decide) (by decide) (by decide) (by decide) (by decide) (by decide) (by decide) (by decide) (by decide)),
      (h c main_arg2).trans (by rw [after_ops]; exact valE_of_not_written _ main_arg2 (by decide) (by decide) (by decide) (by decide) (by decide) (by decide) (by decide) (by decide) (by decide)),
      (h c main_arg3).trans (by rw [after_ops]; exact valE_of_not_written _ main_arg3 (by decide) (by decide) (by decide) (by decide) (by decide) (by decide) (by decide) (by decide) (by decide))⟩)
    (run_after m ρ)

end Cert.ReferenceIdeal.RefValue

end
-- ==== Proof.RefIdx.lean ====
/-
  The reference's intermediate values read at an index, on the extended reals.

  A product with one contracted axis is the sum over that axis of the operands' entries; a slice of rows reads the
  row shifted by its offset; a stack of equal pieces reads piece `r / 100` at row `r % 100`; the three column ranges of
  the concatenated features are `ego`, `A_in · ego` and `A_out · ego`; and the rectifier, written with a broadcast
  zero and a broadcast slope, is the scalar rectifier at each entry.
-/
import proofs.«146782_g82085414961676_cont_9to1_m_158_1_alg».proof.Proof.RefTerms
import proofs.«146782_g82085414961676_cont_9to1_m_158_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The two products' index maps, coordinate by coordinate -/

open Idealize.ShloMosaic.ValueIdx
open scoped BigOperators

local notation "DA" => dot_S10000x10000_S10000x128_S10000x128_1_0_0_1_n_n
local notation "DW" => dot_S100x384_S384x128_S100x128_1_0_0_1_n_n

theorem DA_lhs0 (i : S10000x128.Idx) (q : (DA).contr.Idx) : ((DA).lhsIdx i q 0).val = (i 0).val := by
  unfold DotDims.lhsIdx
  rw [dif_neg (show ¬(0 : Fin S10000x10000.rank) ∈ (DA).lhsBatch by decide), dif_pos (show (0 : Fin S10000x10000.rank) ∈ (DA).lhsNonContracting by decide)]
  rfl
theorem DA_lhs1 (i : S10000x128.Idx) (q : (DA).contr.Idx) : ((DA).lhsIdx i q 1).val = (q ⟨0, by decide⟩).val :=
  (DA).lhsIdx_val_of_single rfl i q
theorem DA_rhs0 (i : S10000x128.Idx) (q : (DA).contr.Idx) : ((DA).rhsIdx i q 0).val = (q ⟨0, by decide⟩).val :=
  (DA).rhsIdx_val_of_single rfl i q
theorem DA_rhs1 (i : S10000x128.Idx) (q : (DA).contr.Idx) : ((DA).rhsIdx i q 1).val = (i 1).val := by
  unfold DotDims.rhsIdx
  rw [dif_neg (show ¬(1 : Fin S10000x128.rank) ∈ (DA).rhsBatch by decide), dif_pos (show (1 : Fin S10000x128.rank) ∈ (DA).rhsNonContracting by decide)]
  rfl

/-- Entry (i, o) of A · ego is the sum over k of A (i, k) · ego (k, o). -/
theorem adj_apply (A : S10000x10000.Idx → EReal) (E : S10000x128.Idx → EReal) (i : Fin 10000) (o : Fin 128) :
    adj (F := Ideal) A E (ix2 i o) = ∑ k : Fin 10000, A (ix2 i k) * E (ix2 k o) := by
  unfold adj
  simp only [Host.dotGeneral]
  rw [Ideal.dotGeneral_apply, ← Equiv.sum_comp (contrEquiv1 DA 10000 rfl rfl).symm]
  refine Finset.sum_congr rfl fun k _ => ?_
  have hk := contrEquiv1_symm_val DA 10000 rfl rfl k
  have el : (DA).lhsIdx (ix2 i o) ((contrEquiv1 DA 10000 rfl rfl).symm k) = ix2 i k := funext fun a => Fin.ext (by
    match a with
    | ⟨0, _⟩ => exact DA_lhs0 _ _
    | ⟨1, _⟩ => exact (DA_lhs1 _ _).trans hk)
  have er : (DA).rhsIdx (ix2 i o) ((contrEquiv1 DA 10000 rfl rfl).symm k) = ix2 k o := funext fun a => Fin.ext (by
    match a with
    | ⟨0, _⟩ => exact (DA_rhs0 _ _).trans hk
    | ⟨1, _⟩ => exact DA_rhs1 _ _)
  rw [el, er]

theorem DW_lhs0 (i : S100x128.Idx) (q : (DW).contr.Idx) : ((DW).lhsIdx i q 0).val = (i 0).val := by
  unfold DotDims.lhsIdx
  rw [dif_neg (show ¬(0 : Fin S100x384.rank) ∈ (DW).lhsBatch by decide), dif_pos (show (0 : Fin S100x384.rank) ∈ (DW).lhsNonContracting by decide)]
  rfl
theorem DW_lhs1 (i : S100x128.Idx) (q : (DW).contr.Idx) : ((DW).lhsIdx i q 1).val = (q ⟨0, by decide⟩).val :=
  (DW).lhsIdx_val_of_single rfl i q
theorem DW_rhs0 (i : S100x128.Idx) (q : (DW).contr.Idx) : ((DW).rhsIdx i q 0).val = (q ⟨0, by decide⟩).val :=
  (DW).rhsIdx_val_of_single rfl i q
theorem DW_rhs1 (i : S100x128.Idx) (q : (DW).contr.Idx) : ((DW).rhsIdx i q 1).val = (i 1).val := by
  unfold DotDims.rhsIdx
  rw [dif_neg (show ¬(1 : Fin S384x128.rank) ∈ (DW).rhsBatch by decide), dif_pos (show (1 : Fin S384x128.rank) ∈ (DW).rhsNonContracting by decide)]
  rfl

/-- Entry (r, o) of the product of rows off … off + 99 of X with W is the sum over c of X (off + r, c) · W (c, o). -/
theorem chunk_apply (off : Nat) (h : S10000x384.Slices ![off, 0] S100x384) (X : S10000x384.Idx → EReal) (W : S384x128.Idx → EReal)
    (r : Fin 100) (o : Fin 128) (i : Fin 10000) (hi : i.val = off + r.val) :
    chunk (F := Ideal) off h X W (ix2 r o) = ∑ c : Fin 384, X (ix2 i c) * W (ix2 c o) := by
  unfold chunk
  simp only [Host.dotGeneral]
  rw [Ideal.dotGeneral_apply, ← Equiv.sum_comp (contrEquiv1 DW 384 rfl rfl).symm]
  refine Finset.sum_congr rfl fun k _ => ?_
  have hk := contrEquiv1_symm_val DW 384 rfl rfl k
  have el : (DW).lhsIdx (ix2 r o) ((contrEquiv1 DW 384 rfl rfl).symm k) = ix2 r k := funext fun a => Fin.ext (by
    match a with
    | ⟨0, _⟩ => exact DW_lhs0 _ _
    | ⟨1, _⟩ => exact (DW_lhs1 _ _).trans hk)
  have er : (DW).rhsIdx (ix2 r o) ((contrEquiv1 DW 384 rfl rfl).symm k) = ix2 k o := funext fun a => Fin.ext (by
    match a with
    | ⟨0, _⟩ => exact (DW_rhs0 _ _).trans hk
    | ⟨1, _⟩ => exact DW_rhs1 _ _)
  rw [el, er]
  refine congrArg (· * W (ix2 k o)) ?_
  exact extractStridedSlice_apply ![off, 0] X h (ix2 r k) (ix2 i k) (fun a => by
    match a with
    | ⟨0, _⟩ => exact hi
    | ⟨1, _⟩ => exact (Nat.zero_add _).symm)

/-- Rows off … off + 99 lie inside the 10000 rows whenever off ≤ 9900. -/
theorem slices_of_le (off : Nat) (h : off ≤ 9900) : S10000x384.Slices ![off, 0] S100x384 :=
  ⟨rfl, fun a => by
    match a with
    | ⟨0, _⟩ => show off + 100 ≤ 10000; omega
    | ⟨1, _⟩ => show 0 + 384 ≤ 384; omega⟩

/-- N consecutive chunk products from row base on, stacked along the rows: entry (r, o) is the sum over c of
    X (base + r, c) · W (c, o) — row r lies in piece r / 100, at its row r % 100. -/
theorem stack_apply {M N : Nat} (base : Nat) (hs : ∀ q : Fin N, S10000x384.Slices ![base + 100 * q.val, 0] S100x384)
    (X : S10000x384.Idx → EReal) (W : S384x128.Idx → EReal)
    (h : Shape.Concatenates ((List.ofFn fun q : Fin N => (⟨S100x128, chunk (F := Ideal) (base + 100 * q.val) (hs q) X W⟩ : (s : Shape) × (s.Idx → EReal))).map (·.1)) ⟨2, ![M, 128]⟩ 0)
    (r : Fin M) (o : Fin 128) (i : Fin 10000) (hi : i.val = base + r.val) (hN : r.val / 100 < N) :
    concatenate (⟨2, ![M, 128]⟩ : Shape) 0 (List.ofFn fun q : Fin N => (⟨S100x128, chunk (F := Ideal) (base + 100 * q.val) (hs q) X W⟩ : (s : Shape) × (s.Idx → EReal))) h (ix2 r o)
      = ∑ c : Fin 384, X (ix2 i c) * W (ix2 c o) := by
  refine (concatenate_ofFn_apply (t := ⟨2, ![M, 128]⟩) (s₁ := S100x128) (0 : Fin 2) (fun q : Fin N => chunk (F := Ideal) (base + 100 * q.val) (hs q) X W) h rfl 100 rfl (ix2 r o) ⟨r.val / 100, hN⟩ rfl
    (ix2 ⟨r.val % 100, Nat.mod_lt _ (by norm_num)⟩ o) rfl (fun b hb => by
      match b with
      | ⟨0, _⟩ => exact absurd rfl hb
      | ⟨1, _⟩ => rfl)).trans ?_
  exact chunk_apply _ _ X W _ o i (by have := Nat.div_add_mod r.val 100; show i.val = base + 100 * (r.val / 100) + r.val % 100; omega)

/-- Entry (i, c) of the concatenated features: the three column ranges. -/
theorem feat_apply (E : S10000x128.Idx → EReal) (A1 A2 : S10000x10000.Idx → EReal) (i : Fin 10000) (c : Fin 384) :
    feat (F := Ideal) E A1 A2 (ix2 i c) = Cert.Spec.cat E A1 A2 i c := by
  unfold feat Cert.Spec.cat
  have hi : ∀ (o : Fin 128) (b : Fin S10000x128.rank), b.cast (rfl : S10000x128.rank = S10000x384.rank) ≠ (1 : Fin 2) →
      ((ix2 i o : S10000x128.Idx) b).val = ((ix2 i c : S10000x384.Idx) (b.cast rfl)).val := fun o b hb => by
    match b with
    | ⟨0, _⟩ => rfl
    | ⟨1, _⟩ => exact absurd rfl hb
  by_cases h1 : c.val < 128
  · rw [dif_pos h1]
    exact concatenate_apply_piece (t := S10000x384) (1 : Fin 2) [⟨S10000x128, E⟩, ⟨S10000x128, adj (F := Ideal) A1 E⟩, ⟨S10000x128, adj (F := Ideal) A2 E⟩]
      concatenates_S10000x128_S10000x128_S10000x128_S10000x384_d1 (ix2 i c) 0 (Nat.zero_lt_succ _) S10000x128 E rfl rfl 0 rfl
      (ix2 i ⟨c.val, h1⟩) (hi _) (Nat.zero_add _)
  · rw [dif_neg h1]
    by_cases h2 : c.val < 256
    · rw [dif_pos h2]
      refine (concatenate_apply_piece (t := S10000x384) (1 : Fin 2) [⟨S10000x128, E⟩, ⟨S10000x128, adj (F := Ideal) A1 E⟩, ⟨S10000x128, adj (F := Ideal) A2 E⟩]
        concatenates_S10000x128_S10000x128_S10000x128_S10000x384_d1 (ix2 i c) 1 (by simp) S10000x128 (adj (F := Ideal) A1 E) rfl rfl 128 rfl
        (ix2 i ⟨c.val - 128, by omega⟩) (hi _) (by show 128 + (c.val - 128) = c.val; omega)).trans ?_
      exact adj_apply A1 E i _
    · rw [dif_neg h2]
      refine (concatenate_apply_piece (t := S10000x384) (1 : Fin 2) [⟨S10000x128, E⟩, ⟨S10000x128, adj (F := Ideal) A1 E⟩, ⟨S10000x128, adj (F := Ideal) A2 E⟩]
        concatenates_S10000x128_S10000x128_S10000x128_S10000x384_d1 (ix2 i c) 2 (by simp) S10000x128 (adj (F := Ideal) A2 E) rfl rfl 256 rfl
        (ix2 i ⟨c.val - 256, by have := c.isLt; omega⟩) (hi _) (by show 256 + (c.val - 256) = c.val; omega)).trans ?_
      exact adj_apply A2 E i _

/-- The rectifier as the program writes it, at one entry: the broadcast zero and slope read their one value. -/
theorem leakyOf_apply (z : S10000x128.Idx → EReal) (j : S10000x128.Idx) :
    leakyOf (F := Ideal) z j = Cert.Spec.leaky (z j) := rfl

end Cert.ReferenceIdeal.RefValue

end
-- ==== Proof.RefGroups.lean ====
/-
  The stacked chunk products read at an index: group `g` is the stack of chunks `16 g … 16 g + 15` (the last group: four),
  so its entry `(r, o)` is row `1600 g + r` of the features times column `o` of the weights; the seven groups stacked give
  every row `i` of the 10000, in group `i / 1600`.
-/
import proofs.«146782_g82085414961676_cont_9to1_m_158_1_alg».proof.Proof.RefIdx

noncomputable section

namespace Cert.ReferenceIdeal.RefValue

open Cert.ReferenceIdeal Cert.ReferenceIdeal.Gen Idealize.ShloMosaic Idealize.ShloMosaic.TcCoe Idealize.SL.Sem Idealize.ShloMosaic.StableHlo

open Idealize.ShloMosaic.ValueIdx
open scoped BigOperators

/-- Group 0 is the stack of its chunk products, piece `q` being the chunk at row `0 + 100 q`. -/
theorem grp0_eq (X : S10000x384.Idx → EReal) (W : S384x128.Idx → EReal) :
    grp0 (F := Ideal) X W = concatenate S1600x128 0 (List.ofFn fun q : Fin 16 =>
      (⟨S100x128, chunk (F := Ideal) (0 + 100 * q.val) (slices_of_le _ (by omega)) X W⟩ : (s : Shape) × (s.Idx → EReal))) concatenates_S100x128_S100x128_S100x128_S100x128_S100x128_S100x128_S100x128_S100x128_S100x128_S100x128_S100x128_S100x128_S100x128_S100x128_S100x128_S100x128_S1600x128_d0 := rfl
theorem grp0_apply (X : S10000x384.Idx → EReal) (W : S384x128.Idx → EReal) (r : Fin 1600) (o : Fin 128) (i : Fin 10000)
    (hi : i.val = 0 + r.val) : grp0 (F := Ideal) X W (ix2 r o) = ∑ c : Fin 384, X (ix2 i c) * W (ix2 c o) := by
  rw [grp0_eq]
  exact stack_apply 0 _ X W _ r o i hi (by omega)

/-- Group 1 is the stack of its chunk products, piece `q` being the chunk at row `1600 + 100 q`. -/
theorem grp1_eq (X : S10000x384.Idx → EReal) (W : S384x128.Idx → EReal) :
    grp1 (F := Ideal) X W = concatenate S1600x128 0 (List.ofFn fun q : Fin 16 =>
      (⟨S100x128, chunk (F := Ideal) (1600 + 100 * q.val) (slices_of_le _ (by omega)) X W⟩ : (s : Shape) × (s.Idx → EReal))) concatenates_S100x128_S100x128_S100x128_S100x128_S100x128_S100x128_S100x128_S100x128_S100x128_S100x128_S100x128_S100x128_S100x128_S100x128_S100x128_S100x128_S1600x128_d0 := rfl
theorem grp1_apply (X : S10000x384.Idx → EReal) (W : S384x128.Idx → EReal) (r : Fin 1600) (o : Fin 128) (i : Fin 10000)
    (hi : i.val = 1600 + r.val) : grp1 (F := Ideal) X W (ix2 r o) = ∑ c : Fin 384, X (ix2 i c) * W (ix2 c o) := by
  rw [grp1_eq]
  exact stack_apply 1600 _ X W _ r o i hi (by omega)

/-- Group 2 is the stack of its chunk products, piece `q` being the chunk at row `3200 + 100 q`. -/
theorem grp2_eq (X : S10000x384.Idx → EReal) (W : S384x128.Idx → EReal) :
    grp2 (F := Ideal) X W = concatenate S1600x128 0 (List.ofFn fun q : Fin 16 =>
      (⟨S100x128, chunk (F := Ideal) (3200 + 100 * q.val) (slices_of_le _ (by omega)) X W⟩ : (s : Shape) × (s.Idx → EReal))) concatenates_S100x128_S100x128_S100x128_S100x128_S100x128_S100x128_S100x128_S100x128_S100x128_S100x128_S100x128_S100x128_S100x128_S100x128_S100x128_S100x128_S1600x128_d0 := rfl
theorem grp2_apply (X : S10000x384.Idx → EReal) (W : S384x128.Idx → EReal) (r : Fin 1600) (o : Fin 128) (i : Fin 10000)
    (hi : i.val = 3200 + r.val) : grp2 (F := Ideal) X W (ix2 r o) = ∑ c : Fin 384, X (ix2 i c) * W (ix2 c o) := by
  rw [grp2_eq]
  exact stack_apply 3200 _ X W _ r o i hi (by omega)

/-- Group 3 is the stack of its chunk products, piece `q` being the chunk at row `4800 + 100 q`. -/
theorem grp3_eq (X : S10000x384.Idx → EReal) (W : S384x128.Idx → EReal) :
    grp3 (F := Ideal) X W = concatenate S1600x128 0 (List.ofFn fun q : Fin 16 =>
      (⟨S100x128, chunk (F := Ideal) (4800 + 100 * q.val) (slices_of_le _ (by omega)) X W⟩ : (s : Shape) × (s.Idx → EReal))) concatenates_S100x128_S100x128_S100x128_S100x128_S100x128_S100x128_S100x128_S100x128_S100x128_S100x128_S100x128_S100x128_S100x128_S100x128_S100x128_S100x128_S1600x128_d0 := rfl
theorem grp3_apply (X : S10000x384.Idx → EReal) (W : S384x128.Idx → EReal) (r : Fin 1600) (o : Fin 128) (i : Fin 10000)
    (hi : i.val = 4800 + r.val) : grp3 (F := Ideal) X W (ix2 r o) = ∑ c : Fin 384, X (ix2 i c) * W (ix2 c o) := by
  rw [grp3_eq]
  exact stack_apply 4800 _ X W _ r o i hi (by omega)

/-- Group 4 is the stack of its chunk products, piece `q` being the chunk at row `6400 + 100 q`. -/
theorem grp4_eq (X : S10000x384.Idx → EReal) (W : S384x128.Idx → EReal) :
    grp4 (F := Ideal) X W = concatenate S1600x128 0 (List.ofFn fun q : Fin 16 =>
      (⟨S100x128, chunk (F := Ideal) (6400 + 100 * q.val) (slices_of_le _ (by omega)) X W⟩ : (s : Shape) × (s.Idx → EReal))) concatenates_S100x128_S100x128_S100x128_S100x128_S100x128_S100x128_S100x128_S100x128_S100x128_S100x128_S100x128_S100x128_S100x128_S100x128_S100x128_S100x128_S1600x128_d0 := rfl
theorem grp4_apply (X : S10000x384.Idx → EReal) (W : S384x128.Idx → EReal) (r : Fin 1600) (o : Fin 128) (i : Fin 10000)
    (hi : i.val = 6400 + r.val) : grp4 (F := Ideal) X W (ix2 r o) = ∑ c : Fin 384, X (ix2 i c) * W (ix2 c o) := by
  rw [grp4_eq]
  exact stack_apply 6400 _ X W _ r o i hi (by omega)

/-- Group 5 is the stack of its chunk products, piece `q` being the chunk at row `8000 + 100 q`. -/
theorem grp5_eq (X : S10000x384.Idx → EReal) (W : S384x128.Idx → EReal) :
    grp5 (F := Ideal) X W = concatenate S1600x128 0 (List.ofFn fun q : Fin 16 =>
      (⟨S100x128, chunk (F := Ideal) (8000 + 100 * q.val) (slices_of_le _ (by omega)) X W⟩ : (s : Shape) × (s.Idx → EReal))) concatenates_S100x128_S100x128_S100x128_S100x128_S100x128_S100x128_S100x128_S100x128_S100x128_S100x128_S100x128_S100x128_S100x128_S100x128_S100x128_S100x128_S1600x128_d0 := rfl
theorem grp5_apply (X : S10000x384.Idx → EReal) (W : S384x128.Idx → EReal) (r : Fin 1600) (o : Fin 128) (i : Fin 10000)
    (hi : i.val = 8000 + r.val) : grp5 (F := Ideal) X W (ix2 r o) = ∑ c : Fin 384, X (ix2 i c) * W (ix2 c o) := by
  rw [grp5_eq]
  exact stack_apply 8000 _ X W _ r o i hi (by omega)

/-- Group 6 is the stack of its chunk products, piece `q` being the chunk at row `9600 + 100 q`. -/
theorem grp6_eq (X : S10000x384.Idx → EReal) (W : S384x128.Idx → EReal) :
    grp6 (F := Ideal) X W = concatenate S400x128 0 (List.ofFn fun q : Fin 4 =>
      (⟨S100x128, chunk (F := Ideal) (9600 + 100 * q.val) (slices_of_le _ (by omega)) X W⟩ : (s : Shape) × (s.Idx → EReal))) concatenates_S100x128_S100x128_S100x128_S100x128_S400x128_d0 := rfl
theorem grp6_apply (X : S10000x384.Idx → EReal) (W : S384x128.Idx → EReal) (r : Fin 400) (o : Fin 128) (i : Fin 10000)
    (hi : i.val = 9600 + r.val) : grp6 (F := Ideal) X W (ix2 r o) = ∑ c : Fin 384, X (ix2 i c) * W (ix2 c o) := by
  rw [grp6_eq]
  exact stack_apply 9600 _ X W _ r o i hi (by omega)

/-- Entry `(i, o)` of the stacked products is row `i` of `X` times column `o` of `W`: row `i` lies in group `i / 1600`. -/
theorem lin_apply (X : S10000x384.Idx → EReal) (W : S384x128.Idx → EReal) (i : Fin 10000) (o : Fin 128) :
    lin (F := Ideal) X W (ix2 i o) = ∑ c : Fin 384, X (ix2 i c) * W (ix2 c o) := by
  unfold lin
  have hc : i.val < 1600 ∨ (1600 ≤ i.val ∧ i.val < 3200) ∨ (3200 ≤ i.val ∧ i.val < 4800) ∨ (4800 ≤ i.val ∧ i.val < 6400)
      ∨ (6400 ≤ i.val ∧ i.val < 8000) ∨ (8000 ≤ i.val ∧ i.val < 9600) ∨ 9600 ≤ i.val := by omega
  rcases hc with h | h | h | h | h | h | h
  · refine (concatenate_apply_piece (0 : Fin 2) _ _ (ix2 i o) 0 (by simp) S1600x128 (grp0 X W) rfl rfl 0 rfl
      (ix2 ⟨i.val - 0, by omega⟩ o) (fun b hb => by
        match b with
        | ⟨0, _⟩ => exact absurd rfl hb
        | ⟨1, _⟩ => rfl) (by show 0 + (i.val - 0) = i.val; omega)).trans ?_
    exact grp0_apply X W _ o i (by show i.val = 0 + (i.val - 0); omega)
  · refine (concatenate_apply_piece (0 : Fin 2) _ _ (ix2 i o) 1 (by simp) S1600x128 (grp1 X W) rfl rfl 1600 rfl
      (ix2 ⟨i.val - 1600, by omega⟩ o) (fun b hb => by
        match b with
        | ⟨0, _⟩ => exact absurd rfl hb
        | ⟨1, _⟩ => rfl) (by show 1600 + (i.val - 1600) = i.val; omega)).trans ?_
    exact grp1_apply X W _ o i (by show i.val = 1600 + (i.val - 1600); omega)
  · refine (concatenate_apply_piece (0 : Fin 2) _ _ (ix2 i o) 2 (by simp) S1600x128 (grp2 X W) rfl rfl 3200 rfl
      (ix2 ⟨i.val - 3200, by omega⟩ o) (fun b hb => by
        match b with
        | ⟨0, _⟩ => exact absurd rfl hb
        | ⟨1, _⟩ => rfl) (by show 3200 + (i.val - 3200) = i.val; omega)).trans ?_
    exact grp2_apply X W _ o i (by show i.val = 3200 + (i.val - 3200); omega)
  · refine (concatenate_apply_piece (0 : Fin 2) _ _ (ix2 i o) 3 (by simp) S1600x128 (grp3 X W) rfl rfl 4800 rfl
      (ix2 ⟨i.val - 4800, by omega⟩ o) (fun b hb => by
        match b with
        | ⟨0, _⟩ => exact absurd rfl hb
        | ⟨1, _⟩ => rfl) (by show 4800 + (i.val - 4800) = i.val; omega)).trans ?_
    exact grp3_apply X W _ o i (by show i.val = 4800 + (i.val - 4800); omega)
  · refine (concatenate_apply_piece (0 : Fin 2) _ _ (ix2 i o) 4 (by simp) S1600x128 (grp4 X W) rfl rfl 6400 rfl
      (ix2 ⟨i.val - 6400, by omega⟩ o) (fun b hb => by
        match b with
        | ⟨0, _⟩ => exact absurd rfl hb
        | ⟨1, _⟩ => rfl) (by show 6400 + (i.val - 6400) = i.val; omega)).trans ?_
    exact grp4_apply X W _ o i (by show i.val = 6400 + (i.val - 6400); omega)
  · refine (concatenate_apply_piece (0 : Fin 2) _ _ (ix2 i o) 5 (by simp) S1600x128 (grp5 X W) rfl rfl 8000 rfl
      (ix2 ⟨i.val - 8000, by omega⟩ o) (fun b hb => by
        match b with
        | ⟨0, _⟩ => exact absurd rfl hb
        | ⟨1, _⟩ => rfl) (by show 8000 + (i.val - 8000) = i.val; omega)).trans ?_
    exact grp5_apply X W _ o i (by show i.val = 8000 + (i.val - 8000); omega)
  · refine (concatenate_apply_piece (0 : Fin 2) _ _ (ix2 i o) 6 (by simp) S400x128 (grp6 X W) rfl rfl 9600 rfl
      (ix2 ⟨i.val - 9600, by omega⟩ o) (fun b hb => by
        match b with
        | ⟨0, _⟩ => exact absurd rfl hb
        | ⟨1, _⟩ => rfl) (by show 9600 + (i.val - 9600) = i.val; omega)).trans ?_
    exact grp6_apply X W _ o i (by show i.val = 9600 + (i.val - 9600); omega)

end Cert.ReferenceIdeal.RefValue

end
-- ==== Proof.RefValue.lean ====
/-
  The reference program's result is the specification's.

  The run leaves `out` of the four arguments in the result buffer. At an entry `(i, o)` the rectifier reads the
  scalar rectifier of the stacked products' entry, that entry is row `i` of the concatenated features times column `o`
  of the weights, and each feature entry is the specification's `cat`: so `out` is the specification's `G`.
-/
import proofs.«146782_g82085414961676_cont_9to1_m_158_1_alg».proof.Proof.RefRun
import proofs.«146782_g82085414961676_cont_9to1_m_158_1_alg».proof.Proof.RefGroups

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The program's result is the specification's, entry by entry. -/
theorem out_eq (E : S10000x128.Idx → EReal) (A1 A2 : S10000x10000.Idx → EReal) (W : S384x128.Idx → EReal) :
    out (F := Ideal) E A1 A2 W = Cert.Spec.G E A1 A2 W := by
  funext j
  obtain ⟨i, o, rfl⟩ : ∃ (i : Fin 10000) (o : Fin 128), j = ix2 i o := ⟨j 0, j 1, eq_ix2 j⟩
  unfold out
  rw [leakyOf_apply, lin_apply]
  show _ = Cert.Spec.leaky (∑ c : Fin 384, Cert.Spec.cat E A1 A2 i c * W (ix2 c o))
  exact congrArg Cert.Spec.leaky (Finset.sum_congr rfl fun c _ => by rw [feat_apply])

/-- On every device, from any memory with zero counters: every weakly fair execution of the reference terminates with
    the specification's `G` of the four arguments' launch contents in the result buffer and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v211) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (out_eq _ _ _ _), (h c).2⟩) (run_out (F := Ideal) m ρ)

end Cert.ReferenceIdeal.RefValue

end
-- ==== Proof.lean ====
/-
  The two programs compute one function on the extended reals, given finite inputs.

  Reference: `leaky([ego | A_in · ego | A_out · ego] · W)`, the product taken in 100 row chunks and stacked back, which
  changes nothing entry by entry. Kernel: a first launch projects `ego` onto the three 128-row bands of `W` at once,
  `Y = ego · [W₀ | W₁ | W₂]`; the host cuts `Y` into its bands `Y₀, Y₁, Y₂`; a second launch, 200 rows at a time,
  stores `leaky(Y₀ + A_in · Y₁ + A_out · Y₂)`. The two agree because
  `(A · ego) · W_b = A · (ego · W_b)`, that is, by distributivity and an exchange of finite sums, valid on the
  extended reals once every entry is a real number — which the precondition (all inputs finite) provides. Both end
  with the same leaky rectifier, the same f32 constant for the slope, applied entry by entry.

  The kernel's run names every surviving buffer after the two launches (KRun), the second launch's array is one
  whole-array function of the buffers at its entry (KPay, KAgg), those are the projection's bands (KProj, KProjHost,
  KProjBands), the algebra and the finiteness are KAlg and KFin, and KTop puts the kernel side together. The
  reference's run and its value index by index are the Ref modules. No rewrite was applied by the idealization, so
  `preserves` has nothing to state.
-/
import proofs.«146782_g82085414961676_cont_9to1_m_158_1_alg».proof.Defs
import proofs.«146782_g82085414961676_cont_9to1_m_158_1_alg».proof.Proof.Gen.Kernel
import proofs.«146782_g82085414961676_cont_9to1_m_158_1_alg».proof.Proof.Gen.Kernel.Skeleton
import proofs.«146782_g82085414961676_cont_9to1_m_158_1_alg».proof.Proof.Gen.Kernel.Launch
import proofs.«146782_g82085414961676_cont_9to1_m_158_1_alg».proof.Proof.Gen.Kernel.Points
import proofs.«146782_g82085414961676_cont_9to1_m_158_1_alg».proof.Proof.Gen.Kernel.Frame
import proofs.«146782_g82085414961676_cont_9to1_m_158_1_alg».proof.Proof.Gen.KernelIdeal
import proofs.«146782_g82085414961676_cont_9to1_m_158_1_alg».proof.Proof.Gen.KernelIdeal.Skeleton
import proofs.«146782_g82085414961676_cont_9to1_m_158_1_alg».proof.Proof.Gen.KernelIdeal.Launch
import proofs.«146782_g82085414961676_cont_9to1_m_158_1_alg».proof.Proof.Gen.KernelIdeal.Points
import proofs.«146782_g82085414961676_cont_9to1_m_158_1_alg».proof.Proof.Gen.KernelIdeal.Frame
import proofs.«146782_g82085414961676_cont_9to1_m_158_1_alg».proof.Proof.Gen.ReferenceIdeal
import proofs.«146782_g82085414961676_cont_9to1_m_158_1_alg».proof.Proof.Gen.Pre_finite_inputs
import proofs.«146782_g82085414961676_cont_9to1_m_158_1_alg».proof.Proof.KTop
import proofs.«146782_g82085414961676_cont_9to1_m_158_1_alg».proof.Proof.KFin
import proofs.«146782_g82085414961676_cont_9to1_m_158_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the idealized reference: its run with the result forgotten. -/
theorem frame_ri : Cert.frame_ReferenceIdeal := fun m ρ _ =>
  (θ_run Cert.ReferenceIdeal.defs _ _).mono (fun _ h c => (h c).2) (Cert.ReferenceIdeal.RefValue.run m ρ)

/-- The idealized kernel program, from finite inputs, ends with its result buffer holding `G` of its arguments. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7)
        = Cert.Spec.G (Cert.KernelIdeal.KTop.ego m c) (Cert.KernelIdeal.KTop.ain m c) (Cert.KernelIdeal.KTop.aout m c) (Cert.KernelIdeal.KTop.wgt m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run Cert.KernelIdeal.defs _ _).mono (fun r h c => ⟨(h c).1.trans ?_, (h c).2⟩) (Cert.KernelIdeal.KValue.run (F := Ideal) m ρ)
  obtain ⟨f0, f1, f2, f3⟩ := Cert.Finite.finite_of_pre _ _ _ _ (hpre c)
  exact Cert.KernelIdeal.KTop.value m ρ c f0 f1 f2 f3

/-- From memories that agree on the arguments, both idealized programs end with the same result, `G` of the
    arguments: the kernel by `kernel_run`, the reference by its run read index by index. -/
theorem algebraic : Cert.algebraic_KernelIdeal_ReferenceIdeal := by
  intro m ρ m' ρ' hpre hagree
  refine ⟨fun c => Cert.Spec.G (Cert.KernelIdeal.KTop.ego m c) (Cert.KernelIdeal.KTop.ain m c) (Cert.KernelIdeal.KTop.aout m c) (Cert.KernelIdeal.KTop.wgt m c),
    kernel_run m ρ hpre, ?_⟩
  refine (θ_run Cert.ReferenceIdeal.defs _ _).mono (fun r h c => ⟨(h c).1.trans ?_, (h c).2⟩) (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
